-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v191)) (v1 : (c : Dev Cert.KernelIdeal.nD) → Buf (Elt Ideal) ((c.tc : Thread Cert.KernelIdeal.nD Cert.KernelIdeal.τ).loc Cert.KernelIdeal.main_v193)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v191) = v0 c
          ∧ r.2.mem ((c.tc : Thread Cert.KernelIdeal.nD Cert.KernelIdeal.τ).loc Cert.KernelIdeal.main_v193) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v233) = v0 c
          ∧ r.2.mem ((c.tc : Thread Cert.ReferenceIdeal.nD Cert.ReferenceIdeal.τ).loc Cert.ReferenceIdeal.main_v237) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S20000x128 : Shape := ⟨2, ![20000, 128]⟩
abbrev S256x256 : Shape := ⟨2, ![256, 256]⟩
abbrev S256 : Shape := ⟨1, ![256]⟩
abbrev S128x256 : Shape := ⟨2, ![128, 256]⟩
abbrev S2x3x256x256 : Shape := ⟨4, ![2, 3, 256, 256]⟩
abbrev S2x3x256 : Shape := ⟨3, ![2, 3, 256]⟩
abbrev S2x800000 : Shape := ⟨2, ![2, 800000]⟩
abbrev S2x400000 : Shape := ⟨2, ![2, 400000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S2x3x256x256 : S_.BroadcastsInDim S2x3x256x256 (![] : Fin 0 → Fin S2x3x256x256.rank)
  reducesTo_S2x3x256x256_S_d0_1_2_3 : S2x3x256x256.ReducesTo [0, 1, 2, 3] S_
  bcast_S_S2x3x256 : S_.BroadcastsInDim S2x3x256 (![] : Fin 0 → Fin S2x3x256.rank)
  reducesTo_S2x3x256_S_d0_1_2 : S2x3x256.ReducesTo [0, 1, 2] S_

variable [Facts]

def fn_part3 {F : FTy → Type} [FloatOps F] (main_arg11 : FVec F S256x256 .f32) (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S2x3x256 .f32) (main_arg8 : FVec F S2x3x256x256 .f32) (main_arg9 : FVec F S256x256 .f32) (main_arg10 : FVec F S256 .f32) (main_arg11 : FVec F S256x256 .f32) (main_arg12 : FVec F S256 .f32) (main_v33 : IVec S_ 1) : IVec S_ 1 :=
  let main_v34 : FVec F S2x3x256 .f32 := Host.absf main_arg7
  let main_cst_12 : FVec F S_ .f32 := constant S_ .f32 0x7F800000#32
  let main_v35 : FVec F S2x3x256 .f32 := broadcastInDim S2x3x256 ![] bcast_S_S2x3x256 main_cst_12
  let main_v36 : IVec S2x3x256 1 := cmpf .olt main_v34 main_v35
  let main_c_13 : IVec S_ 1 := constantI S_ 1 1#1
  let main_v37 : IVec S_ 1 := (fun x v => Host.reduce IntOp.andi x v reducesTo_S2x3x256_S_d0_1_2 h_S_) main_v36 main_c_13
  let main_v38 : IVec S_ 1 := andi main_v33 main_v37
  let main_v39 : FVec F S2x3x256x256 .f32 := Host.absf main_arg8
  let main_cst_14 : FVec F S_ .f32 := constant S_ .f32 0x7F800000#32
  let main_v40 : FVec F S2x3x256x256 .f32 := broadcastInDim S2x3x256x256 ![] bcast_S_S2x3x256x256 main_cst_14
  let main_v41 : IVec S2x3x256x256 1 := cmpf .olt main_v39 main_v40
  let main_c_15 : IVec S_ 1 := constantI S_ 1 1#1
  let main_v42 : IVec S_ 1 := (fun x v => Host.reduce IntOp.andi x v reducesTo_S2x3x256x256_S_d0_1_2_3 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S128x256 .f32) (main_arg5 : FVec F S256 .f32) (main_arg6 : FVec F S2x3x256x256 .f32) (main_arg7 : FVec F S2x3x256 .f32) (main_arg8 : FVec F S2x3x256x256 .f32) (main_arg9 : FVec F S256x256 .f32) (main_arg10 : FVec F S256 .f32) (main_arg11 : FVec F S256x256 .f32) (main_arg12 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S2x3x256x256 .f32 := Host.absf main_arg6
  let main_cst_10 : FVec F S_ .f32 := constant S_ .f32 0x7F800000#32
  let main_v30 : FVec F S2x3x256x256 .f32 := broadcastInDim S2x3x256x256 ![] bcast_S_S2x3x256x256 main_cst_10
  let main_v31 : IVec S2x3x256x256 1 := cmpf .olt main_v29 main_v30
  let main_c_11 : IVec S_ 1 := constantI S_ 1 1#1
  let main_v32 : IVec S_ 1 := (fun x v => Host.reduce IntOp.andi x v reducesTo_S2x3x256x256_S_d0_1_2_3 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S50000x256 .f32) (main_arg1 : FVec F S20000x128 .f32) (main_arg2 : FVec F S256x256 .f32) (main_arg3 : FVec F S256 .f32) (main_arg4 : FVec F S128x256 .f32) (main_arg5 : FVec F S256 .f32) (main_arg6 : FVec F S2x3x256x256 .f32) (main_arg7 : FVec F S2x3x256 .f32) (main_arg8 : FVec F S2x3x256x256 .f32) (main_arg9 : FVec F S256x256 .f32) (main_arg10 : FVec F S256 .f32) (main_arg11 : FVec F S256x256 .f32) (main_arg12 : FVec F S256 .f32) (main_arg13 : IVec S2x800000 32) (main_arg14 : IVec S2x400000 32) (main_arg15 : IVec S2x400000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_v13 main_v16
-- ==== Kernel.lean ====
abbrev S50000x256 : Shape := ⟨2, ![50000, 256]⟩
abbrev S20000x128 : Shape := ⟨2, ![20000, 128]⟩
abbrev S256x256 : Shape := ⟨2, ![256, 256]⟩
abbrev S256 : Shape := ⟨1, ![256]⟩
abbrev S128x256 : Shape := ⟨2, ![128, 256]⟩
abbrev S2x3x256x256 : Shape := ⟨4, ![2, 3, 256, 256]⟩
abbrev S2x3x256 : Shape := ⟨3, ![2, 3, 256]⟩
abbrev S2x800000 : Shape := ⟨2, ![2, 800000]⟩
abbrev S2x400000 : Shape := ⟨2, ![2, 400000]⟩
abbrev S1x256 : Shape := ⟨2, ![1, 256]⟩
abbrev S2000x256 : Shape := ⟨2, ![2000, 256]⟩
abbrev S20000x256 : Shape := ⟨2, ![20000, 256]⟩
abbrev S2000x128 : Shape := ⟨2, ![2000, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x400000 : Shape := ⟨2, ![1, 400000]⟩
abbrev S400000 : Shape := ⟨1, ![400000]⟩
abbrev S400000x1 : Shape := ⟨2, ![400000, 1]⟩
abbrev S400000x256 : Shape := ⟨2, ![400000, 256]⟩
abbrev S20000 : Shape := ⟨1, ![20000]⟩
abbrev S20000x1 : Shape := ⟨2, ![20000, 1]⟩
abbrev S1x1x256x256 : Shape := ⟨4, ![1, 1, 256, 256]⟩
abbrev S1x1x256 : Shape := ⟨3, ![1, 1, 256]⟩

abbrev nBuf : Space → Nat
  | .hbm => 246
  | .vmem => 66
  | .smem => 0
  | _ => 0

abbrev hbmTy0_0 (i : Nat) : BufTy := match i % 128 with
  | 0 => ⟨S50000x256, .f32⟩
  | 1 => ⟨S20000x128, .f32⟩
  | 2 => ⟨S256x256, .f32⟩
  | 3 => ⟨S256, .f32⟩
  | 4 => ⟨S128x256, .f32⟩
  | 5 => ⟨S256, .f32⟩
  | 6 => ⟨S2x3x256x256, .f32⟩
  | 7 => ⟨S2x3x256, .f32⟩
  | 8 => ⟨S2x3x256x256, .f32⟩
  | 9 => ⟨S256x256, .f32⟩
  | 10 => ⟨S256, .f32⟩
  | 11 => ⟨S256x256, .f32⟩
  | 12 => ⟨S256, .f32⟩
  | 13 => ⟨S2x800000, .i32⟩
  | 14 => ⟨S2x400000, .i32⟩
  | 15 => ⟨S2x400000, .i32⟩
  | 16 => ⟨S1x256, .f32⟩
  | 17 => ⟨S50000x256, .f32⟩
  | 18 => ⟨S1x256, .f32⟩
  | 19 => ⟨S20000x256, .f32⟩
  | 20 => ⟨S1x800000, .i32⟩
  | 21 => ⟨S800000, .i32⟩
  | 22 => ⟨S1x800000, .i32⟩
  | 23 => ⟨S800000, .i32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x256, .f32⟩
  | 33 => ⟨S_, .f32⟩
  | 34 => ⟨S50000x256, .f32⟩
  | 35 => ⟨S800000x1, .i32⟩
  | 36 => ⟨S50000x256, .f32⟩
  | 37 => ⟨S_, .f32⟩
  | 38 => ⟨S800000, .f32⟩
  | 39 => ⟨S_, .f32⟩
  | 40 => ⟨S50000, .f32⟩
  | 41 => ⟨S800000x1, .i32⟩
  | 42 => ⟨S50000, .f32⟩
  | 43 => ⟨S_, .f32⟩
  | 44 => ⟨S50000, .f32⟩
  | 45 => ⟨S50000, .f32⟩
  | 46 => ⟨S50000x1, .f32⟩
  | 47 => ⟨S50000x256, .f32⟩
  | 48 => ⟨S50000x256, .f32⟩
  | 49 => ⟨S1x400000, .i32⟩
  | 50 => ⟨S400000, .i32⟩
  | 51 => ⟨S1x400000, .i32⟩
  | 52 => ⟨S400000, .i32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S400000x256, .f32⟩
  | 62 => ⟨S_, .f32⟩
  | 63 => ⟨S20000x256, .f32⟩
  | 64 => ⟨S400000x1, .i32⟩
  | 65 => ⟨S20000x256, .f32⟩
  | 66 => ⟨S_, .f32⟩
  | 67 => ⟨S400000, .f32⟩
  | 68 => ⟨S_, .f32⟩
  | 69 => ⟨S20000, .f32⟩
  | 70 => ⟨S400000x1, .i32⟩
  | 71 => ⟨S20000, .f32⟩
  | 72 => ⟨S_, .f32⟩
  | 73 => ⟨S20000, .f32⟩
  | 74 => ⟨S20000, .f32⟩
  | 75 => ⟨S20000x1, .f32⟩
  | 76 => ⟨S20000x256, .f32⟩
  | 77 => ⟨S20000x256, .f32⟩
  | 78 => ⟨S1x400000, .i32⟩
  | 79 => ⟨S400000, .i32⟩
  | 80 => ⟨S1x400000, .i32⟩
  | 81 => ⟨S400000, .i32⟩
  | 82 => ⟨S_, .i32⟩
  | 83 => ⟨S400000, .i32⟩
  | 84 => ⟨S400000, .i1⟩
  | 85 => ⟨S_, .i32⟩
  | 86 => ⟨S400000, .i32⟩
  | 87 => ⟨S400000, .i32⟩
  | 88 => ⟨S400000, .i32⟩
  | 89 => ⟨S400000x1, .i32⟩
  | 90 => ⟨S400000x256, .f32⟩
  | 91 => ⟨S_, .f32⟩
  | 92 => ⟨S50000x256, .f32⟩
  | 93 => ⟨S400000x1, .i32⟩
  | 94 => ⟨S50000x256, .f32⟩
  | 95 => ⟨S_, .f32⟩
  | 96 => ⟨S400000, .f32⟩
  | 97 => ⟨S_, .f32⟩
  | 98 => ⟨S50000, .f32⟩
  | 99 => ⟨S400000x1, .i32⟩
  | 100 => ⟨S50000, .f32⟩
  | 101 => ⟨S_, .f32⟩
  | 102 => ⟨S50000, .f32⟩
  | 103 => ⟨S50000, .f32⟩
  | 104 => ⟨S50000x1, .f32⟩
  | 105 => ⟨S50000x256, .f32⟩
  | 106 => ⟨S50000x256, .f32⟩
  | 107 => ⟨S1x1x256x256, .f32⟩
  | 108 => ⟨S256x256, .f32⟩
  | 109 => ⟨S1x1x256x256, .f32⟩
  | 110 => ⟨S256x256, .f32⟩
  | 111 => ⟨S256x256, .f32⟩
  | 112 => ⟨S1x1x256, .f32⟩
  | 113 => ⟨S256, .f32⟩
  | 114 => ⟨S1x1x256, .f32⟩
  | 115 => ⟨S256, .f32⟩
  | 116 => ⟨S256, .f32⟩
  | 117 => ⟨S1x1x256x256, .f32⟩
  | 118 => ⟨S256x256, .f32⟩
  | 119 => ⟨S1x1x256x256, .f32⟩
  | 120 => ⟨S256x256, .f32⟩
  | 121 => ⟨S1x256, .f32⟩
  | 122 => ⟨S50000x256, .f32⟩
  | 123 => ⟨S1x1x256x256, .f32⟩
  | 124 => ⟨S256x256, .f32⟩
  | 125 => ⟨S1x1x256x256, .f32⟩
  | 126 => ⟨S256x256, .f32⟩
  | 127 => ⟨S1x1x256, .f32⟩
  | _ => ⟨S50000x256, .f32⟩

abbrev hbmTy0_1 (i : Nat) : BufTy := match i % 128 with
  | 0 => ⟨S256, .f32⟩
  | 1 => ⟨S1x256, .f32⟩
  | 2 => ⟨S20000x256, .f32⟩
  | 3 => ⟨S1x800000, .i32⟩
  | 4 => ⟨S800000, .i32⟩
  | 5 => ⟨S1x800000, .i32⟩
  | 6 => ⟨S800000, .i32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x256, .f32⟩
  | 16 => ⟨S_, .f32⟩
  | 17 => ⟨S50000x256, .f32⟩
  | 18 => ⟨S800000x1, .i32⟩
  | 19 => ⟨S50000x256, .f32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S50000, .f32⟩
  | 28 => ⟨S50000, .f32⟩
  | 29 => ⟨S50000x1, .f32⟩
  | 30 => ⟨S50000x256, .f32⟩
  | 31 => ⟨S50000x256, .f32⟩
  | 32 => ⟨S1x400000, .i32⟩
  | 33 => ⟨S400000, .i32⟩
  | 34 => ⟨S1x400000, .i32⟩
  | 35 => ⟨S400000, .i32⟩
  | 36 => ⟨S_, .i32⟩
  | 37 => ⟨S400000, .i32⟩
  | 38 => ⟨S400000, .i1⟩
  | 39 => ⟨S_, .i32⟩
  | 40 => ⟨S400000, .i32⟩
  | 41 => ⟨S400000, .i32⟩
  | 42 => ⟨S400000, .i32⟩
  | 43 => ⟨S400000x1, .i32⟩
  | 44 => ⟨S400000x256, .f32⟩
  | 45 => ⟨S_, .f32⟩
  | 46 => ⟨S20000x256, .f32⟩
  | 47 => ⟨S400000x1, .i32⟩
  | 48 => ⟨S20000x256, .f32⟩
  | 49 => ⟨S_, .f32⟩
  | 50 => ⟨S400000, .f32⟩
  | 51 => ⟨S_, .f32⟩
  | 52 => ⟨S20000, .f32⟩
  | 53 => ⟨S400000x1, .i32⟩
  | 54 => ⟨S20000, .f32⟩
  | 55 => ⟨S_, .f32⟩
  | 56 => ⟨S20000, .f32⟩
  | 57 => ⟨S20000, .f32⟩
  | 58 => ⟨S20000x1, .f32⟩
  | 59 => ⟨S20000x256, .f32⟩
  | 60 => ⟨S20000x256, .f32⟩
  | 61 => ⟨S1x400000, .i32⟩
  | 62 => ⟨S400000, .i32⟩
  | 63 => ⟨S1x400000, .i32⟩
  | 64 => ⟨S400000, .i32⟩
  | 65 => ⟨S_, .i32⟩
  | 66 => ⟨S400000, .i32⟩
  | 67 => ⟨S400000, .i1⟩
  | 68 => ⟨S_, .i32⟩
  | 69 => ⟨S400000, .i32⟩
  | 70 => ⟨S400000, .i32⟩
  | 71 => ⟨S400000, .i32⟩
  | 72 => ⟨S400000x1, .i32⟩
  | 73 => ⟨S400000x256, .f32⟩
  | 74 => ⟨S_, .f32⟩
  | 75 => ⟨S50000x256, .f32⟩
  | 76 => ⟨S400000x1, .i32⟩
  | 77 => ⟨S50000x256, .f32⟩
  | 78 => ⟨S_, .f32⟩
  | 79 => ⟨S400000, .f32⟩
  | 80 => ⟨S_, .f32⟩
  | 81 => ⟨S50000, .f32⟩
  | 82 => ⟨S400000x1, .i32⟩
  | 83 => ⟨S50000, .f32⟩
  | 84 => ⟨S_, .f32⟩
  | 85 => ⟨S50000, .f32⟩
  | 86 => ⟨S50000, .f32⟩
  | 87 => ⟨S50000x1, .f32⟩
  | 88 => ⟨S50000x256, .f32⟩
  | 89 => ⟨S50000x256, .f32⟩
  | 90 => ⟨S1x1x256x256, .f32⟩
  | 91 => ⟨S256x256, .f32⟩
  | 92 => ⟨S1x1x256x256, .f32⟩
  | 93 => ⟨S256x256, .f32⟩
  | 94 => ⟨S256x256, .f32⟩
  | 95 => ⟨S1x1x256, .f32⟩
  | 96 => ⟨S256, .f32⟩
  | 97 => ⟨S1x1x256, .f32⟩
  | 98 => ⟨S256, .f32⟩
  | 99 => ⟨S256, .f32⟩
  | 100 => ⟨S1x1x256x256, .f32⟩
  | 101 => ⟨S256x256, .f32⟩
  | 102 => ⟨S1x1x256x256, .f32⟩
  | 103 => ⟨S256x256, .f32⟩
  | 104 => ⟨S1x256, .f32⟩
  | 105 => ⟨S50000x256, .f32⟩
  | 106 => ⟨S1x1x256x256, .f32⟩
  | 107 => ⟨S256x256, .f32⟩
  | 108 => ⟨S1x1x256x256, .f32⟩
  | 109 => ⟨S256x256, .f32⟩
  | 110 => ⟨S1x1x256, .f32⟩
  | 111 => ⟨S256, .f32⟩
  | 112 => ⟨S1x256, .f32⟩
  | 113 => ⟨S20000x256, .f32⟩
  | 114 => ⟨S1x256, .f32⟩
  | 115 => ⟨S50000x256, .f32⟩
  | 116 => ⟨S1x256, .f32⟩
  | 117 => ⟨S20000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x128, .f32⟩
  | .local _ .vmem, ⟨7, _⟩ => ⟨S2000x128, .f32⟩
  | .local _ .vmem, ⟨8, _⟩ => ⟨S128x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S2000x256, .f32⟩
  | .local _ .vmem, ⟨16, _⟩ => ⟨S2000x256, .f32⟩
  | .local _ .vmem, ⟨17, _⟩ => ⟨S256x256, .f32⟩
  | .local _ .vmem, ⟨18, _⟩ => ⟨S2000x256, .f32⟩
  | .local _ .vmem, ⟨19, _⟩ => ⟨S2000x256, .f32⟩
  | .local _ .vmem, ⟨20, _⟩ => ⟨S256x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S256x256, .f32⟩
  | .local _ .vmem, ⟨27, _⟩ => ⟨S2000x256, .f32⟩
  | .local _ .vmem, ⟨28, _⟩ => ⟨S2000x256, .f32⟩
  | .local _ .vmem, ⟨29, _⟩ => ⟨S256x256, .f32⟩
  | .local _ .vmem, ⟨30, _⟩ => ⟨S1x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S256x256, .f32⟩
  | .local _ .vmem, ⟨36, _⟩ => ⟨S2000x256, .f32⟩
  | .local _ .vmem, ⟨37, _⟩ => ⟨S2000x256, .f32⟩
  | .local _ .vmem, ⟨38, _⟩ => ⟨S256x256, .f32⟩
  | .local _ .vmem, ⟨39, _⟩ => ⟨S2000x256, .f32⟩
  | .local _ .vmem, ⟨40, _⟩ => ⟨S2000x256, .f32⟩
  | .local _ .vmem, ⟨41, _⟩ => ⟨S256x256, .f32⟩
  | .local _ .vmem, ⟨42, _⟩ => ⟨S1x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S256x256, .f32⟩
  | .local _ .vmem, ⟨48, _⟩ => ⟨S2000x256, .f32⟩
  | .local _ .vmem, ⟨49, _⟩ => ⟨S2000x256, .f32⟩
  | .local _ .vmem, ⟨50, _⟩ => ⟨S256x256, .f32⟩
  | .local _ .vmem, ⟨51, _⟩ => ⟨S1x256, .f32⟩
  | .local _ .vmem, ⟨52, _⟩ => ⟨S2000x256, .f32⟩
  | .local _ .vmem, ⟨53, _⟩ => ⟨S2000x256, .f32⟩
  | .local _ .vmem, ⟨54, _⟩ => ⟨S2000x256, .f32⟩
  | .local _ .vmem, ⟨55, _⟩ => ⟨S2000x256, .f32⟩
  | .local _ .vmem, ⟨56, _⟩ => ⟨S256x256, .f32⟩
  | .local _ .vmem, ⟨57, _⟩ => ⟨S1x256, .f32⟩
  | .local _ .vmem, ⟨58, _⟩ => ⟨S2000x256, .f32⟩
  | .local _ .vmem, ⟨59, _⟩ => ⟨S2000x256, .f32⟩
  | .local _ .vmem, ⟨60, _⟩ => ⟨S2000x256, .f32⟩
  | .local _ .vmem, ⟨61, _⟩ => ⟨S2000x256, .f32⟩
  | .local _ .vmem, ⟨62, _⟩ => ⟨S256x256, .f32⟩
  | .local _ .vmem, ⟨63, _⟩ => ⟨S1x256, .f32⟩
  | .local _ .vmem, ⟨64, _⟩ => ⟨S2000x256, .f32⟩
  | .local _ .vmem, ⟨65, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_4 : Ref sig .tc := ⟨.hbm, 53, rfl⟩
abbrev main_v31 : Ref sig .tc := ⟨.hbm, 54, rfl⟩
abbrev main_v32 : Ref sig .tc := ⟨.hbm, 55, rfl⟩
abbrev main_c_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_7 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_9 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_10 : Ref sig .tc := ⟨.hbm, 82, rfl⟩
abbrev main_v54 : Ref sig .tc := ⟨.hbm, 83, rfl⟩
abbrev main_v55 : Ref sig .tc := ⟨.hbm, 84, rfl⟩
abbrev main_c_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_12 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_13 : Ref sig .tc := ⟨.hbm, 95, rfl⟩
abbrev main_v64 : Ref sig .tc := ⟨.hbm, 96, rfl⟩
abbrev main_cst_14 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_15 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_c_16 : Ref sig .tc := ⟨.hbm, 135, rfl⟩
abbrev main_v101 : Ref sig .tc := ⟨.hbm, 136, rfl⟩
abbrev main_v102 : Ref sig .tc := ⟨.hbm, 137, rfl⟩
abbrev main_c_17 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_18 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_19 : Ref sig .tc := ⟨.hbm, 148, rfl⟩
abbrev main_v111 : Ref sig .tc := ⟨.hbm, 149, rfl⟩
abbrev main_cst_20 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_21 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_c_22 : Ref sig .tc := ⟨.hbm, 164, rfl⟩
abbrev main_v124 : Ref sig .tc := ⟨.hbm, 165, rfl⟩
abbrev main_v125 : Ref sig .tc := ⟨.hbm, 166, rfl⟩
abbrev main_c_23 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_24 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_cst_25 : Ref sig .tc := ⟨.hbm, 177, rfl⟩
abbrev main_v134 : Ref sig .tc := ⟨.hbm, 178, rfl⟩
abbrev main_cst_26 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_27 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_c_28 : Ref sig .tc := ⟨.hbm, 193, rfl⟩
abbrev main_v147 : Ref sig .tc := ⟨.hbm, 194, rfl⟩
abbrev main_v148 : Ref sig .tc := ⟨.hbm, 195, rfl⟩
abbrev main_c_29 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_cst_30 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_cst_31 : Ref sig .tc := ⟨.hbm, 206, rfl⟩
abbrev main_v157 : Ref sig .tc := ⟨.hbm, 207, rfl⟩
abbrev main_cst_32 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_cst_33 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg4_1 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg7_0 : Ref sig .tc := ⟨.vmem, 43, rfl⟩
abbrev cc4_stg7_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg2_0 : Ref sig .tc := ⟨.vmem, 48, rfl⟩
abbrev cc5_stg2_1 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg3_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg2_0 : Ref sig .tc := ⟨.vmem, 63, rfl⟩
abbrev cc7_stg3_0 : Ref sig .tc := ⟨.vmem, 64, rfl⟩
abbrev cc7_stg3_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev cc2_sem5_0 : DmaSem sig := 20
abbrev cc2_sem6_0 : DmaSem sig := 21
abbrev cc2_sem7_0 : DmaSem sig := 22
abbrev cc2_sem7_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem2_1 : DmaSem sig := 37
abbrev cc4_sem3_0 : DmaSem sig := 38
abbrev cc4_sem4_0 : DmaSem sig := 39
abbrev cc4_sem4_1 : DmaSem sig := 40
abbrev cc4_sem5_0 : DmaSem sig := 41
abbrev cc4_sem6_0 : DmaSem sig := 42
abbrev cc4_sem7_0 : DmaSem sig := 43
abbrev cc4_sem7_1 : DmaSem sig := 44
abbrev cc5_sem0_0 : DmaSem sig := 45
abbrev cc5_sem0_1 : DmaSem sig := 46
abbrev cc5_sem1_0 : DmaSem sig := 47
abbrev cc5_sem2_0 : DmaSem sig := 48
abbrev cc5_sem2_1 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem3_1 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem3_0 : DmaSem sig := 64
abbrev cc7_sem3_1 : DmaSem sig := 65

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x128_S2000x128_0_0 : ∀ a, (![0, 0] : Fin 2 → Nat) a + S2000x128.size a ≤ S2000x128.size a
  h_S2000x128 : 0 < S2000x128.numel
  inb_S128x256_S128x256_0_0 : ∀ a, (![0, 0] : Fin 2 → Nat) a + S128x256.size a ≤ S128x256.size a
  h_S128x256 : 0 < S128x256.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  slices_S2x3x256x256_S1x1x256x256_0_0_0_0 : S2x3x256x256.Slices ![0, 0, 0, 0] S1x1x256x256
  shapeCasts_S1x1x256x256_S256x256 : S1x1x256x256.ShapeCasts S256x256
  slices_S2x3x256x256_S1x1x256x256_0_2_0_0 : S2x3x256x256.Slices ![0, 2, 0, 0] S1x1x256x256
  slices_S2x3x256_S1x1x256_0_0_0 : S2x3x256.Slices ![0, 0, 0] S1x1x256
  shapeCasts_S1x1x256_S256 : S1x1x256.ShapeCasts S256
  slices_S2x3x256_S1x1x256_0_2_0 : S2x3x256.Slices ![0, 2, 0] S1x1x256
  shapeCasts_S2000x256_S2000x256 : S2000x256.ShapeCasts S2000x256
  shapeCasts_S256x256_S256x256 : S256x256.ShapeCasts S256x256
  slices_S2x3x256x256_S1x1x256x256_0_1_0_0 : S2x3x256x256.Slices ![0, 1, 0, 0] S1x1x256x256
  slices_S2x3x256_S1x1x256_0_1_0 : S2x3x256.Slices ![0, 1, 0] S1x1x256
  slices_S2x3x256x256_S1x1x256x256_1_0_0_0 : S2x3x256x256.Slices ![1, 0, 0, 0] S1x1x256x256
  slices_S2x3x256x256_S1x1x256x256_1_2_0_0 : S2x3x256x256.Slices ![1, 2, 0, 0] S1x1x256x256
  slices_S2x3x256_S1x1x256_1_0_0 : S2x3x256.Slices ![1, 0, 0] S1x1x256
  slices_S2x3x256_S1x1x256_1_2_0 : S2x3x256.Slices ![1, 2, 0] S1x1x256
  slices_S2x3x256x256_S1x1x256x256_1_1_0_0 : S2x3x256x256.Slices ![1, 1, 0, 0] S1x1x256x256
  slices_S2x3x256_S1x1x256_1_1_0 : S2x3x256.Slices ![1, 1, 0] S1x1x256
  dot_S2000x256_S256x256_S2000x256_1_0_0_1_n_n_wf : DotDims.WF S2000x256 S256x256 S2000x256 [1] [0] [0] [1] [] []
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  gather_S50000x256_S400000x1_S400000x256_1_0_n_n_0_1_1256_wf : GatherDims.WF S50000x256 S400000x1 S400000x256 [1] [0] [] [0] [] 1 ![1, 256]
  scatter_S20000x256_S400000x1_S400000x256_1_0_0_1_wf : ScatterDims.WF S20000x256 S400000x1 S400000x256 [1] [0] [0] 1
  scatter_S20000_S400000x1_S400000_n_0_0_1_wf : ScatterDims.WF S20000 S400000x1 S400000 [] [0] [0] 1
  gather_S20000x256_S400000x1_S400000x256_1_0_n_n_0_1_1256_wf : GatherDims.WF S20000x256 S400000x1 S400000x256 [1] [0] [] [0] [] 1 ![1, 256]
  scatter_S50000x256_S400000x1_S400000x256_1_0_0_1_wf : ScatterDims.WF S50000x256 S400000x1 S400000x256 [1] [0] [0] 1
  scatter_S50000_S400000x1_S400000_n_0_0_1_wf : ScatterDims.WF S50000 S400000x1 S400000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S20000x256.size a
  hwx1_3 : ∀ i : grid1.Coords, EltTy.bits .f32 = 32 ∨ (Rect.block (s := S20000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .f32 = 32 ∨ (Rect.block (s := S50000x256) S2000x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x256.size a ≤ S50000x256.size a
  hwx2_7 : ∀ i : grid2.Coords, EltTy.bits .f32 = 32 ∨ (Rect.block (s := S50000x256) S2000x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S20000x256.size a
  hwx3_2 : ∀ i : grid3.Coords, EltTy.bits .f32 = 32 ∨ (Rect.block (s := S20000x256) S2000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S20000x256.size a
  hwx3_5 : ∀ i : grid3.Coords, EltTy.bits .f32 = 32 ∨ (Rect.block (s := S20000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S50000x256.size a
  hwx4_2 : ∀ i : grid4.Coords, EltTy.bits .f32 = 32 ∨ (Rect.block (s := S50000x256) S2000x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x256.size a ≤ S50000x256.size a
  hwx4_4 : ∀ i : grid4.Coords, EltTy.bits .f32 = 32 ∨ (Rect.block (s := S50000x256) S2000x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .f32 = 32 ∨ (Rect.block (s := S256x256) S256x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x256.size a ≤ S50000x256.size a
  hwx4_7 : ∀ i : grid4.Coords, EltTy.bits .f32 = 32 ∨ (Rect.block (s := S50000x256) S2000x256.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S20000x256.size a
  hwx5_0 : ∀ i : grid5.Coords, EltTy.bits .f32 = 32 ∨ (Rect.block (s := S20000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x256.size a ≤ S20000x256.size a
  hwx5_2 : ∀ i : grid5.Coords, EltTy.bits .f32 = 32 ∨ (Rect.block (s := S20000x256) S2000x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .f32 = 32 ∨ (Rect.block (s := S256x256) S256x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S20000x256.size a
  hwx5_5 : ∀ i : grid5.Coords, EltTy.bits .f32 = 32 ∨ (Rect.block (s := S20000x256) S2000x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x256.size a ≤ S50000x256.size a
  hwx6_3 : ∀ i : grid6.Coords, EltTy.bits .f32 = 32 ∨ (Rect.block (s := S50000x256) S2000x256.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S20000x256.size a
  hwx7_0 : ∀ i : grid7.Coords, EltTy.bits .f32 = 32 ∨ (Rect.block (s := S20000x256) S2000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x256.size a ≤ S256x256.size a
  hwx7_1 : ∀ i : grid7.Coords, EltTy.bits .f32 = 32 ∨ (Rect.block (s := S256x256) S256x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x256.size a ≤ S20000x256.size a
  hwx7_3 : ∀ i : grid7.Coords, EltTy.bits .f32 = 32 ∨ (Rect.block (s := S20000x256) S2000x256.size (cc7_transform_3 i) (hinb7_3 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S20000x256_S400000x1_S400000x256_1_0_0_1 : ScatterDims S20000x256 S400000x1 S400000x256 where
  updateWindowDims := [1]
  insertedWindowDims := [0]
  scatterDimsToOperandDims := [0]
  indexVectorDim := 1
  wf := scatter_S20000x256_S400000x1_S400000x256_1_0_0_1_wf
def scatter_S20000_S400000x1_S400000_n_0_0_1 : ScatterDims S20000 S400000x1 S400000 where
  updateWindowDims := []
  insertedWindowDims := [0]
  scatterDimsToOperandDims := [0]
  indexVectorDim := 1
  wf := scatter_S20000_S400000x1_S400000_n_0_0_1_wf
def gather_S20000x256_S400000x1_S400000x256_1_0_n_n_0_1_1256 : GatherDims S20000x256 S400000x1 S400000x256 where
  offsetDims := [1]
  collapsedSliceDims := [0]
  operandBatchingDims := []
  startIndicesBatchingDims := []
  startIndexMap := [0]
  indexVectorDim := 1
  sliceSizes := ![1, 256]
  wf := gather_S20000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v84) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v86) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v1) S2000x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v77) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v87) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v88) S2000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v49) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v92) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v95) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v96) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v119) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v177) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v165) S2000x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v179) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v88) S2000x256.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v170) S256x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v180) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v181) S2000x256.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v142) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v183) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v96) S2000x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v185) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v188) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v189) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v181) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v190) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v191) S2000x256.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v189) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg11) S256x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v192) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v193) S2000x256.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x256 : Shape := ⟨2, ![50000, 256]⟩
abbrev S20000x128 : Shape := ⟨2, ![20000, 128]⟩
abbrev S256x256 : Shape := ⟨2, ![256, 256]⟩
abbrev S256 : Shape := ⟨1, ![256]⟩
abbrev S128x256 : Shape := ⟨2, ![128, 256]⟩
abbrev S2x3x256x256 : Shape := ⟨4, ![2, 3, 256, 256]⟩
abbrev S2x3x256 : Shape := ⟨3, ![2, 3, 256]⟩
abbrev S2x800000 : Shape := ⟨2, ![2, 800000]⟩
abbrev S2x400000 : Shape := ⟨2, ![2, 400000]⟩
abbrev S1x256 : Shape := ⟨2, ![1, 256]⟩
abbrev S_ : Shape := ⟨0, ![]⟩
abbrev S20000x256 : Shape := ⟨2, ![20000, 256]⟩
abbrev S1x1x256x256 : Shape := ⟨4, ![1, 1, 256, 256]⟩
abbrev S1x1x256 : Shape := ⟨3, ![1, 1, 256]⟩
abbrev S1x800000 : Shape := ⟨2, ![1, 800000]⟩
abbrev S800000 : Shape := ⟨1, ![800000]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x400000 : Shape := ⟨2, ![1, 400000]⟩
abbrev S400000 : Shape := ⟨1, ![400000]⟩
abbrev S400000x1 : Shape := ⟨2, ![400000, 1]⟩
abbrev S400000x256 : Shape := ⟨2, ![400000, 256]⟩
abbrev S20000 : Shape := ⟨1, ![20000]⟩
abbrev S20000x1 : Shape := ⟨2, ![20000, 1]⟩

abbrev nBuf : Space → Nat
  | .hbm => 304
  | .vmem => 0
  | .smem => 0
  | _ => 0

abbrev hbmTy0_0 (i : Nat) : BufTy := match i % 128 with
  | 0 => ⟨S50000x256, .f32⟩
  | 1 => ⟨S20000x128, .f32⟩
  | 2 => ⟨S256x256, .f32⟩
  | 3 => ⟨S256, .f32⟩
  | 4 => ⟨S128x256, .f32⟩
  | 5 => ⟨S256, .f32⟩
  | 6 => ⟨S2x3x256x256, .f32⟩
  | 7 => ⟨S2x3x256, .f32⟩
  | 8 => ⟨S2x3x256x256, .f32⟩
  | 9 => ⟨S256x256, .f32⟩
  | 10 => ⟨S256, .f32⟩
  | 11 => ⟨S256x256, .f32⟩
  | 12 => ⟨S256, .f32⟩
  | 13 => ⟨S2x800000, .i32⟩
  | 14 => ⟨S2x400000, .i32⟩
  | 15 => ⟨S2x400000, .i32⟩
  | 16 => ⟨S50000x256, .f32⟩
  | 17 => ⟨S1x256, .f32⟩
  | 18 => ⟨S50000x256, .f32⟩
  | 19 => ⟨S50000x256, .f32⟩
  | 20 => ⟨S_, .f32⟩
  | 21 => ⟨S50000x256, .f32⟩
  | 22 => ⟨S50000x256, .f32⟩
  | 23 => ⟨S20000x256, .f32⟩
  | 24 => ⟨S1x256, .f32⟩
  | 25 => ⟨S20000x256, .f32⟩
  | 26 => ⟨S20000x256, .f32⟩
  | 27 => ⟨S_, .f32⟩
  | 28 => ⟨S20000x256, .f32⟩
  | 29 => ⟨S20000x256, .f32⟩
  | 30 => ⟨S1x1x256x256, .f32⟩
  | 31 => ⟨S256x256, .f32⟩
  | 32 => ⟨S1x1x256, .f32⟩
  | 33 => ⟨S256, .f32⟩
  | 34 => ⟨S1x1x256x256, .f32⟩
  | 35 => ⟨S256x256, .f32⟩
  | 36 => ⟨S1x800000, .i32⟩
  | 37 => ⟨S800000, .i32⟩
  | 38 => ⟨S1x800000, .i32⟩
  | 39 => ⟨S800000, .i32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x256, .f32⟩
  | 49 => ⟨S_, .f32⟩
  | 50 => ⟨S50000x256, .f32⟩
  | 51 => ⟨S800000x1, .i32⟩
  | 52 => ⟨S50000x256, .f32⟩
  | 53 => ⟨S_, .f32⟩
  | 54 => ⟨S800000, .f32⟩
  | 55 => ⟨S_, .f32⟩
  | 56 => ⟨S50000, .f32⟩
  | 57 => ⟨S800000x1, .i32⟩
  | 58 => ⟨S50000, .f32⟩
  | 59 => ⟨S_, .f32⟩
  | 60 => ⟨S50000, .f32⟩
  | 61 => ⟨S50000, .f32⟩
  | 62 => ⟨S50000x1, .f32⟩
  | 63 => ⟨S50000x256, .f32⟩
  | 64 => ⟨S50000x256, .f32⟩
  | 65 => ⟨S50000x256, .f32⟩
  | 66 => ⟨S1x256, .f32⟩
  | 67 => ⟨S50000x256, .f32⟩
  | 68 => ⟨S50000x256, .f32⟩
  | 69 => ⟨S50000x256, .f32⟩
  | 70 => ⟨S50000x256, .f32⟩
  | 71 => ⟨S1x1x256x256, .f32⟩
  | 72 => ⟨S256x256, .f32⟩
  | 73 => ⟨S1x1x256, .f32⟩
  | 74 => ⟨S256, .f32⟩
  | 75 => ⟨S1x1x256x256, .f32⟩
  | 76 => ⟨S256x256, .f32⟩
  | 77 => ⟨S1x400000, .i32⟩
  | 78 => ⟨S400000, .i32⟩
  | 79 => ⟨S1x400000, .i32⟩
  | 80 => ⟨S400000, .i32⟩
  | 81 => ⟨S_, .i32⟩
  | 82 => ⟨S400000, .i32⟩
  | 83 => ⟨S400000, .i1⟩
  | 84 => ⟨S_, .i32⟩
  | 85 => ⟨S400000, .i32⟩
  | 86 => ⟨S400000, .i32⟩
  | 87 => ⟨S400000, .i32⟩
  | 88 => ⟨S400000x1, .i32⟩
  | 89 => ⟨S400000x256, .f32⟩
  | 90 => ⟨S_, .f32⟩
  | 91 => ⟨S20000x256, .f32⟩
  | 92 => ⟨S400000x1, .i32⟩
  | 93 => ⟨S20000x256, .f32⟩
  | 94 => ⟨S_, .f32⟩
  | 95 => ⟨S400000, .f32⟩
  | 96 => ⟨S_, .f32⟩
  | 97 => ⟨S20000, .f32⟩
  | 98 => ⟨S400000x1, .i32⟩
  | 99 => ⟨S20000, .f32⟩
  | 100 => ⟨S_, .f32⟩
  | 101 => ⟨S20000, .f32⟩
  | 102 => ⟨S20000, .f32⟩
  | 103 => ⟨S20000x1, .f32⟩
  | 104 => ⟨S20000x256, .f32⟩
  | 105 => ⟨S20000x256, .f32⟩
  | 106 => ⟨S20000x256, .f32⟩
  | 107 => ⟨S1x256, .f32⟩
  | 108 => ⟨S20000x256, .f32⟩
  | 109 => ⟨S20000x256, .f32⟩
  | 110 => ⟨S20000x256, .f32⟩
  | 111 => ⟨S20000x256, .f32⟩
  | 112 => ⟨S1x1x256x256, .f32⟩
  | 113 => ⟨S256x256, .f32⟩
  | 114 => ⟨S1x1x256, .f32⟩
  | 115 => ⟨S256, .f32⟩
  | 116 => ⟨S1x1x256x256, .f32⟩
  | 117 => ⟨S256x256, .f32⟩
  | 118 => ⟨S1x400000, .i32⟩
  | 119 => ⟨S400000, .i32⟩
  | 120 => ⟨S1x400000, .i32⟩
  | 121 => ⟨S400000, .i32⟩
  | 122 => ⟨S_, .i32⟩
  | 123 => ⟨S400000, .i32⟩
  | 124 => ⟨S400000, .i1⟩
  | 125 => ⟨S_, .i32⟩
  | 126 => ⟨S400000, .i32⟩
  | 127 => ⟨S400000, .i32⟩
  | _ => ⟨S50000x256, .f32⟩

abbrev hbmTy0_1 (i : Nat) : BufTy := match i % 128 with
  | 0 => ⟨S400000, .i32⟩
  | 1 => ⟨S400000x1, .i32⟩
  | 2 => ⟨S400000x256, .f32⟩
  | 3 => ⟨S_, .f32⟩
  | 4 => ⟨S50000x256, .f32⟩
  | 5 => ⟨S400000x1, .i32⟩
  | 6 => ⟨S50000x256, .f32⟩
  | 7 => ⟨S_, .f32⟩
  | 8 => ⟨S400000, .f32⟩
  | 9 => ⟨S_, .f32⟩
  | 10 => ⟨S50000, .f32⟩
  | 11 => ⟨S400000x1, .i32⟩
  | 12 => ⟨S50000, .f32⟩
  | 13 => ⟨S_, .f32⟩
  | 14 => ⟨S50000, .f32⟩
  | 15 => ⟨S50000, .f32⟩
  | 16 => ⟨S50000x1, .f32⟩
  | 17 => ⟨S50000x256, .f32⟩
  | 18 => ⟨S50000x256, .f32⟩
  | 19 => ⟨S50000x256, .f32⟩
  | 20 => ⟨S1x256, .f32⟩
  | 21 => ⟨S50000x256, .f32⟩
  | 22 => ⟨S50000x256, .f32⟩
  | 23 => ⟨S50000x256, .f32⟩
  | 24 => ⟨S50000x256, .f32⟩
  | 25 => ⟨S50000x256, .f32⟩
  | 26 => ⟨S_, .f32⟩
  | 27 => ⟨S50000x256, .f32⟩
  | 28 => ⟨S50000x256, .f32⟩
  | 29 => ⟨S_, .f32⟩
  | 30 => ⟨S50000x256, .f32⟩
  | 31 => ⟨S50000x256, .f32⟩
  | 32 => ⟨S_, .f32⟩
  | 33 => ⟨S20000x256, .f32⟩
  | 34 => ⟨S20000x256, .f32⟩
  | 35 => ⟨S1x1x256x256, .f32⟩
  | 36 => ⟨S256x256, .f32⟩
  | 37 => ⟨S1x1x256, .f32⟩
  | 38 => ⟨S256, .f32⟩
  | 39 => ⟨S1x1x256x256, .f32⟩
  | 40 => ⟨S256x256, .f32⟩
  | 41 => ⟨S1x800000, .i32⟩
  | 42 => ⟨S800000, .i32⟩
  | 43 => ⟨S1x800000, .i32⟩
  | 44 => ⟨S800000, .i32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x256, .f32⟩
  | 54 => ⟨S_, .f32⟩
  | 55 => ⟨S50000x256, .f32⟩
  | 56 => ⟨S800000x1, .i32⟩
  | 57 => ⟨S50000x256, .f32⟩
  | 58 => ⟨S_, .f32⟩
  | 59 => ⟨S800000, .f32⟩
  | 60 => ⟨S_, .f32⟩
  | 61 => ⟨S50000, .f32⟩
  | 62 => ⟨S800000x1, .i32⟩
  | 63 => ⟨S50000, .f32⟩
  | 64 => ⟨S_, .f32⟩
  | 65 => ⟨S50000, .f32⟩
  | 66 => ⟨S50000, .f32⟩
  | 67 => ⟨S50000x1, .f32⟩
  | 68 => ⟨S50000x256, .f32⟩
  | 69 => ⟨S50000x256, .f32⟩
  | 70 => ⟨S50000x256, .f32⟩
  | 71 => ⟨S1x256, .f32⟩
  | 72 => ⟨S50000x256, .f32⟩
  | 73 => ⟨S50000x256, .f32⟩
  | 74 => ⟨S50000x256, .f32⟩
  | 75 => ⟨S50000x256, .f32⟩
  | 76 => ⟨S1x1x256x256, .f32⟩
  | 77 => ⟨S256x256, .f32⟩
  | 78 => ⟨S1x1x256, .f32⟩
  | 79 => ⟨S256, .f32⟩
  | 80 => ⟨S1x1x256x256, .f32⟩
  | 81 => ⟨S256x256, .f32⟩
  | 82 => ⟨S1x400000, .i32⟩
  | 83 => ⟨S400000, .i32⟩
  | 84 => ⟨S1x400000, .i32⟩
  | 85 => ⟨S400000, .i32⟩
  | 86 => ⟨S_, .i32⟩
  | 87 => ⟨S400000, .i32⟩
  | 88 => ⟨S400000, .i1⟩
  | 89 => ⟨S_, .i32⟩
  | 90 => ⟨S400000, .i32⟩
  | 91 => ⟨S400000, .i32⟩
  | 92 => ⟨S400000, .i32⟩
  | 93 => ⟨S400000x1, .i32⟩
  | 94 => ⟨S400000x256, .f32⟩
  | 95 => ⟨S_, .f32⟩
  | 96 => ⟨S20000x256, .f32⟩
  | 97 => ⟨S400000x1, .i32⟩
  | 98 => ⟨S20000x256, .f32⟩
  | 99 => ⟨S_, .f32⟩
  | 100 => ⟨S400000, .f32⟩
  | 101 => ⟨S_, .f32⟩
  | 102 => ⟨S20000, .f32⟩
  | 103 => ⟨S400000x1, .i32⟩
  | 104 => ⟨S20000, .f32⟩
  | 105 => ⟨S_, .f32⟩
  | 106 => ⟨S20000, .f32⟩
  | 107 => ⟨S20000, .f32⟩
  | 108 => ⟨S20000x1, .f32⟩
  | 109 => ⟨S20000x256, .f32⟩
  | 110 => ⟨S20000x256, .f32⟩
  | 111 => ⟨S20000x256, .f32⟩
  | 112 => ⟨S1x256, .f32⟩
  | 113 => ⟨S20000x256, .f32⟩
  | 114 => ⟨S20000x256, .f32⟩
  | 115 => ⟨S20000x256, .f32⟩
  | 116 => ⟨S20000x256, .f32⟩
  | 117 => ⟨S1x1x256x256, .f32⟩
  | 118 => ⟨S256x256, .f32⟩
  | 119 => ⟨S1x1x256, .f32⟩
  | 120 => ⟨S256, .f32⟩
  | 121 => ⟨S1x1x256x256, .f32⟩
  | 122 => ⟨S256x256, .f32⟩
  | 123 => ⟨S1x400000, .i32⟩
  | 124 => ⟨S400000, .i32⟩
  | 125 => ⟨S1x400000, .i32⟩
  | 126 => ⟨S400000, .i32⟩
  | 127 => ⟨S_, .i32⟩
  | _ => ⟨S50000x256, .f32⟩

abbrev hbmTy0_2 (i : Nat) : BufTy := match i % 128 with
  | 0 => ⟨S400000, .i32⟩
  | 1 => ⟨S400000, .i1⟩
  | 2 => ⟨S_, .i32⟩
  | 3 => ⟨S400000, .i32⟩
  | 4 => ⟨S400000, .i32⟩
  | 5 => ⟨S400000, .i32⟩
  | 6 => ⟨S400000x1, .i32⟩
  | 7 => ⟨S400000x256, .f32⟩
  | 8 => ⟨S_, .f32⟩
  | 9 => ⟨S50000x256, .f32⟩
  | 10 => ⟨S400000x1, .i32⟩
  | 11 => ⟨S50000x256, .f32⟩
  | 12 => ⟨S_, .f32⟩
  | 13 => ⟨S400000, .f32⟩
  | 14 => ⟨S_, .f32⟩
  | 15 => ⟨S50000, .f32⟩
  | 16 => ⟨S400000x1, .i32⟩
  | 17 => ⟨S50000, .f32⟩
  | 18 => ⟨S_, .f32⟩
  | 19 => ⟨S50000, .f32⟩
  | 20 => ⟨S50000, .f32⟩
  | 21 => ⟨S50000x1, .f32⟩
  | 22 => ⟨S50000x256, .f32⟩
  | 23 => ⟨S50000x256, .f32⟩
  | 24 => ⟨S50000x256, .f32⟩
  | 25 => ⟨S1x256, .f32⟩
  | 26 => ⟨S50000x256, .f32⟩
  | 27 => ⟨S50000x256, .f32⟩
  | 28 => ⟨S50000x256, .f32⟩
  | 29 => ⟨S50000x256, .f32⟩
  | 30 => ⟨S50000x256, .f32⟩
  | 31 => ⟨S_, .f32⟩
  | 32 => ⟨S50000x256, .f32⟩
  | 33 => ⟨S50000x256, .f32⟩
  | 34 => ⟨S_, .f32⟩
  | 35 => ⟨S50000x256, .f32⟩
  | 36 => ⟨S50000x256, .f32⟩
  | 37 => ⟨S_, .f32⟩
  | 38 => ⟨S20000x256, .f32⟩
  | 39 => ⟨S20000x256, .f32⟩
  | 40 => ⟨S50000x256, .f32⟩
  | 41 => ⟨S1x256, .f32⟩
  | 42 => ⟨S50000x256, .f32⟩
  | 43 => ⟨S50000x256, .f32⟩
  | 44 => ⟨S20000x256, .f32⟩
  | 45 => ⟨S1x256, .f32⟩
  | 46 => ⟨S20000x256, .f32⟩
  | 47 => ⟨S20000x256, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_cst : Ref sig .tc := ⟨.hbm, 27, rfl⟩
abbrev main_call1_v0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_1 : Ref sig .tc := ⟨.hbm, 53, rfl⟩
abbrev main_v30 : Ref sig .tc := ⟨.hbm, 54, rfl⟩
abbrev main_cst_2 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_3 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_4 : Ref sig .tc := ⟨.hbm, 81, rfl⟩
abbrev main_v55 : Ref sig .tc := ⟨.hbm, 82, rfl⟩
abbrev main_v56 : Ref sig .tc := ⟨.hbm, 83, rfl⟩
abbrev main_c_5 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_6 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_7 : Ref sig .tc := ⟨.hbm, 94, rfl⟩
abbrev main_v65 : Ref sig .tc := ⟨.hbm, 95, rfl⟩
abbrev main_cst_8 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_9 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_10 : Ref sig .tc := ⟨.hbm, 122, rfl⟩
abbrev main_v90 : Ref sig .tc := ⟨.hbm, 123, rfl⟩
abbrev main_v91 : Ref sig .tc := ⟨.hbm, 124, rfl⟩
abbrev main_c_11 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_12 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_13 : Ref sig .tc := ⟨.hbm, 135, rfl⟩
abbrev main_v100 : Ref sig .tc := ⟨.hbm, 136, rfl⟩
abbrev main_cst_14 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_15 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_16 : Ref sig .tc := ⟨.hbm, 154, rfl⟩
abbrev main_v116 : Ref sig .tc := ⟨.hbm, 155, rfl⟩
abbrev main_v117 : Ref sig .tc := ⟨.hbm, 156, rfl⟩
abbrev main_call2_cst : Ref sig .tc := ⟨.hbm, 157, rfl⟩
abbrev main_call2_v0 : Ref sig .tc := ⟨.hbm, 158, rfl⟩
abbrev main_v118 : Ref sig .tc := ⟨.hbm, 159, rfl⟩
abbrev main_call3_cst : Ref sig .tc := ⟨.hbm, 160, rfl⟩
abbrev main_call3_v0 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_c_17 : Ref sig .tc := ⟨.hbm, 173, rfl⟩
abbrev main_v130 : Ref sig .tc := ⟨.hbm, 174, rfl⟩
abbrev main_v131 : Ref sig .tc := ⟨.hbm, 175, rfl⟩
abbrev main_c_18 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_19 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_cst_20 : Ref sig .tc := ⟨.hbm, 186, rfl⟩
abbrev main_v140 : Ref sig .tc := ⟨.hbm, 187, rfl⟩
abbrev main_cst_21 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_cst_22 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_c_23 : Ref sig .tc := ⟨.hbm, 214, rfl⟩
abbrev main_v165 : Ref sig .tc := ⟨.hbm, 215, rfl⟩
abbrev main_v166 : Ref sig .tc := ⟨.hbm, 216, rfl⟩
abbrev main_c_24 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_cst_25 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_cst_26 : Ref sig .tc := ⟨.hbm, 227, rfl⟩
abbrev main_v175 : Ref sig .tc := ⟨.hbm, 228, rfl⟩
abbrev main_cst_27 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_cst_28 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_c_29 : Ref sig .tc := ⟨.hbm, 255, rfl⟩
abbrev main_v200 : Ref sig .tc := ⟨.hbm, 256, rfl⟩
abbrev main_v201 : Ref sig .tc := ⟨.hbm, 257, rfl⟩
abbrev main_c_30 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_cst_31 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_cst_32 : Ref sig .tc := ⟨.hbm, 268, rfl⟩
abbrev main_v210 : Ref sig .tc := ⟨.hbm, 269, rfl⟩
abbrev main_cst_33 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_cst_34 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_cst_35 : Ref sig .tc := ⟨.hbm, 287, rfl⟩
abbrev main_v226 : Ref sig .tc := ⟨.hbm, 288, rfl⟩
abbrev main_v227 : Ref sig .tc := ⟨.hbm, 289, rfl⟩
abbrev main_call4_cst : Ref sig .tc := ⟨.hbm, 290, rfl⟩
abbrev main_call4_v0 : Ref sig .tc := ⟨.hbm, 291, rfl⟩
abbrev main_v228 : Ref sig .tc := ⟨.hbm, 292, rfl⟩
abbrev main_call5_cst : Ref sig .tc := ⟨.hbm, 293, rfl⟩
abbrev main_call5_v0 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_v237 : Ref sig .tc := ⟨.hbm, 303, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  slices_S2x3x256x256_S1x1x256x256_0_0_0_0 : S2x3x256x256.Slices ![0, 0, 0, 0] S1x1x256x256
  shapeCasts_S1x1x256x256_S256x256 : S1x1x256x256.ShapeCasts S256x256
  slices_S2x3x256_S1x1x256_0_0_0 : S2x3x256.Slices ![0, 0, 0] S1x1x256
  shapeCasts_S1x1x256_S256 : S1x1x256.ShapeCasts S256
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  slices_S2x3x256x256_S1x1x256x256_0_1_0_0 : S2x3x256x256.Slices ![0, 1, 0, 0] S1x1x256x256
  slices_S2x3x256_S1x1x256_0_1_0 : S2x3x256.Slices ![0, 1, 0] S1x1x256
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  slices_S2x3x256x256_S1x1x256x256_0_2_0_0 : S2x3x256x256.Slices ![0, 2, 0, 0] S1x1x256x256
  slices_S2x3x256_S1x1x256_0_2_0 : S2x3x256.Slices ![0, 2, 0] S1x1x256
  slices_S2x3x256x256_S1x1x256x256_1_0_0_0 : S2x3x256x256.Slices ![1, 0, 0, 0] S1x1x256x256
  slices_S2x3x256_S1x1x256_1_0_0 : S2x3x256.Slices ![1, 0, 0] S1x1x256
  slices_S2x3x256x256_S1x1x256x256_1_1_0_0 : S2x3x256x256.Slices ![1, 1, 0, 0] S1x1x256x256
  slices_S2x3x256_S1x1x256_1_1_0 : S2x3x256.Slices ![1, 1, 0] S1x1x256
  slices_S2x3x256x256_S1x1x256x256_1_2_0_0 : S2x3x256x256.Slices ![1, 2, 0, 0] S1x1x256x256
  slices_S2x3x256_S1x1x256_1_2_0 : S2x3x256.Slices ![1, 2, 0] S1x1x256
  dot_S50000x256_S256x256_S50000x256_1_0_0_1_n_n_wf : DotDims.WF S50000x256 S256x256 S50000x256 [1] [0] [0] [1] [] []
  dot_S20000x128_S128x256_S20000x256_1_0_0_1_n_n_wf : DotDims.WF S20000x128 S128x256 S20000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  gather_S50000x256_S400000x1_S400000x256_1_0_n_n_0_1_1256_wf : GatherDims.WF S50000x256 S400000x1 S400000x256 [1] [0] [] [0] [] 1 ![1, 256]
  scatter_S20000x256_S400000x1_S400000x256_1_0_0_1_wf : ScatterDims.WF S20000x256 S400000x1 S400000x256 [1] [0] [0] 1
  scatter_S20000_S400000x1_S400000_n_0_0_1_wf : ScatterDims.WF S20000 S400000x1 S400000 [] [0] [0] 1
  dot_S20000x256_S256x256_S20000x256_1_0_0_1_n_n_wf : DotDims.WF S20000x256 S256x256 S20000x256 [1] [0] [0] [1] [] []
  gather_S20000x256_S400000x1_S400000x256_1_0_n_n_0_1_1256_wf : GatherDims.WF S20000x256 S400000x1 S400000x256 [1] [0] [] [0] [] 1 ![1, 256]
  scatter_S50000x256_S400000x1_S400000x256_1_0_0_1_wf : ScatterDims.WF S50000x256 S400000x1 S400000x256 [1] [0] [0] 1
  scatter_S50000_S400000x1_S400000_n_0_0_1_wf : ScatterDims.WF S50000 S400000x1 S400000 [] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S20000x256_S400000x1_S400000x256_1_0_0_1 : ScatterDims S20000x256 S400000x1 S400000x256 where
  updateWindowDims := [1]
  insertedWindowDims := [0]
  scatterDimsToOperandDims := [0]
  indexVectorDim := 1
  wf := scatter_S20000x256_S400000x1_S400000x256_1_0_0_1_wf
def scatter_S20000_S400000x1_S400000_n_0_0_1 : ScatterDims S20000 S400000x1 S400000 where
  updateWindowDims := []
  insertedWindowDims := [0]
  scatterDimsToOperandDims := [0]
  indexVectorDim := 1
  wf := scatter_S20000_S400000x1_S400000_n_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S400000x1_S400000x256_1_0_n_n_0_1_1256 : GatherDims S20000x256 S400000x1 S400000x256 where
  offsetDims := [1]
  collapsedSliceDims := [0]
  operandBatchingDims := []
  startIndicesBatchingDims := []
  startIndexMap := [0]
  indexVectorDim := 1
  sliceSizes := ![1, 256]
  wf := gather_S20000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf

class Facts : Prop extends Facts₀ where

variable [Facts]
-- ==== Proof.KernelRun.lean ====
/-
  The kernel program's run, with its two results named.

  The program is sixteen segments: eight stretches of host operations, each followed by one row-tiled dense region.
  The buffer contents at the sixteen segment boundaries are a fold from the launch memory, and the last of them,
  `Gen.W16`, is what every unscoped buffer holds when the program returns. This module states the run with the two
  result arrays read at `Gen.W16` and the sixteen argument arrays unchanged; what `Gen.W16` holds at the two results,
  as a function of the argument arrays, is the subject of the modules that follow.
-/
import proofs.«158813_j31396210933902_1_alg».proof.Proof.Gen.KernelIdeal.Frame

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without fault, and in
    every final state the two result arrays hold the last boundary's contents while the sixteen argument arrays hold
    what they were launched with. -/
theorem run_results : θ_run defs (onTc (τ := τ) (main (F := F))) ⟨m, fun _ => 0, ρ⟩ (fun r => ∀ c : Dev nD,
      r.2.mem ((c.tc : Thread nD τ).loc main_v191) = Gen.W16 m ρ c (Proc.devRef .tc main_v191)
      ∧ r.2.mem ((c.tc : Thread nD τ).loc main_v193) = Gen.W16 m ρ c (Proc.devRef .tc main_v193)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W16 m ρ c) s')
      isplitl [Hh] <;> iassumption)
    (hQ := fun s h c =>
      ⟨h c _ (Gen.mem_uc main_v191 (by decide)),
       h c _ (Gen.mem_uc main_v193 (by decide)),
       (h c _ (Gen.mem_uc main_arg0 (by decide))).trans (Gen.W16_main_arg0 m ρ c),
       (h c _ (Gen.mem_uc main_arg1 (by decide))).trans (Gen.W16_main_arg1 m ρ c),
       (h c _ (Gen.mem_uc main_arg2 (by decide))).trans (Gen.W16_main_arg2 m ρ c),
       (h c _ (Gen.mem_uc main_arg3 (by decide))).trans (Gen.W16_main_arg3 m ρ c),
       (h c _ (Gen.mem_uc main_arg4 (by decide))).trans (Gen.W16_main_arg4 m ρ c),
       (h c _ (Gen.mem_uc main_arg5 (by decide))).trans (Gen.W16_main_arg5 m ρ c),
       (h c _ (Gen.mem_uc main_arg6 (by decide))).trans (Gen.W16_main_arg6 m ρ c),
       (h c _ (Gen.mem_uc main_arg7 (by decide))).trans (Gen.W16_main_arg7 m ρ c),
       (h c _ (Gen.mem_uc main_arg8 (by decide))).trans (Gen.W16_main_arg8 m ρ c),
       (h c _ (Gen.mem_uc main_arg9 (by decide))).trans (Gen.W16_main_arg9 m ρ c),
       (h c _ (Gen.mem_uc main_arg10 (by decide))).trans (Gen.W16_main_arg10 m ρ c),
       (h c _ (Gen.mem_uc main_arg11 (by decide))).trans (Gen.W16_main_arg11 m ρ c),
       (h c _ (Gen.mem_uc main_arg12 (by decide))).trans (Gen.W16_main_arg12 m ρ c),
       (h c _ (Gen.mem_uc main_arg13 (by decide))).trans (Gen.W16_main_arg13 m ρ c),
       (h c _ (Gen.mem_uc main_arg14 (by decide))).trans (Gen.W16_main_arg14 m ρ c),
       (h c _ (Gen.mem_uc main_arg15 (by decide))).trans (Gen.W16_main_arg15 m ρ c)⟩)

end Cert.KernelIdeal.Val

end
-- ==== Proof.ChainKeep.lean ====
/-
  What each segment of the kernel program leaves unchanged.

  A stretch of host operations rewrites only its own results: a buffer that is not among them holds after the stretch
  what it held before (`keepH`). A dense region rewrites only its output array: its input arrays are read, never
  written, and every other buffer is out of its reach (`keepR`). No segment writes an argument array, so at every
  segment boundary each argument array still holds what the program was launched with (`W⟨k⟩_arg`).
-/
import proofs.«158813_j31396210933902_1_alg».proof.Proof.Gen.KernelIdeal.Frame

set_option maxRecDepth 16384

noncomputable section

namespace Cert.KernelIdeal.Val

open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-! ## The host stretches -/

/-- The references the operations of host stretch 0 write. -/
abbrev wr0 : List (Ref sig .tc) := [main_v0]
theorem hostOps0_writes : (Gen.hostOps0 : List (HloOp τ sig (Elt F))).Forall fun op => op.writes ⊆ (wr0.map (Proc.devRef (τ := τ) .tc)).toFinset := by
  simp only [Gen.hostOps0, List.Forall]
  exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer host stretch 0 does not write holds after it what it held before. -/
theorem keepH0 (c : Dev nD) (b : Ref sig .tc) (h : b ∉ wr0) :
    Gen.W1 m ρ c (Proc.devRef .tc b) = Gen.W0 m ρ c (Proc.devRef .tc b) :=
  StableHlo.after_of_writes_sub Gen.hostOps0 _ hostOps0_writes h

/-- The references the operations of host stretch 1 write. -/
abbrev wr1 : List (Ref sig .tc) := [main_v2]
theorem hostOps1_writes : (Gen.hostOps1 : List (HloOp τ sig (Elt F))).Forall fun op => op.writes ⊆ (wr1.map (Proc.devRef (τ := τ) .tc)).toFinset := by
  simp only [Gen.hostOps1, List.Forall]
  exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer host stretch 1 does not write holds after it what it held before. -/
theorem keepH1 (c : Dev nD) (b : Ref sig .tc) (h : b ∉ wr1) :
    Gen.W3 m ρ c (Proc.devRef .tc b) = Gen.W2 m ρ c (Proc.devRef .tc b) :=
  StableHlo.after_of_writes_sub Gen.hostOps1 _ hostOps1_writes h

/-- The references the operations of host stretch 2 write. -/
abbrev wr2 : List (Ref sig .tc) := [main_v4, main_v5, main_v6, main_v7, main_c, main_v8, main_v9, main_c_0, main_v10, main_v11, main_v12, main_v13, main_v14, main_cst, main_v15, main_v16, main_v17, main_cst_1, main_v18, main_cst_2, main_v19, main_v20, main_v21, main_cst_3, main_v22, main_v23, main_v24, main_v25, main_v26, main_v27, main_v28, main_v29, main_v30, main_c_4, main_v31, main_v32, main_c_5, main_v33, main_v34, main_v35, main_v36, main_v37, main_cst_6, main_v38, main_v39, main_v40, main_cst_7, main_v41, main_cst_8, main_v42, main_v43, main_v44, main_cst_9, main_v45, main_v46, main_v47, main_v48, main_v49, main_v50, main_v51, main_v52, main_v53, main_c_10, main_v54, main_v55, main_c_11, main_v56, main_v57, main_v58, main_v59, main_v60, main_cst_12, main_v61, main_v62, main_v63, main_cst_13, main_v64, main_cst_14, main_v65, main_v66, main_v67, main_cst_15, main_v68, main_v69, main_v70, main_v71, main_v72, main_v73, main_v74, main_v75, main_v76, main_v77, main_v78, main_v79, main_v80, main_v81, main_v82, main_v83, main_v84, main_v85, main_v86, main_v87]
set_option maxHeartbeats 40000000 in
theorem hostOps2_writes : (Gen.hostOps2 : List (HloOp τ sig (Elt F))).Forall fun op => op.writes ⊆ (wr2.map (Proc.devRef (τ := τ) .tc)).toFinset := by
  simp only [Gen.hostOps2, List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer host stretch 2 does not write holds after it what it held before. -/
theorem keepH2 (c : Dev nD) (b : Ref sig .tc) (h : b ∉ wr2) :
    Gen.W5 m ρ c (Proc.devRef .tc b) = Gen.W4 m ρ c (Proc.devRef .tc b) :=
  StableHlo.after_of_writes_sub Gen.hostOps2 _ hostOps2_writes h

/-- The references the operations of host stretch 3 write. -/
abbrev wr3 : List (Ref sig .tc) := [main_v89, main_v90, main_v91, main_v92, main_v93, main_v94, main_v95]
theorem hostOps3_writes : (Gen.hostOps3 : List (HloOp τ sig (Elt F))).Forall fun op => op.writes ⊆ (wr3.map (Proc.devRef (τ := τ) .tc)).toFinset := by
  simp only [Gen.hostOps3, List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer host stretch 3 does not write holds after it what it held before. -/
theorem keepH3 (c : Dev nD) (b : Ref sig .tc) (h : b ∉ wr3) :
    Gen.W7 m ρ c (Proc.devRef .tc b) = Gen.W6 m ρ c (Proc.devRef .tc b) :=
  StableHlo.after_of_writes_sub Gen.hostOps3 _ hostOps3_writes h

/-- The references the operations of host stretch 4 write. -/
abbrev wr4 : List (Ref sig .tc) := [main_v97, main_v98, main_v99, main_v100, main_c_16, main_v101, main_v102, main_c_17, main_v103, main_v104, main_v105, main_v106, main_v107, main_cst_18, main_v108, main_v109, main_v110, main_cst_19, main_v111, main_cst_20, main_v112, main_v113, main_v114, main_cst_21, main_v115, main_v116, main_v117, main_v118, main_v119, main_v120, main_v121, main_v122, main_v123, main_c_22, main_v124, main_v125, main_c_23, main_v126, main_v127, main_v128, main_v129, main_v130, main_cst_24, main_v131, main_v132, main_v133, main_cst_25, main_v134, main_cst_26, main_v135, main_v136, main_v137, main_cst_27, main_v138, main_v139, main_v140, main_v141, main_v142, main_v143, main_v144, main_v145, main_v146, main_c_28, main_v147, main_v148, main_c_29, main_v149, main_v150, main_v151, main_v152, main_v153, main_cst_30, main_v154, main_v155, main_v156, main_cst_31, main_v157, main_cst_32, main_v158, main_v159, main_v160, main_cst_33, main_v161, main_v162, main_v163, main_v164, main_v165, main_v166, main_v167, main_v168, main_v169, main_v170, main_v171, main_v172, main_v173, main_v174, main_v175, main_v176, main_v177, main_v178, main_v179, main_v180]
set_option maxHeartbeats 40000000 in
theorem hostOps4_writes : (Gen.hostOps4 : List (HloOp τ sig (Elt F))).Forall fun op => op.writes ⊆ (wr4.map (Proc.devRef (τ := τ) .tc)).toFinset := by
  simp only [Gen.hostOps4, List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer host stretch 4 does not write holds after it what it held before. -/
theorem keepH4 (c : Dev nD) (b : Ref sig .tc) (h : b ∉ wr4) :
    Gen.W9 m ρ c (Proc.devRef .tc b) = Gen.W8 m ρ c (Proc.devRef .tc b) :=
  StableHlo.after_of_writes_sub Gen.hostOps4 _ hostOps4_writes h

/-- The references the operations of host stretch 5 write. -/
abbrev wr5 : List (Ref sig .tc) := [main_v182, main_v183, main_v184, main_v185, main_v186, main_v187, main_v188]
theorem hostOps5_writes : (Gen.hostOps5 : List (HloOp τ sig (Elt F))).Forall fun op => op.writes ⊆ (wr5.map (Proc.devRef (τ := τ) .tc)).toFinset := by
  simp only [Gen.hostOps5, List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer host stretch 5 does not write holds after it what it held before. -/
theorem keepH5 (c : Dev nD) (b : Ref sig .tc) (h : b ∉ wr5) :
    Gen.W11 m ρ c (Proc.devRef .tc b) = Gen.W10 m ρ c (Proc.devRef .tc b) :=
  StableHlo.after_of_writes_sub Gen.hostOps5 _ hostOps5_writes h

/-- The references the operations of host stretch 6 write. -/
abbrev wr6 : List (Ref sig .tc) := [main_v190]
theorem hostOps6_writes : (Gen.hostOps6 : List (HloOp τ sig (Elt F))).Forall fun op => op.writes ⊆ (wr6.map (Proc.devRef (τ := τ) .tc)).toFinset := by
  simp only [Gen.hostOps6, List.Forall]
  exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer host stretch 6 does not write holds after it what it held before. -/
theorem keepH6 (c : Dev nD) (b : Ref sig .tc) (h : b ∉ wr6) :
    Gen.W13 m ρ c (Proc.devRef .tc b) = Gen.W12 m ρ c (Proc.devRef .tc b) :=
  StableHlo.after_of_writes_sub Gen.hostOps6 _ hostOps6_writes h

/-- The references the operations of host stretch 7 write. -/
abbrev wr7 : List (Ref sig .tc) := [main_v192]
theorem hostOps7_writes : (Gen.hostOps7 : List (HloOp τ sig (Elt F))).Forall fun op => op.writes ⊆ (wr7.map (Proc.devRef (τ := τ) .tc)).toFinset := by
  simp only [Gen.hostOps7, List.Forall]
  exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer host stretch 7 does not write holds after it what it held before. -/
theorem keepH7 (c : Dev nD) (b : Ref sig .tc) (h : b ∉ wr7) :
    Gen.W15 m ρ c (Proc.devRef .tc b) = Gen.W14 m ρ c (Proc.devRef .tc b) :=
  StableHlo.after_of_writes_sub Gen.hostOps7 _ hostOps7_writes h

/-! ## The regions -/

/-- Region 0 writes its output array `main_v1` only: an input array is as entered, any other buffer is untouched. -/
theorem keepR0 (c : Dev nD) (b : Ref sig .tc) (h : b ≠ main_v1) :
    Gen.W2 m ρ c (Proc.devRef .tc b) = Gen.W1 m ρ c (Proc.devRef .tc b) := by
  by_cases hb : ∃ w, Pipeline.arrRef spec0 w = b
  · obtain ⟨w, rfl⟩ := hb
    exact (Gen.W2_arr m ρ c w).trans (((Gen.dat0 (Gen.V1 m ρ) c).arrAt_in w
      ((by decide : ∀ w : Fin cfg0.W, Pipeline.arrRef spec0 w ≠ main_v1 → (cfg0.win w).isOut = false) w h) _).trans
      (Gen.A_eq0 (Gen.V1 m ρ) c w))
  · exact Gen.W2_of_ne m ρ c b fun w e => hb ⟨w, e⟩

/-- Region 1 writes its output array `main_v3` only: an input array is as entered, any other buffer is untouched. -/
theorem keepR1 (c : Dev nD) (b : Ref sig .tc) (h : b ≠ main_v3) :
    Gen.W4 m ρ c (Proc.devRef .tc b) = Gen.W3 m ρ c (Proc.devRef .tc b) := by
  by_cases hb : ∃ w, Pipeline.arrRef spec1 w = b
  · obtain ⟨w, rfl⟩ := hb
    exact (Gen.W4_arr m ρ c w).trans (((Gen.dat1 (Gen.V3 m ρ) c).arrAt_in w
      ((by decide : ∀ w : Fin cfg1.W, Pipeline.arrRef spec1 w ≠ main_v3 → (cfg1.win w).isOut = false) w h) _).trans
      (Gen.A_eq1 (Gen.V3 m ρ) c w))
  · exact Gen.W4_of_ne m ρ c b fun w e => hb ⟨w, e⟩

/-- Region 2 writes its output array `main_v88` only: an input array is as entered, any other buffer is untouched. -/
theorem keepR2 (c : Dev nD) (b : Ref sig .tc) (h : b ≠ main_v88) :
    Gen.W6 m ρ c (Proc.devRef .tc b) = Gen.W5 m ρ c (Proc.devRef .tc b) := by
  by_cases hb : ∃ w, Pipeline.arrRef spec2 w = b
  · obtain ⟨w, rfl⟩ := hb
    exact (Gen.W6_arr m ρ c w).trans (((Gen.dat2 (Gen.V5 m ρ) c).arrAt_in w
      ((by decide : ∀ w : Fin cfg2.W, Pipeline.arrRef spec2 w ≠ main_v88 → (cfg2.win w).isOut = false) w h) _).trans
      (Gen.A_eq2 (Gen.V5 m ρ) c w))
  · exact Gen.W6_of_ne m ρ c b fun w e => hb ⟨w, e⟩

/-- Region 3 writes its output array `main_v96` only: an input array is as entered, any other buffer is untouched. -/
theorem keepR3 (c : Dev nD) (b : Ref sig .tc) (h : b ≠ main_v96) :
    Gen.W8 m ρ c (Proc.devRef .tc b) = Gen.W7 m ρ c (Proc.devRef .tc b) := by
  by_cases hb : ∃ w, Pipeline.arrRef spec3 w = b
  · obtain ⟨w, rfl⟩ := hb
    exact (Gen.W8_arr m ρ c w).trans (((Gen.dat3 (Gen.V7 m ρ) c).arrAt_in w
      ((by decide : ∀ w : Fin cfg3.W, Pipeline.arrRef spec3 w ≠ main_v96 → (cfg3.win w).isOut = false) w h) _).trans
      (Gen.A_eq3 (Gen.V7 m ρ) c w))
  · exact Gen.W8_of_ne m ρ c b fun w e => hb ⟨w, e⟩

/-- Region 4 writes its output array `main_v181` only: an input array is as entered, any other buffer is untouched. -/
theorem keepR4 (c : Dev nD) (b : Ref sig .tc) (h : b ≠ main_v181) :
    Gen.W10 m ρ c (Proc.devRef .tc b) = Gen.W9 m ρ c (Proc.devRef .tc b) := by
  by_cases hb : ∃ w, Pipeline.arrRef spec4 w = b
  · obtain ⟨w, rfl⟩ := hb
    exact (Gen.W10_arr m ρ c w).trans (((Gen.dat4 (Gen.V9 m ρ) c).arrAt_in w
      ((by decide : ∀ w : Fin cfg4.W, Pipeline.arrRef spec4 w ≠ main_v181 → (cfg4.win w).isOut = false) w h) _).trans
      (Gen.A_eq4 (Gen.V9 m ρ) c w))
  · exact Gen.W10_of_ne m ρ c b fun w e => hb ⟨w, e⟩

/-- Region 5 writes its output array `main_v189` only: an input array is as entered, any other buffer is untouched. -/
theorem keepR5 (c : Dev nD) (b : Ref sig .tc) (h : b ≠ main_v189) :
    Gen.W12 m ρ c (Proc.devRef .tc b) = Gen.W11 m ρ c (Proc.devRef .tc b) := by
  by_cases hb : ∃ w, Pipeline.arrRef spec5 w = b
  · obtain ⟨w, rfl⟩ := hb
    exact (Gen.W12_arr m ρ c w).trans (((Gen.dat5 (Gen.V11 m ρ) c).arrAt_in w
      ((by decide : ∀ w : Fin cfg5.W, Pipeline.arrRef spec5 w ≠ main_v189 → (cfg5.win w).isOut = false) w h) _).trans
      (Gen.A_eq5 (Gen.V11 m ρ) c w))
  · exact Gen.W12_of_ne m ρ c b fun w e => hb ⟨w, e⟩

/-- Region 6 writes its output array `main_v191` only: an input array is as entered, any other buffer is untouched. -/
theorem keepR6 (c : Dev nD) (b : Ref sig .tc) (h : b ≠ main_v191) :
    Gen.W14 m ρ c (Proc.devRef .tc b) = Gen.W13 m ρ c (Proc.devRef .tc b) := by
  by_cases hb : ∃ w, Pipeline.arrRef spec6 w = b
  · obtain ⟨w, rfl⟩ := hb
    exact (Gen.W14_arr m ρ c w).trans (((Gen.dat6 (Gen.V13 m ρ) c).arrAt_in w
      ((by decide : ∀ w : Fin cfg6.W, Pipeline.arrRef spec6 w ≠ main_v191 → (cfg6.win w).isOut = false) w h) _).trans
      (Gen.A_eq6 (Gen.V13 m ρ) c w))
  · exact Gen.W14_of_ne m ρ c b fun w e => hb ⟨w, e⟩

/-- Region 7 writes its output array `main_v193` only: an input array is as entered, any other buffer is untouched. -/
theorem keepR7 (c : Dev nD) (b : Ref sig .tc) (h : b ≠ main_v193) :
    Gen.W16 m ρ c (Proc.devRef .tc b) = Gen.W15 m ρ c (Proc.devRef .tc b) := by
  by_cases hb : ∃ w, Pipeline.arrRef spec7 w = b
  · obtain ⟨w, rfl⟩ := hb
    exact (Gen.W16_arr m ρ c w).trans (((Gen.dat7 (Gen.V15 m ρ) c).arrAt_in w
      ((by decide : ∀ w : Fin cfg7.W, Pipeline.arrRef spec7 w ≠ main_v193 → (cfg7.win w).isOut = false) w h) _).trans
      (Gen.A_eq7 (Gen.V15 m ρ) c w))
  · exact Gen.W16_of_ne m ρ c b fun w e => hb ⟨w, e⟩

/-! ## The argument arrays at every boundary -/

/-- The sixteen argument arrays. -/
abbrev args : List (Ref sig .tc) := [main_arg0, main_arg1, main_arg2, main_arg3, main_arg4, main_arg5, main_arg6, main_arg7, main_arg8, main_arg9, main_arg10, main_arg11, main_arg12, main_arg13, main_arg14, main_arg15]

theorem W0_arg (c : Dev nD) (b : Ref sig .tc) (hb : b ∈ args) :
    Gen.W0 m ρ c (Proc.devRef .tc b) = m ((c : Thread nD τ).loc b) := rfl
theorem W1_arg (c : Dev nD) (b : Ref sig .tc) (hb : b ∈ args) :
    Gen.W1 m ρ c (Proc.devRef .tc b) = m ((c : Thread nD τ).loc b) :=
  (keepH0 m ρ c b ((by decide : ∀ b ∈ args, b ∉ wr0) b hb)).trans (W0_arg m ρ c b hb)
theorem W2_arg (c : Dev nD) (b : Ref sig .tc) (hb : b ∈ args) :
    Gen.W2 m ρ c (Proc.devRef .tc b) = m ((c : Thread nD τ).loc b) :=
  (keepR0 m ρ c b ((by decide : ∀ b ∈ args, b ≠ main_v1) b hb)).trans (W1_arg m ρ c b hb)
theorem W3_arg (c : Dev nD) (b : Ref sig .tc) (hb : b ∈ args) :
    Gen.W3 m ρ c (Proc.devRef .tc b) = m ((c : Thread nD τ).loc b) :=
  (keepH1 m ρ c b ((by decide : ∀ b ∈ args, b ∉ wr1) b hb)).trans (W2_arg m ρ c b hb)
theorem W4_arg (c : Dev nD) (b : Ref sig .tc) (hb : b ∈ args) :
    Gen.W4 m ρ c (Proc.devRef .tc b) = m ((c : Thread nD τ).loc b) :=
  (keepR1 m ρ c b ((by decide : ∀ b ∈ args, b ≠ main_v3) b hb)).trans (W3_arg m ρ c b hb)
theorem W5_arg (c : Dev nD) (b : Ref sig .tc) (hb : b ∈ args) :
    Gen.W5 m ρ c (Proc.devRef .tc b) = m ((c : Thread nD τ).loc b) :=
  (keepH2 m ρ c b ((by decide : ∀ b ∈ args, b ∉ wr2) b hb)).trans (W4_arg m ρ c b hb)
theorem W6_arg (c : Dev nD) (b : Ref sig .tc) (hb : b ∈ args) :
    Gen.W6 m ρ c (Proc.devRef .tc b) = m ((c : Thread nD τ).loc b) :=
  (keepR2 m ρ c b ((by decide : ∀ b ∈ args, b ≠ main_v88) b hb)).trans (W5_arg m ρ c b hb)
theorem W7_arg (c : Dev nD) (b : Ref sig .tc) (hb : b ∈ args) :
    Gen.W7 m ρ c (Proc.devRef .tc b) = m ((c : Thread nD τ).loc b) :=
  (keepH3 m ρ c b ((by decide : ∀ b ∈ args, b ∉ wr3) b hb)).trans (W6_arg m ρ c b hb)
theorem W8_arg (c : Dev nD) (b : Ref sig .tc) (hb : b ∈ args) :
    Gen.W8 m ρ c (Proc.devRef .tc b) = m ((c : Thread nD τ).loc b) :=
  (keepR3 m ρ c b ((by decide : ∀ b ∈ args, b ≠ main_v96) b hb)).trans (W7_arg m ρ c b hb)
theorem W9_arg (c : Dev nD) (b : Ref sig .tc) (hb : b ∈ args) :
    Gen.W9 m ρ c (Proc.devRef .tc b) = m ((c : Thread nD τ).loc b) :=
  (keepH4 m ρ c b ((by decide : ∀ b ∈ args, b ∉ wr4) b hb)).trans (W8_arg m ρ c b hb)
theorem W10_arg (c : Dev nD) (b : Ref sig .tc) (hb : b ∈ args) :
    Gen.W10 m ρ c (Proc.devRef .tc b) = m ((c : Thread nD τ).loc b) :=
  (keepR4 m ρ c b ((by decide : ∀ b ∈ args, b ≠ main_v181) b hb)).trans (W9_arg m ρ c b hb)
theorem W11_arg (c : Dev nD) (b : Ref sig .tc) (hb : b ∈ args) :
    Gen.W11 m ρ c (Proc.devRef .tc b) = m ((c : Thread nD τ).loc b) :=
  (keepH5 m ρ c b ((by decide : ∀ b ∈ args, b ∉ wr5) b hb)).trans (W10_arg m ρ c b hb)
theorem W12_arg (c : Dev nD) (b : Ref sig .tc) (hb : b ∈ args) :
    Gen.W12 m ρ c (Proc.devRef .tc b) = m ((c : Thread nD τ).loc b) :=
  (keepR5 m ρ c b ((by decide : ∀ b ∈ args, b ≠ main_v189) b hb)).trans (W11_arg m ρ c b hb)
theorem W13_arg (c : Dev nD) (b : Ref sig .tc) (hb : b ∈ args) :
    Gen.W13 m ρ c (Proc.devRef .tc b) = m ((c : Thread nD τ).loc b) :=
  (keepH6 m ρ c b ((by decide : ∀ b ∈ args, b ∉ wr6) b hb)).trans (W12_arg m ρ c b hb)
theorem W14_arg (c : Dev nD) (b : Ref sig .tc) (hb : b ∈ args) :
    Gen.W14 m ρ c (Proc.devRef .tc b) = m ((c : Thread nD τ).loc b) :=
  (keepR6 m ρ c b ((by decide : ∀ b ∈ args, b ≠ main_v191) b hb)).trans (W13_arg m ρ c b hb)
theorem W15_arg (c : Dev nD) (b : Ref sig .tc) (hb : b ∈ args) :
    Gen.W15 m ρ c (Proc.devRef .tc b) = m ((c : Thread nD τ).loc b) :=
  (keepH7 m ρ c b ((by decide : ∀ b ∈ args, b ∉ wr7) b hb)).trans (W14_arg m ρ c b hb)

end Cert.KernelIdeal.Val

end
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.Forms.lean ====
/-
  The dense maps of a two-relation-type graph network on arrays of extended reals.

  Every dense step of the network is a sum of products rows by columns plus a bias row, scaled, and (for all but the
  output heads) followed by the positive part:

  * `proj x w b`: entry (r, d) is max (((0 + ∑ₖ x(r,k)·w(k,d)) + b(0,d)) · 1) 0 — an input projection.
  * `head x w b`: the same without the positive part — an output head.
  * `mix2 a₁ w₁ a₂ w₂ b`: max ((((0 + a₁·w₁) + a₂·w₂) + b) · 1) 0 — a layer's update of a node type with one
    incoming relation: the neighbours' mean times one weight, the node's own feature times another.
  * `mix3 a₁ w₁ a₂ w₂ a₃ w₃ b`: max (((((0 + a₁·w₁) + a₂·w₂) + a₃·w₃) + b) · ½) 0 — the update of a node type with two
    incoming relations, averaged, the two own-feature products merged into one product with the sum of their weights.

  Row r of each result depends on row r of the row-indexed operands only (the `_rows` lemmas), so a block of rows of
  the operands gives the same block of rows of the result.

  The laws that compare the two arrangements of a layer: `0 + s = s` and `s · 1 = s` always; sums may be regrouped
  freely (addition of extended reals is commutative and associative); but `h · (p + q) = h · p + h · q` needs `h`,
  `p`, `q` finite, which is why finiteness of every intermediate array is carried along (`IsReal` and its closure
  under each operation).
-/
import Idealize.ShloMosaic.Lib.ValueIdx
import Idealize.ShloMosaic.PureOps.Ideal.Laws
import proofs.«158813_j31396210933902_1_alg».proof.Proof.LibPlainProduct

noncomputable section

open scoped BigOperators

namespace Cert.Hetero

open Idealize.ShloMosaic Idealize.ShloMosaic.ValueIdx Idealize.ShloMosaic.PlainProduct

/-! ## Three constants -/

/-- The pattern of `0.0`. -/
abbrev z32 : EReal := Ideal.ofBits .f32 0x00000000#32
/-- The pattern of `1.0`. -/
abbrev one32 : EReal := Ideal.ofBits .f32 0x3F800000#32
/-- The pattern of `0.5`. -/
abbrev half32 : EReal := Ideal.ofBits .f32 0x3F000000#32

theorem z32_eq : z32 = 0 := Ideal.ofBits_zero_f32
theorem one32_eq : one32 = 1 := by
  simp [z32, one32, Ideal.ofBits, Ideal.ieee, -EReal.coe_mul]; norm_num
theorem half32_real : ∃ r : ℝ, half32 = (r : EReal) := by
  refine ⟨(1 / 2 : ℝ), ?_⟩
  simp [half32, Ideal.ofBits, Ideal.ieee, -EReal.coe_mul]; norm_num

/-! ## The dense maps -/

variable {N B K K₂ K₃ M : Nat}

/-- The bias row read under entry `i`. -/
abbrev biasAt (b : FVec Ideal ⟨2, ![1, M]⟩ .f32) (i : (⟨2, ![N, M]⟩ : Shape).Idx) : EReal := b (ix2 (0 : Fin 1) (i 1))

def proj (x : FVec Ideal ⟨2, ![N, K]⟩ .f32) (w : FVec Ideal ⟨2, ![K, M]⟩ .f32) (b : FVec Ideal ⟨2, ![1, M]⟩ .f32) :
    FVec Ideal ⟨2, ![N, M]⟩ .f32 :=
  fun i => max (((z32 + rowsByCols x w i) + biasAt b i) * one32) z32

def head (x : FVec Ideal ⟨2, ![N, K]⟩ .f32) (w : FVec Ideal ⟨2, ![K, M]⟩ .f32) (b : FVec Ideal ⟨2, ![1, M]⟩ .f32) :
    FVec Ideal ⟨2, ![N, M]⟩ .f32 :=
  fun i => ((z32 + rowsByCols x w i) + biasAt b i) * one32

def mix2 (a₁ : FVec Ideal ⟨2, ![N, K]⟩ .f32) (w₁ : FVec Ideal ⟨2, ![K, M]⟩ .f32)
    (a₂ : FVec Ideal ⟨2, ![N, K₂]⟩ .f32) (w₂ : FVec Ideal ⟨2, ![K₂, M]⟩ .f32) (b : FVec Ideal ⟨2, ![1, M]⟩ .f32) :
    FVec Ideal ⟨2, ![N, M]⟩ .f32 :=
  fun i => max ((((z32 + rowsByCols a₁ w₁ i) + rowsByCols a₂ w₂ i) + biasAt b i) * one32) z32

def mix3 (a₁ : FVec Ideal ⟨2, ![N, K]⟩ .f32) (w₁ : FVec Ideal ⟨2, ![K, M]⟩ .f32)
    (a₂ : FVec Ideal ⟨2, ![N, K₂]⟩ .f32) (w₂ : FVec Ideal ⟨2, ![K₂, M]⟩ .f32)
    (a₃ : FVec Ideal ⟨2, ![N, K₃]⟩ .f32) (w₃ : FVec Ideal ⟨2, ![K₃, M]⟩ .f32) (b : FVec Ideal ⟨2, ![1, M]⟩ .f32) :
    FVec Ideal ⟨2, ![N, M]⟩ .f32 :=
  fun i => max (((((z32 + rowsByCols a₁ w₁ i) + rowsByCols a₂ w₂ i) + rowsByCols a₃ w₃ i) + biasAt b i) * half32) z32

/-! ## Blocks of rows -/

section Rows

variable (e : Fin B → Fin N)

theorem proj_rows (x : FVec Ideal ⟨2, ![N, K]⟩ .f32) (w : FVec Ideal ⟨2, ![K, M]⟩ .f32) (b : FVec Ideal ⟨2, ![1, M]⟩ .f32)
    (xb : FVec Ideal ⟨2, ![B, K]⟩ .f32) (hxb : ∀ (r : Fin B) (k : Fin K), xb (ix2 r k) = x (ix2 (e r) k))
    (j : (⟨2, ![B, M]⟩ : Shape).Idx) : proj xb w b j = proj x w b (ix2 (e (j 0)) (j 1)) := by
  unfold proj; rw [rowsByCols_rows x w xb e hxb j]; rfl

theorem head_rows (x : FVec Ideal ⟨2, ![N, K]⟩ .f32) (w : FVec Ideal ⟨2, ![K, M]⟩ .f32) (b : FVec Ideal ⟨2, ![1, M]⟩ .f32)
    (xb : FVec Ideal ⟨2, ![B, K]⟩ .f32) (hxb : ∀ (r : Fin B) (k : Fin K), xb (ix2 r k) = x (ix2 (e r) k))
    (j : (⟨2, ![B, M]⟩ : Shape).Idx) : head xb w b j = head x w b (ix2 (e (j 0)) (j 1)) := by
  unfold head; rw [rowsByCols_rows x w xb e hxb j]; rfl

theorem mix2_rows (a₁ : FVec Ideal ⟨2, ![N, K]⟩ .f32) (w₁ : FVec Ideal ⟨2, ![K, M]⟩ .f32)
    (a₂ : FVec Ideal ⟨2, ![N, K₂]⟩ .f32) (w₂ : FVec Ideal ⟨2, ![K₂, M]⟩ .f32) (b : FVec Ideal ⟨2, ![1, M]⟩ .f32)
    (b₁ : FVec Ideal ⟨2, ![B, K]⟩ .f32) (b₂ : FVec Ideal ⟨2, ![B, K₂]⟩ .f32)
    (h₁ : ∀ (r : Fin B) (k : Fin K), b₁ (ix2 r k) = a₁ (ix2 (e r) k))
    (h₂ : ∀ (r : Fin B) (k : Fin K₂), b₂ (ix2 r k) = a₂ (ix2 (e r) k))
    (j : (⟨2, ![B, M]⟩ : Shape).Idx) : mix2 b₁ w₁ b₂ w₂ b j = mix2 a₁ w₁ a₂ w₂ b (ix2 (e (j 0)) (j 1)) := by
  unfold mix2; rw [rowsByCols_rows a₁ w₁ b₁ e h₁ j, rowsByCols_rows a₂ w₂ b₂ e h₂ j]; rfl

theorem mix3_rows (a₁ : FVec Ideal ⟨2, ![N, K]⟩ .f32) (w₁ : FVec Ideal ⟨2, ![K, M]⟩ .f32)
    (a₂ : FVec Ideal ⟨2, ![N, K₂]⟩ .f32) (w₂ : FVec Ideal ⟨2, ![K₂, M]⟩ .f32)
    (a₃ : FVec Ideal ⟨2, ![N, K₃]⟩ .f32) (w₃ : FVec Ideal ⟨2, ![K₃, M]⟩ .f32) (b : FVec Ideal ⟨2, ![1, M]⟩ .f32)
    (b₁ : FVec Ideal ⟨2, ![B, K]⟩ .f32) (b₂ : FVec Ideal ⟨2, ![B, K₂]⟩ .f32) (b₃ : FVec Ideal ⟨2, ![B, K₃]⟩ .f32)
    (h₁ : ∀ (r : Fin B) (k : Fin K), b₁ (ix2 r k) = a₁ (ix2 (e r) k))
    (h₂ : ∀ (r : Fin B) (k : Fin K₂), b₂ (ix2 r k) = a₂ (ix2 (e r) k))
    (h₃ : ∀ (r : Fin B) (k : Fin K₃), b₃ (ix2 r k) = a₃ (ix2 (e r) k))
    (j : (⟨2, ![B, M]⟩ : Shape).Idx) :
    mix3 b₁ w₁ b₂ w₂ b₃ w₃ b j = mix3 a₁ w₁ a₂ w₂ a₃ w₃ b (ix2 (e (j 0)) (j 1)) := by
  unfold mix3
  rw [rowsByCols_rows a₁ w₁ b₁ e h₁ j, rowsByCols_rows a₂ w₂ b₂ e h₂ j, rowsByCols_rows a₃ w₃ b₃ e h₃ j]; rfl

end Rows

/-! ## Finite arrays -/

/-- Every entry is a real number. -/
def IsReal {S : Shape} (v : S.Idx → EReal) : Prop := ∀ i, ∃ r : ℝ, v i = (r : EReal)

theorem real_add {a b : EReal} (ha : ∃ r : ℝ, a = r) (hb : ∃ r : ℝ, b = r) : ∃ r : ℝ, a + b = r := by
  obtain ⟨x, rfl⟩ := ha; obtain ⟨y, rfl⟩ := hb; exact ⟨x + y, (EReal.coe_add x y).symm⟩
theorem real_mul {a b : EReal} (ha : ∃ r : ℝ, a = r) (hb : ∃ r : ℝ, b = r) : ∃ r : ℝ, a * b = r := by
  obtain ⟨x, rfl⟩ := ha; obtain ⟨y, rfl⟩ := hb; exact ⟨x * y, (EReal.coe_mul x y).symm⟩
theorem real_max {a b : EReal} (ha : ∃ r : ℝ, a = r) (hb : ∃ r : ℝ, b = r) : ∃ r : ℝ, max a b = r := by
  rcases max_choice a b with h | h <;> rw [h] <;> assumption
theorem real_sum {ι : Type*} (s : Finset ι) (f : ι → EReal) (hf : ∀ i ∈ s, ∃ r : ℝ, f i = r) : ∃ r : ℝ, ∑ i ∈ s, f i = r := by
  classical
  induction s using Finset.induction_on with
  | empty => exact ⟨0, by simp⟩
  | insert a s ha ih =>
    rw [Finset.sum_insert ha]
    exact real_add (hf a (Finset.mem_insert_self a s)) (ih fun i hi => hf i (Finset.mem_insert_of_mem hi))
theorem real_z32 : ∃ r : ℝ, z32 = r := ⟨0, by rw [z32_eq]; rfl⟩
theorem real_one32 : ∃ r : ℝ, one32 = r := ⟨1, by rw [one32_eq]; rfl⟩

theorem real_rowsByCols {x : FVec Ideal ⟨2, ![N, K]⟩ .f32} {w : FVec Ideal ⟨2, ![K, M]⟩ .f32}
    (hx : IsReal x) (hw : IsReal w) (i : (⟨2, ![N, M]⟩ : Shape).Idx) : ∃ r : ℝ, rowsByCols x w i = r :=
  real_sum _ _ fun k _ => real_mul (hx _) (hw _)

end Cert.Hetero

end
-- ==== Proof.ChainDefs.lean ====
/-
  The kernel program's arrays as functions of its argument arrays.

  The network has two node types, g (50000 nodes) and p (20000 nodes), three relations (g→g, g→p, p→g) given as
  edge lists, an input projection per node type, two layers, and an output head per node type.

  * A relation's aggregate is the mean over incoming edges: the source rows gathered along the edge list's first row
    (a negative index wrapped once), added into the destination rows named by its second row, and divided by the
    number of incoming edges, at least one (`meanGG`, `meanGP`, `meanPG`: one per relation, each a function of the
    source feature array and the edge array, so that both layers use the same three).
  * A layer's weights are blocks of the arrays of shape 2×3×256×256 and 2×3×256 indexed by (layer, relation)
    (`wAt`, `bAt`); the update of g uses relations 0 and 2 and adds the two own-feature blocks (`wPair`) and the
    two bias blocks (`bPair`) before the product; the update of p uses relation 1.
  * `stepG`, `stepP`: one layer's update of g and of p from the previous layer's two feature arrays.
  * `hg0`, `hp0` (projections), `hg1`, `hp1`, `hg2`, `hp2` (after each layer), `out0`, `out1` (heads): the
    kernel's eight dense results, each over the raw argument arrays.
-/
import proofs.«158813_j31396210933902_1_alg».proof.Proof.Gen.KernelIdeal
import proofs.«158813_j31396210933902_1_alg».proof.Proof.Forms

noncomputable section

namespace Cert.KernelIdeal.Val

open Idealize.ShloMosaic Cert.KernelIdeal.Gen

/-! ## Bias rows and weight blocks -/

/-- A bias vector of length 256 as a row. -/
def biasRow (b : (⟨S256, .f32⟩ : BufTy).Contents (Elt Ideal)) : (⟨S1x256, .f32⟩ : BufTy).Contents (Elt Ideal) :=
  shapeCast _ b shapeCasts_S256_S1x256

/-- The weight block of layer 0, relation 0. -/
def wAt00 (w : (⟨S2x3x256x256, .f32⟩ : BufTy).Contents (Elt Ideal)) : (⟨S256x256, .f32⟩ : BufTy).Contents (Elt Ideal) :=
  shapeCast _ (extractStridedSlice S1x1x256x256 ![0, 0, 0, 0] w slices_S2x3x256x256_S1x1x256x256_0_0_0_0) shapeCasts_S1x1x256x256_S256x256
/-- The weight block of layer 0, relation 1. -/
def wAt01 (w : (⟨S2x3x256x256, .f32⟩ : BufTy).Contents (Elt Ideal)) : (⟨S256x256, .f32⟩ : BufTy).Contents (Elt Ideal) :=
  shapeCast _ (extractStridedSlice S1x1x256x256 ![0, 1, 0, 0] w slices_S2x3x256x256_S1x1x256x256_0_1_0_0) shapeCasts_S1x1x256x256_S256x256
/-- The weight block of layer 0, relation 2. -/
def wAt02 (w : (⟨S2x3x256x256, .f32⟩ : BufTy).Contents (Elt Ideal)) : (⟨S256x256, .f32⟩ : BufTy).Contents (Elt Ideal) :=
  shapeCast _ (extractStridedSlice S1x1x256x256 ![0, 2, 0, 0] w slices_S2x3x256x256_S1x1x256x256_0_2_0_0) shapeCasts_S1x1x256x256_S256x256
/-- The weight block of layer 1, relation 0. -/
def wAt10 (w : (⟨S2x3x256x256, .f32⟩ : BufTy).Contents (Elt Ideal)) : (⟨S256x256, .f32⟩ : BufTy).Contents (Elt Ideal) :=
  shapeCast _ (extractStridedSlice S1x1x256x256 ![1, 0, 0, 0] w slices_S2x3x256x256_S1x1x256x256_1_0_0_0) shapeCasts_S1x1x256x256_S256x256
/-- The weight block of layer 1, relation 1. -/
def wAt11 (w : (⟨S2x3x256x256, .f32⟩ : BufTy).Contents (Elt Ideal)) : (⟨S256x256, .f32⟩ : BufTy).Contents (Elt Ideal) :=
  shapeCast _ (extractStridedSlice S1x1x256x256 ![1, 1, 0, 0] w slices_S2x3x256x256_S1x1x256x256_1_1_0_0) shapeCasts_S1x1x256x256_S256x256
/-- The weight block of layer 1, relation 2. -/
def wAt12 (w : (⟨S2x3x256x256, .f32⟩ : BufTy).Contents (Elt Ideal)) : (⟨S256x256, .f32⟩ : BufTy).Contents (Elt Ideal) :=
  shapeCast _ (extractStridedSlice S1x1x256x256 ![1, 2, 0, 0] w slices_S2x3x256x256_S1x1x256x256_1_2_0_0) shapeCasts_S1x1x256x256_S256x256

/-- The bias block of layer 0, relation 0. -/
def bAt00 (b : (⟨S2x3x256, .f32⟩ : BufTy).Contents (Elt Ideal)) : (⟨S256, .f32⟩ : BufTy).Contents (Elt Ideal) :=
  shapeCast _ (extractStridedSlice S1x1x256 ![0, 0, 0] b slices_S2x3x256_S1x1x256_0_0_0) shapeCasts_S1x1x256_S256
/-- The bias block of layer 0, relation 1. -/
def bAt01 (b : (⟨S2x3x256, .f32⟩ : BufTy).Contents (Elt Ideal)) : (⟨S256, .f32⟩ : BufTy).Contents (Elt Ideal) :=
  shapeCast _ (extractStridedSlice S1x1x256 ![0, 1, 0] b slices_S2x3x256_S1x1x256_0_1_0) shapeCasts_S1x1x256_S256
/-- The bias block of layer 0, relation 2. -/
def bAt02 (b : (⟨S2x3x256, .f32⟩ : BufTy).Contents (Elt Ideal)) : (⟨S256, .f32⟩ : BufTy).Contents (Elt Ideal) :=
  shapeCast _ (extractStridedSlice S1x1x256 ![0, 2, 0] b slices_S2x3x256_S1x1x256_0_2_0) shapeCasts_S1x1x256_S256
/-- The bias block of layer 1, relation 0. -/
def bAt10 (b : (⟨S2x3x256, .f32⟩ : BufTy).Contents (Elt Ideal)) : (⟨S256, .f32⟩ : BufTy).Contents (Elt Ideal) :=
  shapeCast _ (extractStridedSlice S1x1x256 ![1, 0, 0] b slices_S2x3x256_S1x1x256_1_0_0) shapeCasts_S1x1x256_S256
/-- The bias block of layer 1, relation 1. -/
def bAt11 (b : (⟨S2x3x256, .f32⟩ : BufTy).Contents (Elt Ideal)) : (⟨S256, .f32⟩ : BufTy).Contents (Elt Ideal) :=
  shapeCast _ (extractStridedSlice S1x1x256 ![1, 1, 0] b slices_S2x3x256_S1x1x256_1_1_0) shapeCasts_S1x1x256_S256
/-- The bias block of layer 1, relation 2. -/
def bAt12 (b : (⟨S2x3x256, .f32⟩ : BufTy).Contents (Elt Ideal)) : (⟨S256, .f32⟩ : BufTy).Contents (Elt Ideal) :=
  shapeCast _ (extractStridedSlice S1x1x256 ![1, 2, 0] b slices_S2x3x256_S1x1x256_1_2_0) shapeCasts_S1x1x256_S256

/-- Layer 0: the two own-feature weight blocks of g (relations 0 and 2), added. -/
def wPair0 (w : (⟨S2x3x256x256, .f32⟩ : BufTy).Contents (Elt Ideal)) : (⟨S256x256, .f32⟩ : BufTy).Contents (Elt Ideal) :=
  addf (F := Ideal) (φ := .f32) (wAt00 w) (wAt02 w)
/-- Layer 1: the two own-feature weight blocks of g, added. -/
def wPair1 (w : (⟨S2x3x256x256, .f32⟩ : BufTy).Contents (Elt Ideal)) : (⟨S256x256, .f32⟩ : BufTy).Contents (Elt Ideal) :=
  addf (F := Ideal) (φ := .f32) (wAt10 w) (wAt12 w)
/-- Layer 0: the two bias blocks of g, added. -/
def bPair0 (b : (⟨S2x3x256, .f32⟩ : BufTy).Contents (Elt Ideal)) : (⟨S256, .f32⟩ : BufTy).Contents (Elt Ideal) :=
  addf (F := Ideal) (φ := .f32) (bAt00 b) (bAt02 b)
/-- Layer 1: the two bias blocks of g, added. -/
def bPair1 (b : (⟨S2x3x256, .f32⟩ : BufTy).Contents (Elt Ideal)) : (⟨S256, .f32⟩ : BufTy).Contents (Elt Ideal) :=
  addf (F := Ideal) (φ := .f32) (bAt10 b) (bAt12 b)

/-! ## The three relations' means over incoming edges -/

/-- Relation g→g: for each g node the mean of the source rows of its incoming edges. -/
def meanGG (src : (⟨S50000x256, .f32⟩ : BufTy).Contents (Elt Ideal)) (e : (⟨S2x800000, .i32⟩ : BufTy).Contents (Elt Ideal)) : (⟨S50000x256, .f32⟩ : BufTy).Contents (Elt Ideal) :=
  Host.divf (F := Ideal) (φ := .f32) (Host.scatterAdd (F := Ideal) (φ := .f32) scatter_S50000x256_S800000x1_S800000x256_1_0_0_1 (broadcastInDim S50000x256 ![] bcast_S_S50000x256 (constant (F := Ideal) S_ .f32 0x00000000#32)) (broadcastInDim S800000x1 ![0] bcast_S800000_S800000x1_0 (shapeCast _ (extractStridedSlice S1x800000 ![1, 0] e slices_S2x800000_S1x800000_1_0) shapeCasts_S1x800000_S800000)) (Host.gather gather_S50000x256_S800000x1_S800000x256_1_0_n_n_0_1_1256 src (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000))))) (broadcastInDim S50000x256 ![0, 1] bcast_S50000x1_S50000x256_0_1 (broadcastInDim S50000x1 ![0] bcast_S50000_S50000x1_0 (maximumf (F := Ideal) (φ := .f32) (Host.scatterAdd (F := Ideal) (φ := .f32) scatter_S50000_S800000x1_S800000_n_0_0_1 (broadcastInDim S50000 ![] bcast_S_S50000 (constant (F := Ideal) S_ .f32 0x00000000#32)) (broadcastInDim S800000x1 ![0] bcast_S800000_S800000x1_0 (shapeCast _ (extractStridedSlice S1x800000 ![1, 0] e slices_S2x800000_S1x800000_1_0) shapeCasts_S1x800000_S800000)) (broadcastInDim S800000 ![] bcast_S_S800000 (constant (F := Ideal) S_ .f32 0x3F800000#32))) (broadcastInDim S50000 ![] bcast_S_S50000 (constant (F := Ideal) S_ .f32 0x3F800000#32)))))

/-- Relation g→p: for each p node the mean of the g rows of its incoming edges. -/
def meanGP (src : (⟨S50000x256, .f32⟩ : BufTy).Contents (Elt Ideal)) (e : (⟨S2x400000, .i32⟩ : BufTy).Contents (Elt Ideal)) : (⟨S20000x256, .f32⟩ : BufTy).Contents (Elt Ideal) :=
  Host.divf (F := Ideal) (φ := .f32) (Host.scatterAdd (F := Ideal) (φ := .f32) scatter_S20000x256_S400000x1_S400000x256_1_0_0_1 (broadcastInDim S20000x256 ![] bcast_S_S20000x256 (constant (F := Ideal) S_ .f32 0x00000000#32)) (broadcastInDim S400000x1 ![0] bcast_S400000_S400000x1_0 (shapeCast _ (extractStridedSlice S1x400000 ![1, 0] e slices_S2x400000_S1x400000_1_0) shapeCasts_S1x400000_S400000)) (Host.gather gather_S50000x256_S400000x1_S400000x256_1_0_n_n_0_1_1256 src (broadcastInDim S400000x1 ![0] bcast_S400000_S400000x1_0 (select (cmpi .slt (shapeCast _ (extractStridedSlice S1x400000 ![0, 0] e slices_S2x400000_S1x400000_0_0) shapeCasts_S1x400000_S400000) (broadcastInDim S400000 ![] bcast_S_S400000 (constantI S_ 32 0#32))) (addi (shapeCast _ (extractStridedSlice S1x400000 ![0, 0] e slices_S2x400000_S1x400000_0_0) shapeCasts_S1x400000_S400000) (broadcastInDim S400000 ![] bcast_S_S400000 (constantI S_ 32 50000#32))) (shapeCast _ (extractStridedSlice S1x400000 ![0, 0] e slices_S2x400000_S1x400000_0_0) shapeCasts_S1x400000_S400000))))) (broadcastInDim S20000x256 ![0, 1] bcast_S20000x1_S20000x256_0_1 (broadcastInDim S20000x1 ![0] bcast_S20000_S20000x1_0 (maximumf (F := Ideal) (φ := .f32) (Host.scatterAdd (F := Ideal) (φ := .f32) scatter_S20000_S400000x1_S400000_n_0_0_1 (broadcastInDim S20000 ![] bcast_S_S20000 (constant (F := Ideal) S_ .f32 0x00000000#32)) (broadcastInDim S400000x1 ![0] bcast_S400000_S400000x1_0 (shapeCast _ (extractStridedSlice S1x400000 ![1, 0] e slices_S2x400000_S1x400000_1_0) shapeCasts_S1x400000_S400000)) (broadcastInDim S400000 ![] bcast_S_S400000 (constant (F := Ideal) S_ .f32 0x3F800000#32))) (broadcastInDim S20000 ![] bcast_S_S20000 (constant (F := Ideal) S_ .f32 0x3F800000#32)))))

/-- Relation p→g: for each g node the mean of the p rows of its incoming edges. -/
def meanPG (src : (⟨S20000x256, .f32⟩ : BufTy).Contents (Elt Ideal)) (e : (⟨S2x400000, .i32⟩ : BufTy).Contents (Elt Ideal)) : (⟨S50000x256, .f32⟩ : BufTy).Contents (Elt Ideal) :=
  Host.divf (F := Ideal) (φ := .f32) (Host.scatterAdd (F := Ideal) (φ := .f32) scatter_S50000x256_S400000x1_S400000x256_1_0_0_1 (broadcastInDim S50000x256 ![] bcast_S_S50000x256 (constant (F := Ideal) S_ .f32 0x00000000#32)) (broadcastInDim S400000x1 ![0] bcast_S400000_S400000x1_0 (shapeCast _ (extractStridedSlice S1x400000 ![1, 0] e slices_S2x400000_S1x400000_1_0) shapeCasts_S1x400000_S400000)) (Host.gather gather_S20000x256_S400000x1_S400000x256_1_0_n_n_0_1_1256 src (broadcastInDim S400000x1 ![0] bcast_S400000_S400000x1_0 (select (cmpi .slt (shapeCast _ (extractStridedSlice S1x400000 ![0, 0] e slices_S2x400000_S1x400000_0_0) shapeCasts_S1x400000_S400000) (broadcastInDim S400000 ![] bcast_S_S400000 (constantI S_ 32 0#32))) (addi (shapeCast _ (extractStridedSlice S1x400000 ![0, 0] e slices_S2x400000_S1x400000_0_0) shapeCasts_S1x400000_S400000) (broadcastInDim S400000 ![] bcast_S_S400000 (constantI S_ 32 20000#32))) (shapeCast _ (extractStridedSlice S1x400000 ![0, 0] e slices_S2x400000_S1x400000_0_0) shapeCasts_S1x400000_S400000))))) (broadcastInDim S50000x256 ![0, 1] bcast_S50000x1_S50000x256_0_1 (broadcastInDim S50000x1 ![0] bcast_S50000_S50000x1_0 (maximumf (F := Ideal) (φ := .f32) (Host.scatterAdd (F := Ideal) (φ := .f32) scatter_S50000_S400000x1_S400000_n_0_0_1 (broadcastInDim S50000 ![] bcast_S_S50000 (constant (F := Ideal) S_ .f32 0x00000000#32)) (broadcastInDim S400000x1 ![0] bcast_S400000_S400000x1_0 (shapeCast _ (extractStridedSlice S1x400000 ![1, 0] e slices_S2x400000_S1x400000_1_0) shapeCasts_S1x400000_S400000)) (broadcastInDim S400000 ![] bcast_S_S400000 (constant (F := Ideal) S_ .f32 0x3F800000#32))) (broadcastInDim S50000 ![] bcast_S_S50000 (constant (F := Ideal) S_ .f32 0x3F800000#32)))))

/-! ## One layer -/

/-- Layer 0's update of g from the previous features `g`, `p`. -/
def stepG0 (g : (⟨S50000x256, .f32⟩ : BufTy).Contents (Elt Ideal)) (p : (⟨S20000x256, .f32⟩ : BufTy).Contents (Elt Ideal))
    (x6 : (⟨S2x3x256x256, .f32⟩ : BufTy).Contents (Elt Ideal)) (x7 : (⟨S2x3x256, .f32⟩ : BufTy).Contents (Elt Ideal)) (x8 : (⟨S2x3x256x256, .f32⟩ : BufTy).Contents (Elt Ideal))
    (x13 : (⟨S2x800000, .i32⟩ : BufTy).Contents (Elt Ideal)) (x15 : (⟨S2x400000, .i32⟩ : BufTy).Contents (Elt Ideal)) : (⟨S50000x256, .f32⟩ : BufTy).Contents (Elt Ideal) :=
  Cert.Hetero.mix3 (meanGG g x13) (wAt00 x6) (meanPG p x15) (wAt02 x6) g (wPair0 x8) (biasRow (bPair0 x7))
/-- Layer 0's update of p. -/
def stepP0 (g : (⟨S50000x256, .f32⟩ : BufTy).Contents (Elt Ideal)) (p : (⟨S20000x256, .f32⟩ : BufTy).Contents (Elt Ideal))
    (x6 : (⟨S2x3x256x256, .f32⟩ : BufTy).Contents (Elt Ideal)) (x7 : (⟨S2x3x256, .f32⟩ : BufTy).Contents (Elt Ideal)) (x8 : (⟨S2x3x256x256, .f32⟩ : BufTy).Contents (Elt Ideal))
    (x14 : (⟨S2x400000, .i32⟩ : BufTy).Contents (Elt Ideal)) : (⟨S20000x256, .f32⟩ : BufTy).Contents (Elt Ideal) :=
  Cert.Hetero.mix2 (meanGP g x14) (wAt01 x6) p (wAt01 x8) (biasRow (bAt01 x7))
/-- Layer 1's update of g. -/
def stepG1 (g : (⟨S50000x256, .f32⟩ : BufTy).Contents (Elt Ideal)) (p : (⟨S20000x256, .f32⟩ : BufTy).Contents (Elt Ideal))
    (x6 : (⟨S2x3x256x256, .f32⟩ : BufTy).Contents (Elt Ideal)) (x7 : (⟨S2x3x256, .f32⟩ : BufTy).Contents (Elt Ideal)) (x8 : (⟨S2x3x256x256, .f32⟩ : BufTy).Contents (Elt Ideal))
    (x13 : (⟨S2x800000, .i32⟩ : BufTy).Contents (Elt Ideal)) (x15 : (⟨S2x400000, .i32⟩ : BufTy).Contents (Elt Ideal)) : (⟨S50000x256, .f32⟩ : BufTy).Contents (Elt Ideal) :=
  Cert.Hetero.mix3 (meanGG g x13) (wAt10 x6) (meanPG p x15) (wAt12 x6) g (wPair1 x8) (biasRow (bPair1 x7))
/-- Layer 1's update of p. -/
def stepP1 (g : (⟨S50000x256, .f32⟩ : BufTy).Contents (Elt Ideal)) (p : (⟨S20000x256, .f32⟩ : BufTy).Contents (Elt Ideal))
    (x6 : (⟨S2x3x256x256, .f32⟩ : BufTy).Contents (Elt Ideal)) (x7 : (⟨S2x3x256, .f32⟩ : BufTy).Contents (Elt Ideal)) (x8 : (⟨S2x3x256x256, .f32⟩ : BufTy).Contents (Elt Ideal))
    (x14 : (⟨S2x400000, .i32⟩ : BufTy).Contents (Elt Ideal)) : (⟨S20000x256, .f32⟩ : BufTy).Contents (Elt Ideal) :=
  Cert.Hetero.mix2 (meanGP g x14) (wAt11 x6) p (wAt11 x8) (biasRow (bAt11 x7))

/-! ## The eight dense results over the raw arguments -/

/-- g after the input projection. -/
def hg0 (x0 : (⟨S50000x256, .f32⟩ : BufTy).Contents (Elt Ideal)) (x2 : (⟨S256x256, .f32⟩ : BufTy).Contents (Elt Ideal)) (x3 : (⟨S256, .f32⟩ : BufTy).Contents (Elt Ideal)) : (⟨S50000x256, .f32⟩ : BufTy).Contents (Elt Ideal) :=
  Cert.Hetero.proj x0 x2 (biasRow x3)
/-- p after the input projection. -/
def hp0 (x1 : (⟨S20000x128, .f32⟩ : BufTy).Contents (Elt Ideal)) (x4 : (⟨S128x256, .f32⟩ : BufTy).Contents (Elt Ideal)) (x5 : (⟨S256, .f32⟩ : BufTy).Contents (Elt Ideal)) : (⟨S20000x256, .f32⟩ : BufTy).Contents (Elt Ideal) :=
  Cert.Hetero.proj x1 x4 (biasRow x5)

/-- g after layer 0. -/
def hg1 (x0 : (⟨S50000x256, .f32⟩ : BufTy).Contents (Elt Ideal)) (x1 : (⟨S20000x128, .f32⟩ : BufTy).Contents (Elt Ideal)) (x2 : (⟨S256x256, .f32⟩ : BufTy).Contents (Elt Ideal))
    (x3 : (⟨S256, .f32⟩ : BufTy).Contents (Elt Ideal)) (x4 : (⟨S128x256, .f32⟩ : BufTy).Contents (Elt Ideal)) (x5 : (⟨S256, .f32⟩ : BufTy).Contents (Elt Ideal))
    (x6 : (⟨S2x3x256x256, .f32⟩ : BufTy).Contents (Elt Ideal)) (x7 : (⟨S2x3x256, .f32⟩ : BufTy).Contents (Elt Ideal)) (x8 : (⟨S2x3x256x256, .f32⟩ : BufTy).Contents (Elt Ideal))
    (x13 : (⟨S2x800000, .i32⟩ : BufTy).Contents (Elt Ideal)) (x14 : (⟨S2x400000, .i32⟩ : BufTy).Contents (Elt Ideal)) (x15 : (⟨S2x400000, .i32⟩ : BufTy).Contents (Elt Ideal)) : (⟨S50000x256, .f32⟩ : BufTy).Contents (Elt Ideal) :=
  stepG0 (hg0 x0 x2 x3) (hp0 x1 x4 x5) x6 x7 x8 x13 x15
/-- p after layer 0. -/
def hp1 (x0 : (⟨S50000x256, .f32⟩ : BufTy).Contents (Elt Ideal)) (x1 : (⟨S20000x128, .f32⟩ : BufTy).Contents (Elt Ideal)) (x2 : (⟨S256x256, .f32⟩ : BufTy).Contents (Elt Ideal))
    (x3 : (⟨S256, .f32⟩ : BufTy).Contents (Elt Ideal)) (x4 : (⟨S128x256, .f32⟩ : BufTy).Contents (Elt Ideal)) (x5 : (⟨S256, .f32⟩ : BufTy).Contents (Elt Ideal))
    (x6 : (⟨S2x3x256x256, .f32⟩ : BufTy).Contents (Elt Ideal)) (x7 : (⟨S2x3x256, .f32⟩ : BufTy).Contents (Elt Ideal)) (x8 : (⟨S2x3x256x256, .f32⟩ : BufTy).Contents (Elt Ideal))
    (x13 : (⟨S2x800000, .i32⟩ : BufTy).Contents (Elt Ideal)) (x14 : (⟨S2x400000, .i32⟩ : BufTy).Contents (Elt Ideal)) (x15 : (⟨S2x400000, .i32⟩ : BufTy).Contents (Elt Ideal)) : (⟨S20000x256, .f32⟩ : BufTy).Contents (Elt Ideal) :=
  stepP0 (hg0 x0 x2 x3) (hp0 x1 x4 x5) x6 x7 x8 x14
/-- g after layer 1. -/
def hg2 (x0 : (⟨S50000x256, .f32⟩ : BufTy).Contents (Elt Ideal)) (x1 : (⟨S20000x128, .f32⟩ : BufTy).Contents (Elt Ideal)) (x2 : (⟨S256x256, .f32⟩ : BufTy).Contents (Elt Ideal))
    (x3 : (⟨S256, .f32⟩ : BufTy).Contents (Elt Ideal)) (x4 : (⟨S128x256, .f32⟩ : BufTy).Contents (Elt Ideal)) (x5 : (⟨S256, .f32⟩ : BufTy).Contents (Elt Ideal))
    (x6 : (⟨S2x3x256x256, .f32⟩ : BufTy).Contents (Elt Ideal)) (x7 : (⟨S2x3x256, .f32⟩ : BufTy).Contents (Elt Ideal)) (x8 : (⟨S2x3x256x256, .f32⟩ : BufTy).Contents (Elt Ideal))
    (x13 : (⟨S2x800000, .i32⟩ : BufTy).Contents (Elt Ideal)) (x14 : (⟨S2x400000, .i32⟩ : BufTy).Contents (Elt Ideal)) (x15 : (⟨S2x400000, .i32⟩ : BufTy).Contents (Elt Ideal)) : (⟨S50000x256, .f32⟩ : BufTy).Contents (Elt Ideal) :=
  stepG1 (hg1 x0 x1 x2 x3 x4 x5 x6 x7 x8 x13 x14 x15) (hp1 x0 x1 x2 x3 x4 x5 x6 x7 x8 x13 x14 x15) x6 x7 x8 x13 x15
/-- p after layer 1. -/
def hp2 (x0 : (⟨S50000x256, .f32⟩ : BufTy).Contents (Elt Ideal)) (x1 : (⟨S20000x128, .f32⟩ : BufTy).Contents (Elt Ideal)) (x2 : (⟨S256x256, .f32⟩ : BufTy).Contents (Elt Ideal))
    (x3 : (⟨S256, .f32⟩ : BufTy).Contents (Elt Ideal)) (x4 : (⟨S128x256, .f32⟩ : BufTy).Contents (Elt Ideal)) (x5 : (⟨S256, .f32⟩ : BufTy).Contents (Elt Ideal))
    (x6 : (⟨S2x3x256x256, .f32⟩ : BufTy).Contents (Elt Ideal)) (x7 : (⟨S2x3x256, .f32⟩ : BufTy).Contents (Elt Ideal)) (x8 : (⟨S2x3x256x256, .f32⟩ : BufTy).Contents (Elt Ideal))
    (x13 : (⟨S2x800000, .i32⟩ : BufTy).Contents (Elt Ideal)) (x14 : (⟨S2x400000, .i32⟩ : BufTy).Contents (Elt Ideal)) (x15 : (⟨S2x400000, .i32⟩ : BufTy).Contents (Elt Ideal)) : (⟨S20000x256, .f32⟩ : BufTy).Contents (Elt Ideal) :=
  stepP1 (hg1 x0 x1 x2 x3 x4 x5 x6 x7 x8 x13 x14 x15) (hp1 x0 x1 x2 x3 x4 x5 x6 x7 x8 x13 x14 x15) x6 x7 x8 x14

/-- The first result: g's output head. -/
def out0 (x0 : (⟨S50000x256, .f32⟩ : BufTy).Contents (Elt Ideal)) (x1 : (⟨S20000x128, .f32⟩ : BufTy).Contents (Elt Ideal)) (x2 : (⟨S256x256, .f32⟩ : BufTy).Contents (Elt Ideal))
    (x3 : (⟨S256, .f32⟩ : BufTy).Contents (Elt Ideal)) (x4 : (⟨S128x256, .f32⟩ : BufTy).Contents (Elt Ideal)) (x5 : (⟨S256, .f32⟩ : BufTy).Contents (Elt Ideal))
    (x6 : (⟨S2x3x256x256, .f32⟩ : BufTy).Contents (Elt Ideal)) (x7 : (⟨S2x3x256, .f32⟩ : BufTy).Contents (Elt Ideal)) (x8 : (⟨S2x3x256x256, .f32⟩ : BufTy).Contents (Elt Ideal))
    (x9 : (⟨S256x256, .f32⟩ : BufTy).Contents (Elt Ideal)) (x10 : (⟨S256, .f32⟩ : BufTy).Contents (Elt Ideal)) (x13 : (⟨S2x800000, .i32⟩ : BufTy).Contents (Elt Ideal))
    (x14 : (⟨S2x400000, .i32⟩ : BufTy).Contents (Elt Ideal)) (x15 : (⟨S2x400000, .i32⟩ : BufTy).Contents (Elt Ideal)) : (⟨S50000x256, .f32⟩ : BufTy).Contents (Elt Ideal) :=
  Cert.Hetero.head (hg2 x0 x1 x2 x3 x4 x5 x6 x7 x8 x13 x14 x15) x9 (biasRow x10)
/-- The second result: p's output head. -/
def out1 (x0 : (⟨S50000x256, .f32⟩ : BufTy).Contents (Elt Ideal)) (x1 : (⟨S20000x128, .f32⟩ : BufTy).Contents (Elt Ideal)) (x2 : (⟨S256x256, .f32⟩ : BufTy).Contents (Elt Ideal))
    (x3 : (⟨S256, .f32⟩ : BufTy).Contents (Elt Ideal)) (x4 : (⟨S128x256, .f32⟩ : BufTy).Contents (Elt Ideal)) (x5 : (⟨S256, .f32⟩ : BufTy).Contents (Elt Ideal))
    (x6 : (⟨S2x3x256x256, .f32⟩ : BufTy).Contents (Elt Ideal)) (x7 : (⟨S2x3x256, .f32⟩ : BufTy).Contents (Elt Ideal)) (x8 : (⟨S2x3x256x256, .f32⟩ : BufTy).Contents (Elt Ideal))
    (x11 : (⟨S256x256, .f32⟩ : BufTy).Contents (Elt Ideal)) (x12 : (⟨S256, .f32⟩ : BufTy).Contents (Elt Ideal)) (x13 : (⟨S2x800000, .i32⟩ : BufTy).Contents (Elt Ideal))
    (x14 : (⟨S2x400000, .i32⟩ : BufTy).Contents (Elt Ideal)) (x15 : (⟨S2x400000, .i32⟩ : BufTy).Contents (Elt Ideal)) : (⟨S20000x256, .f32⟩ : BufTy).Contents (Elt Ideal) :=
  Cert.Hetero.head (hp2 x0 x1 x2 x3 x4 x5 x6 x7 x8 x13 x14 x15) x11 (biasRow x12)

end Cert.KernelIdeal.Val

end
-- ==== Proof.ChainHostA.lean ====
/-
  The short stretches of host operations: the bias rows and the weight blocks of relation 1, each as the stretch's
  printed operations applied to whatever the stretch's input array is known to hold.
-/
import proofs.«158813_j31396210933902_1_alg».proof.Proof.ChainDefs
import proofs.«158813_j31396210933902_1_alg».proof.Proof.Gen.KernelIdeal.Frame
import Idealize.ShloMosaic.Lib.StableHlo.Run

set_option maxRecDepth 16384

noncomputable section

namespace Cert.KernelIdeal.Val

open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

theorem H0_v0 (c : Dev nD) (b : (⟨S256, .f32⟩ : BufTy).Contents (Elt Ideal))
    (hb : Gen.W0 m ρ c (Proc.devRef .tc main_arg3) = b) :
    Gen.W1 m ρ c (Proc.devRef .tc main_v0) = biasRow b := by
  subst hb
  show StableHlo.after Gen.hostOps0 _ (Proc.devRef .tc main_v0) = _
  after_results
  rfl

theorem H1_v2 (c : Dev nD) (b : (⟨S256, .f32⟩ : BufTy).Contents (Elt Ideal))
    (hb : Gen.W2 m ρ c (Proc.devRef .tc main_arg5) = b) :
    Gen.W3 m ρ c (Proc.devRef .tc main_v2) = biasRow b := by
  subst hb
  show StableHlo.after Gen.hostOps1 _ (Proc.devRef .tc main_v2) = _
  after_results
  rfl

theorem H3_v90 (c : Dev nD) (w : (⟨S2x3x256x256, .f32⟩ : BufTy).Contents (Elt Ideal))
    (hw : Gen.W6 m ρ c (Proc.devRef .tc main_arg6) = w) :
    Gen.W7 m ρ c (Proc.devRef .tc main_v90) = wAt01 w := by
  subst hw
  show StableHlo.after Gen.hostOps3 _ (Proc.devRef .tc main_v90) = _
  after_results
  rfl

theorem H3_v92 (c : Dev nD) (w : (⟨S2x3x256x256, .f32⟩ : BufTy).Contents (Elt Ideal))
    (hw : Gen.W6 m ρ c (Proc.devRef .tc main_arg8) = w) :
    Gen.W7 m ρ c (Proc.devRef .tc main_v92) = wAt01 w := by
  subst hw
  show StableHlo.after Gen.hostOps3 _ (Proc.devRef .tc main_v92) = _
  after_results
  rfl

theorem H3_v95 (c : Dev nD) (b : (⟨S2x3x256, .f32⟩ : BufTy).Contents (Elt Ideal))
    (hb : Gen.W6 m ρ c (Proc.devRef .tc main_arg7) = b) :
    Gen.W7 m ρ c (Proc.devRef .tc main_v95) = biasRow (bAt01 b) := by
  subst hb
  show StableHlo.after Gen.hostOps3 _ (Proc.devRef .tc main_v95) = _
  after_results
  rfl

theorem H5_v183 (c : Dev nD) (w : (⟨S2x3x256x256, .f32⟩ : BufTy).Contents (Elt Ideal))
    (hw : Gen.W10 m ρ c (Proc.devRef .tc main_arg6) = w) :
    Gen.W11 m ρ c (Proc.devRef .tc main_v183) = wAt11 w := by
  subst hw
  show StableHlo.after Gen.hostOps5 _ (Proc.devRef .tc main_v183) = _
  after_results
  rfl

theorem H5_v185 (c : Dev nD) (w : (⟨S2x3x256x256, .f32⟩ : BufTy).Contents (Elt Ideal))
    (hw : Gen.W10 m ρ c (Proc.devRef .tc main_arg8) = w) :
    Gen.W11 m ρ c (Proc.devRef .tc main_v185) = wAt11 w := by
  subst hw
  show StableHlo.after Gen.hostOps5 _ (Proc.devRef .tc main_v185) = _
  after_results
  rfl

theorem H5_v188 (c : Dev nD) (b : (⟨S2x3x256, .f32⟩ : BufTy).Contents (Elt Ideal))
    (hb : Gen.W10 m ρ c (Proc.devRef .tc main_arg7) = b) :
    Gen.W11 m ρ c (Proc.devRef .tc main_v188) = biasRow (bAt11 b) := by
  subst hb
  show StableHlo.after Gen.hostOps5 _ (Proc.devRef .tc main_v188) = _
  after_results
  rfl

theorem H6_v190 (c : Dev nD) (b : (⟨S256, .f32⟩ : BufTy).Contents (Elt Ideal))
    (hb : Gen.W12 m ρ c (Proc.devRef .tc main_arg10) = b) :
    Gen.W13 m ρ c (Proc.devRef .tc main_v190) = biasRow b := by
  subst hb
  show StableHlo.after Gen.hostOps6 _ (Proc.devRef .tc main_v190) = _
  after_results
  rfl

theorem H7_v192 (c : Dev nD) (b : (⟨S256, .f32⟩ : BufTy).Contents (Elt Ideal))
    (hb : Gen.W14 m ρ c (Proc.devRef .tc main_arg12) = b) :
    Gen.W15 m ρ c (Proc.devRef .tc main_v192) = biasRow b := by
  subst hb
  show StableHlo.after Gen.hostOps7 _ (Proc.devRef .tc main_v192) = _
  after_results
  rfl

end Cert.KernelIdeal.Val

end
-- ==== Proof.ChainHost2.lean ====
/-
  The long stretch of host operations before layer 0's regions: the three relations' means of the projected
  features, and layer 0's weight and bias blocks, each as the stretch's printed operations applied to whatever the
  stretch's input arrays are known to hold.
-/
import proofs.«158813_j31396210933902_1_alg».proof.Proof.ChainDefs
import proofs.«158813_j31396210933902_1_alg».proof.Proof.Gen.KernelIdeal.Frame
import Idealize.ShloMosaic.Lib.StableHlo.Run

set_option maxRecDepth 16384

noncomputable section

namespace Cert.KernelIdeal.Val

open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

set_option maxHeartbeats 4000000 in
theorem H2_v26 (c : Dev nD) (g : (⟨S50000x256, .f32⟩ : BufTy).Contents (Elt Ideal)) (e : (⟨S2x800000, .i32⟩ : BufTy).Contents (Elt Ideal))
    (hg : Gen.W4 m ρ c (Proc.devRef .tc main_v1) = g)
    (he : Gen.W4 m ρ c (Proc.devRef .tc main_arg13) = e) :
    Gen.W5 m ρ c (Proc.devRef .tc main_v26) = meanGG g e := by
  subst hg he
  show StableHlo.after Gen.hostOps2 _ (Proc.devRef .tc main_v26) = _
  after_results_simp
  rfl

set_option maxHeartbeats 4000000 in
theorem H2_v49 (c : Dev nD) (g : (⟨S50000x256, .f32⟩ : BufTy).Contents (Elt Ideal)) (e : (⟨S2x400000, .i32⟩ : BufTy).Contents (Elt Ideal))
    (hg : Gen.W4 m ρ c (Proc.devRef .tc main_v1) = g)
    (he : Gen.W4 m ρ c (Proc.devRef .tc main_arg14) = e) :
    Gen.W5 m ρ c (Proc.devRef .tc main_v49) = meanGP g e := by
  subst hg he
  show StableHlo.after Gen.hostOps2 _ (Proc.devRef .tc main_v49) = _
  after_results_simp
  rfl

set_option maxHeartbeats 4000000 in
theorem H2_v72 (c : Dev nD) (p : (⟨S20000x256, .f32⟩ : BufTy).Contents (Elt Ideal)) (e : (⟨S2x400000, .i32⟩ : BufTy).Contents (Elt Ideal))
    (hp : Gen.W4 m ρ c (Proc.devRef .tc main_v3) = p)
    (he : Gen.W4 m ρ c (Proc.devRef .tc main_arg15) = e) :
    Gen.W5 m ρ c (Proc.devRef .tc main_v72) = meanPG p e := by
  subst hp he
  show StableHlo.after Gen.hostOps2 _ (Proc.devRef .tc main_v72) = _
  after_results_simp
  rfl

set_option maxHeartbeats 4000000 in
theorem H2_v77 (c : Dev nD) (w : (⟨S2x3x256x256, .f32⟩ : BufTy).Contents (Elt Ideal))
    (hw : Gen.W4 m ρ c (Proc.devRef .tc main_arg8) = w) :
    Gen.W5 m ρ c (Proc.devRef .tc main_v77) = wPair0 w := by
  subst hw
  show StableHlo.after Gen.hostOps2 _ (Proc.devRef .tc main_v77) = _
  after_results_simp
  rfl

set_option maxHeartbeats 4000000 in
theorem H2_v84 (c : Dev nD) (w : (⟨S2x3x256x256, .f32⟩ : BufTy).Contents (Elt Ideal))
    (hw : Gen.W4 m ρ c (Proc.devRef .tc main_arg6) = w) :
    Gen.W5 m ρ c (Proc.devRef .tc main_v84) = wAt00 w := by
  subst hw
  show StableHlo.after Gen.hostOps2 _ (Proc.devRef .tc main_v84) = _
  after_results_simp
  rfl

set_option maxHeartbeats 4000000 in
theorem H2_v86 (c : Dev nD) (w : (⟨S2x3x256x256, .f32⟩ : BufTy).Contents (Elt Ideal))
    (hw : Gen.W4 m ρ c (Proc.devRef .tc main_arg6) = w) :
    Gen.W5 m ρ c (Proc.devRef .tc main_v86) = wAt02 w := by
  subst hw
  show StableHlo.after Gen.hostOps2 _ (Proc.devRef .tc main_v86) = _
  after_results_simp
  rfl

set_option maxHeartbeats 4000000 in
theorem H2_v87 (c : Dev nD) (b : (⟨S2x3x256, .f32⟩ : BufTy).Contents (Elt Ideal))
    (hb : Gen.W4 m ρ c (Proc.devRef .tc main_arg7) = b) :
    Gen.W5 m ρ c (Proc.devRef .tc main_v87) = biasRow (bPair0 b) := by
  subst hb
  show StableHlo.after Gen.hostOps2 _ (Proc.devRef .tc main_v87) = _
  after_results_simp
  rfl

end Cert.KernelIdeal.Val

end
-- ==== Proof.ChainHost4.lean ====
/-
  The long stretch of host operations before layer 1's regions: the three relations' means of layer 0's
  features, and layer 1's weight and bias blocks, each as the stretch's printed operations applied to whatever the
  stretch's input arrays are known to hold.
-/
import proofs.«158813_j31396210933902_1_alg».proof.Proof.ChainDefs
import proofs.«158813_j31396210933902_1_alg».proof.Proof.Gen.KernelIdeal.Frame
import Idealize.ShloMosaic.Lib.StableHlo.Run

set_option maxRecDepth 16384

noncomputable section

namespace Cert.KernelIdeal.Val

open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

set_option maxHeartbeats 4000000 in
theorem H4_v119 (c : Dev nD) (g : (⟨S50000x256, .f32⟩ : BufTy).Contents (Elt Ideal)) (e : (⟨S2x800000, .i32⟩ : BufTy).Contents (Elt Ideal))
    (hg : Gen.W8 m ρ c (Proc.devRef .tc main_v88) = g)
    (he : Gen.W8 m ρ c (Proc.devRef .tc main_arg13) = e) :
    Gen.W9 m ρ c (Proc.devRef .tc main_v119) = meanGG g e := by
  subst hg he
  show StableHlo.after Gen.hostOps4 _ (Proc.devRef .tc main_v119) = _
  after_results_simp
  rfl

set_option maxHeartbeats 4000000 in
theorem H4_v142 (c : Dev nD) (g : (⟨S50000x256, .f32⟩ : BufTy).Contents (Elt Ideal)) (e : (⟨S2x400000, .i32⟩ : BufTy).Contents (Elt Ideal))
    (hg : Gen.W8 m ρ c (Proc.devRef .tc main_v88) = g)
    (he : Gen.W8 m ρ c (Proc.devRef .tc main_arg14) = e) :
    Gen.W9 m ρ c (Proc.devRef .tc main_v142) = meanGP g e := by
  subst hg he
  show StableHlo.after Gen.hostOps4 _ (Proc.devRef .tc main_v142) = _
  after_results_simp
  rfl

set_option maxHeartbeats 4000000 in
theorem H4_v165 (c : Dev nD) (p : (⟨S20000x256, .f32⟩ : BufTy).Contents (Elt Ideal)) (e : (⟨S2x400000, .i32⟩ : BufTy).Contents (Elt Ideal))
    (hp : Gen.W8 m ρ c (Proc.devRef .tc main_v96) = p)
    (he : Gen.W8 m ρ c (Proc.devRef .tc main_arg15) = e) :
    Gen.W9 m ρ c (Proc.devRef .tc main_v165) = meanPG p e := by
  subst hp he
  show StableHlo.after Gen.hostOps4 _ (Proc.devRef .tc main_v165) = _
  after_results_simp
  rfl

set_option maxHeartbeats 4000000 in
theorem H4_v170 (c : Dev nD) (w : (⟨S2x3x256x256, .f32⟩ : BufTy).Contents (Elt Ideal))
    (hw : Gen.W8 m ρ c (Proc.devRef .tc main_arg8) = w) :
    Gen.W9 m ρ c (Proc.devRef .tc main_v170) = wPair1 w := by
  subst hw
  show StableHlo.after Gen.hostOps4 _ (Proc.devRef .tc main_v170) = _
  after_results_simp
  rfl

set_option maxHeartbeats 4000000 in
theorem H4_v177 (c : Dev nD) (w : (⟨S2x3x256x256, .f32⟩ : BufTy).Contents (Elt Ideal))
    (hw : Gen.W8 m ρ c (Proc.devRef .tc main_arg6) = w) :
    Gen.W9 m ρ c (Proc.devRef .tc main_v177) = wAt10 w := by
  subst hw
  show StableHlo.after Gen.hostOps4 _ (Proc.devRef .tc main_v177) = _
  after_results_simp
  rfl

set_option maxHeartbeats 4000000 in
theorem H4_v179 (c : Dev nD) (w : (⟨S2x3x256x256, .f32⟩ : BufTy).Contents (Elt Ideal))
    (hw : Gen.W8 m ρ c (Proc.devRef .tc main_arg6) = w) :
    Gen.W9 m ρ c (Proc.devRef .tc main_v179) = wAt12 w := by
  subst hw
  show StableHlo.after Gen.hostOps4 _ (Proc.devRef .tc main_v179) = _
  after_results_simp
  rfl

set_option maxHeartbeats 4000000 in
theorem H4_v180 (c : Dev nD) (b : (⟨S2x3x256, .f32⟩ : BufTy).Contents (Elt Ideal))
    (hb : Gen.W8 m ρ c (Proc.devRef .tc main_arg7) = b) :
    Gen.W9 m ρ c (Proc.devRef .tc main_v180) = biasRow (bPair1 b) := by
  subst hb
  show StableHlo.after Gen.hostOps4 _ (Proc.devRef .tc main_v180) = _
  after_results_simp
  rfl

end Cert.KernelIdeal.Val

end
-- ==== Proof.Payload.lean ====
/-
  Each region's body, as one pure function of the blocks it loads, is one of the four dense maps.

  A body loads a block of 2000 rows of each row-indexed operand, the weight arrays whole and the bias row. Each
  product is a matrix unit's product into the zero accumulator with the plain dimension numbers (contract the left
  operand's columns with the right operand's rows), which is the product rows by columns. The running sum starts
  from the splat of 0.0, the bias row is broadcast along the rows, the scale is the splat of 1.0 (or of 0.5 where
  two relation types are averaged), and the positive part is the maximum with the splat of 0.0: all entry by entry.
  A reshape to the same shape changes nothing. Read at an entry, the body's result is the dense map's entry.
-/
import proofs.«158813_j31396210933902_1_alg».proof.Proof.Gen.KernelIdeal.Skeleton
import proofs.«158813_j31396210933902_1_alg».proof.Proof.Forms
import Idealize.ShloMosaic.Lib.Pipeline.Value

noncomputable section

namespace Cert.KernelIdeal.Payload

open Idealize.ShloMosaic Idealize.ShloMosaic.ValueIdx Idealize.ShloMosaic.PlainProduct
open Cert.KernelIdeal Cert.KernelIdeal.Gen Cert.Hetero

/-! ## The pieces that are not entry by entry -/

/-- A body loads and stores whole blocks: every offset is zero. -/
theorem zeros2 : (![0, 0] : Fin 2 → Nat) = fun _ => 0 := funext fun a => by fin_cases a <;> rfl

/-- The printed dimension numbers of a product over 256 columns are the plain ones. -/
theorem dims256 : dot_S2000x256_S256x256_S2000x256_1_0_0_1_n_n = DotDims.plain 2000 256 256 := rfl

/-- The printed dimension numbers of a product over 128 columns are the plain ones. -/
theorem dims128 : dot_S2000x128_S128x256_S2000x256_1_0_0_1_n_n = DotDims.plain 2000 128 256 := rfl

/-- A block of 2000 rows times a 256 × 256 weight, into the zero accumulator, is the product rows by columns. -/
theorem prod256 (x : Vec Ideal S2000x256 .f32) (w : Vec Ideal S256x256 .f32) :
    matmul (φ₁ := .f32) (φ₂ := .f32) dot_S2000x256_S256x256_S2000x256_1_0_0_1_n_n (some .fp32) x w (constant S2000x256 .f32 0x00000000#32)
      = rowsByCols (φ₁ := .f32) (φ₂ := .f32) x w := by
  rw [dims256]; exact matmul_zero_plain (φ₁ := .f32) (φ₂ := .f32) (some .fp32) x w

/-- A block of 2000 rows of 128 features times a 128 × 256 weight, likewise. -/
theorem prod128 (x : Vec Ideal S2000x128 .f32) (w : Vec Ideal S128x256 .f32) :
    matmul (φ₁ := .f32) (φ₂ := .f32) dot_S2000x128_S128x256_S2000x256_1_0_0_1_n_n (some .fp32) x w (constant S2000x256 .f32 0x00000000#32)
      = rowsByCols (φ₁ := .f32) (φ₂ := .f32) x w := by
  rw [dims128]; exact matmul_zero_plain (φ₁ := .f32) (φ₂ := .f32) (some .fp32) x w

/-- The bias row broadcast along the 2000 rows: entry (r, d) reads the row's entry d. -/
theorem biasRows (b : Vec Ideal S1x256 .f32) :
    broadcastTo S2000x256 b broadcasts_S1x256_S2000x256 = fun i : S2000x256.Idx => b (ix2 (0 : Fin 1) (i 1)) :=
  funext fun i => broadcastTo_apply b broadcasts_S1x256_S2000x256 i (ix2 (0 : Fin 1) (i 1)) fun a => by
    match a with
    | ⟨0, _⟩ => rfl
    | ⟨1, _⟩ => rfl

/-! ## The eight bodies -/

/-- Region 0's body is the input projection of its block of rows (256 features). -/
theorem pay0 (x : Vec Ideal S2000x256 .f32) (w : Vec Ideal S256x256 .f32) (b : Vec Ideal S1x256 .f32) :
    k0_pay1 (F := Ideal) x w b = proj x w b := by
  unfold k0_pay1
  dsimp only
  rw [prod256, shapeCast_self, biasRows]
  rfl

/-- Region 1's body is the input projection of its block of rows (128 features). -/
theorem pay1 (x : Vec Ideal S2000x128 .f32) (w : Vec Ideal S128x256 .f32) (b : Vec Ideal S1x256 .f32) :
    k1_pay1 (F := Ideal) x w b = proj x w b := by
  unfold k1_pay1
  dsimp only
  rw [prod128, shapeCast_self, biasRows]
  rfl

/-- Region 2's body is the update of a node type with two incoming relations. -/
theorem pay2 (a₁ : Vec Ideal S2000x256 .f32) (w₁ : Vec Ideal S256x256 .f32) (a₂ : Vec Ideal S2000x256 .f32)
    (w₂ : Vec Ideal S256x256 .f32) (a₃ : Vec Ideal S2000x256 .f32) (w₃ : Vec Ideal S256x256 .f32)
    (b : Vec Ideal S1x256 .f32) :
    k2_pay1 (F := Ideal) a₁ w₁ a₂ w₂ a₃ w₃ b = mix3 a₁ w₁ a₂ w₂ a₃ w₃ b := by
  unfold k2_pay1
  dsimp only
  simp only [shapeCast_self]
  rw [prod256, prod256, prod256, biasRows]
  rfl

/-- Region 3's body is the update of a node type with one incoming relation. -/
theorem pay3 (a₁ : Vec Ideal S2000x256 .f32) (w₁ : Vec Ideal S256x256 .f32) (a₂ : Vec Ideal S2000x256 .f32)
    (w₂ : Vec Ideal S256x256 .f32) (b : Vec Ideal S1x256 .f32) :
    k3_pay1 (F := Ideal) a₁ w₁ a₂ w₂ b = mix2 a₁ w₁ a₂ w₂ b := by
  unfold k3_pay1
  dsimp only
  simp only [shapeCast_self]
  rw [prod256, prod256, biasRows]
  rfl

/-- Region 4's body is region 2's. -/
theorem pay4 (a₁ : Vec Ideal S2000x256 .f32) (w₁ : Vec Ideal S256x256 .f32) (a₂ : Vec Ideal S2000x256 .f32)
    (w₂ : Vec Ideal S256x256 .f32) (a₃ : Vec Ideal S2000x256 .f32) (w₃ : Vec Ideal S256x256 .f32)
    (b : Vec Ideal S1x256 .f32) :
    k4_pay1 (F := Ideal) a₁ w₁ a₂ w₂ a₃ w₃ b = mix3 a₁ w₁ a₂ w₂ a₃ w₃ b :=
  pay2 a₁ w₁ a₂ w₂ a₃ w₃ b

/-- Region 5's body is region 3's. -/
theorem pay5 (a₁ : Vec Ideal S2000x256 .f32) (w₁ : Vec Ideal S256x256 .f32) (a₂ : Vec Ideal S2000x256 .f32)
    (w₂ : Vec Ideal S256x256 .f32) (b : Vec Ideal S1x256 .f32) :
    k5_pay1 (F := Ideal) a₁ w₁ a₂ w₂ b = mix2 a₁ w₁ a₂ w₂ b :=
  pay3 a₁ w₁ a₂ w₂ b

/-- Region 6's body is an output head of its block of rows. -/
theorem pay6 (x : Vec Ideal S2000x256 .f32) (w : Vec Ideal S256x256 .f32) (b : Vec Ideal S1x256 .f32) :
    k6_pay1 (F := Ideal) x w b = head x w b := by
  unfold k6_pay1
  dsimp only
  simp only [shapeCast_self]
  rw [prod256, biasRows]
  rfl

/-- Region 7's body is region 6's. -/
theorem pay7 (x : Vec Ideal S2000x256 .f32) (w : Vec Ideal S256x256 .f32) (b : Vec Ideal S1x256 .f32) :
    k7_pay1 (F := Ideal) x w b = head x w b :=
  pay6 x w b

end Cert.KernelIdeal.Payload

end
-- ==== Proof.Region0.lean ====
/-
  Region 0: the projection of the first node type's features, computed 2000 rows at a time.

  The region's grid has 25 points. At point t the body is given rows 2000·t … 2000·t + 1999 of the feature array,
  the whole weight array and the whole bias row (their block index is 0 at every point), and it writes rows
  2000·t … 2000·t + 1999 of the result. Row r of a projection depends on row r of the features only, so the block
  written at point t is that block of rows of the projection of the whole feature array; the 25 blocks of rows
  cover the 50000 rows (row r lies in the block of point r / 2000), so after the last point the result array is the
  projection of the whole feature array.
-/
import proofs.«158813_j31396210933902_1_alg».proof.Proof.Gen.KernelIdeal.Frame
import proofs.«158813_j31396210933902_1_alg».proof.Proof.Payload
import Idealize.ShloMosaic.Lib.Pipeline.Value

noncomputable section

namespace Cert.KernelIdeal.Val

open Cert.KernelIdeal Cert.KernelIdeal.Gen Idealize.ShloMosaic Idealize.ShloMosaic.TcCoe Idealize.SL.Sem
open Idealize.ShloMosaic.ValueIdx Cert.Hetero
open Idealize.ShloMosaic.Pipeline (Dat)

variable (V : (c : Dev nD) → (b : Ref sig .tc) → Buf (Elt Ideal) ((c : Thread nD τ).loc b))

/-- The block indices of region 0's four windows at every point of the grid: the feature window and the result
    window are at block (t, 0); the weight window and the bias window stay at block (0, 0). -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature window's block at point t holds rows 2000·t … 2000·t + 1999 of the feature array. -/
theorem rows0_0 (c : Dev nD) (t : Fin cfg0.N) (x : S2000x256.Idx) (k : S50000x256.Idx)
    (hk0 : (k 0).val = 2000 * t.val + (x 0).val) (hk1 : (k 1).val = (x 1).val) :
    (iblk0 V c 0 t : Vec Ideal S2000x256 .f32) x = (V c main_arg0 : S50000x256.Idx → Elt Ideal .f32) k := by
  obtain ⟨e0, e1, -⟩ := blockIdx0 t
  unfold iblk0
  rw [View.read_apply]
  show V c main_arg0 _ = V c main_arg0 _
  congr 1
  funext a
  apply Fin.ext
  match a with
  | ⟨0, _⟩ => show win0_0.index t 0 * 2000 + 1 * (x 0).val = (k 0).val; rw [e0, hk0]; omega
  | ⟨1, _⟩ => show win0_0.index t 1 * 256 + 1 * (x 1).val = (k 1).val; rw [e1, hk1]; omega

/-- The weight window's block at every point is the whole weight array. -/
theorem whole0_1 (c : Dev nD) (t : Fin cfg0.N) :
    (iblk0 V c 1 t : Vec Ideal S256x256 .f32) = (V c main_arg2 : S256x256.Idx → Elt Ideal .f32) := by
  obtain ⟨-, -, e0, e1, -⟩ := blockIdx0 t
  funext x
  unfold iblk0
  rw [View.read_apply]
  show V c main_arg2 _ = V c main_arg2 _
  congr 1
  funext a
  apply Fin.ext
  match a with
  | ⟨0, _⟩ => show win0_1.index t 0 * 256 + 1 * (x 0).val = (x 0).val; rw [e0]; omega
  | ⟨1, _⟩ => show win0_1.index t 1 * 256 + 1 * (x 1).val = (x 1).val; rw [e1]; omega

/-- The bias window's block at every point is the whole bias row. -/
theorem whole0_2 (c : Dev nD) (t : Fin cfg0.N) :
    (iblk0 V c 2 t : Vec Ideal S1x256 .f32) = (V c main_v0 : S1x256.Idx → Elt Ideal .f32) := by
  obtain ⟨-, -, -, -, e0, e1, -⟩ := blockIdx0 t
  funext x
  unfold iblk0
  rw [View.read_apply]
  show V c main_v0 _ = V c main_v0 _
  congr 1
  funext a
  apply Fin.ext
  match a with
  | ⟨0, _⟩ => show win0_2.index t 0 * 1 + 1 * (x 0).val = (x 0).val; rw [e0]; omega
  | ⟨1, _⟩ => show win0_2.index t 1 * 256 + 1 * (x 1).val = (x 1).val; rw [e1]; omega

/-- The result array of region 0 as one function of the arrays the region finds: the projection of the features. -/
abbrev whole0 (c : Dev nD) : S50000x256.Idx → Elt Ideal .f32 :=
  proj (V c main_arg0 : S50000x256.Idx → Elt Ideal .f32) (V c main_arg2 : S256x256.Idx → Elt Ideal .f32)
    (V c main_v0 : S1x256.Idx → Elt Ideal .f32)

/-- What point t writes back is rows 2000·t … 2000·t + 1999 of the projection of the whole feature array. -/
theorem flushed0_eq (c : Dev nD) (t : Fin cfg0.N) :
    (dat0 V c).flushed 3 t = ((cfg0.win 3).blk t).view.read (Elt Ideal) (whole0 V c) := by
  have ht : t.val < 25 := lt_of_lt_of_eq t.isLt N_0
  obtain ⟨-, -, -, -, -, -, e0, e1⟩ := blockIdx0 t
  show (cfg0.win 3).cut (grid0.coords t) ((dat0 V c).after 3 t) = _
  rw [after0_3]
  unfold out0_3
  rw [View.canon_unit_zero Payload.zeros2]
  simp only [View.ld_unit_zero (S := S2000x256) Payload.zeros2, View.ld_unit_zero (S := S256x256) Payload.zeros2,
    View.ld_unit_zero (S := S1x256) Payload.zeros2]
  rw [Payload.pay0, whole0_1, whole0_2]
  funext j
  rw [View.read_apply]
  show proj (iblk0 V c 0 t : Vec Ideal S2000x256 .f32) _ _ j = _
  refine (proj_rows (fun r : Fin 2000 => (⟨2000 * t.val + r.val, by have := r.isLt; omega⟩ : Fin 50000))
    (V c main_arg0 : S50000x256.Idx → Elt Ideal .f32) _ _ (iblk0 V c 0 t : Vec Ideal S2000x256 .f32)
    (fun r k => rows0_0 V c t (ix2 r k) _ rfl rfl) j).trans ?_
  unfold whole0
  congr 1
  funext a
  apply Fin.ext
  match a with
  | ⟨0, _⟩ => show 2000 * t.val + (j 0).val = win0_3.index t 0 * 2000 + 1 * (j 0).val; rw [e0]; omega
  | ⟨1, _⟩ => show (j 1).val = win0_3.index t 1 * 256 + 1 * (j 1).val; rw [e1]; omega

/-- A row-and-column index of the result array lies in point t's block iff each coordinate lies in the block's
    range on its axis. -/
theorem mem_blk0 (t : Fin cfg0.N) (i : S50000x256.Idx) :
    i ∈ ((cfg0.win 3).blk t).view.set ↔
      ∀ a : Fin 2, win0_3.index t a * S2000x256.size a ≤ (i a).val
        ∧ (i a).val < win0_3.index t a * S2000x256.size a + S2000x256.size a := by
  show i ∈ ((View.whole main_v1).slice (win0_3.rect t)).set ↔ _
  rw [View.set_slice_whole, Rect.mem_set_unit]
  exact Iff.rfl

/-- Every index of the result array lies in the block of some point that writes back: row r in point r / 2000's. -/
theorem cover0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, -, -, e0, e1⟩ := blockIdx0 t
  have ht : t.val = (i 0).val / 2000 := rfl
  refine ⟨t, flush0_3 t, ?_⟩
  rw [mem_blk0]
  intro a
  match a with
  | ⟨0, _⟩ =>
    show win0_3.index t 0 * 2000 ≤ (i 0).val ∧ (i 0).val < win0_3.index t 0 * 2000 + 2000
    rw [e0, ht]; omega
  | ⟨1, _⟩ =>
    show win0_3.index t 1 * 256 ≤ (i 1).val ∧ (i 1).val < win0_3.index t 1 * 256 + 256
    rw [e1]; omega

/-- After all 25 points the result array of region 0 is the projection of the feature array it was entered with. -/
theorem final0 (c : Dev nD) :
    (dat0 V c).arrAt 3 cfg0.N
      = proj (V c main_arg0 : S50000x256.Idx → Elt Ideal .f32) (V c main_arg2 : S256x256.Idx → Elt Ideal .f32)
          (V c main_v0 : S1x256.Idx → Elt Ideal .f32) :=
  (dat0 V c).arrAt_eq_of_cover 3 (whole0 V c) (fun t _ => flushed0_eq V c t) cover0

end Cert.KernelIdeal.Val

end
-- ==== Proof.Region1.lean ====
/-
  Region 1: the projection of the second node type's features, computed 2000 rows at a time.

  The region's grid has 10 points. At point t the body is given rows 2000·t … 2000·t + 1999 of the feature array
  (20000 rows of 128 features), the whole 128 × 256 weight array and the whole bias row (block index 0 at every
  point), and it writes rows 2000·t … 2000·t + 1999 of the result. Row r of a projection depends on row r of the
  features only, so the block written at point t is that block of rows of the projection of the whole feature
  array; the 10 blocks of rows cover the 20000 rows (row r lies in the block of point r / 2000), so after the last
  point the result array is the projection of the whole feature array.
-/
import proofs.«158813_j31396210933902_1_alg».proof.Proof.Gen.KernelIdeal.Frame
import proofs.«158813_j31396210933902_1_alg».proof.Proof.Payload
import Idealize.ShloMosaic.Lib.Pipeline.Value

noncomputable section

namespace Cert.KernelIdeal.Val

open Cert.KernelIdeal Cert.KernelIdeal.Gen Idealize.ShloMosaic Idealize.ShloMosaic.TcCoe Idealize.SL.Sem
open Idealize.ShloMosaic.ValueIdx Cert.Hetero
open Idealize.ShloMosaic.Pipeline (Dat)

variable (V : (c : Dev nD) → (b : Ref sig .tc) → Buf (Elt Ideal) ((c : Thread nD τ).loc b))

/-- The block indices of region 1's windows at every point t of the grid: a window of rows is at block (t, 0), a
    window that holds a whole array stays at block (0, 0); the result window is at block (t, 0). -/
theorem blockIdx1 : ∀ t : Fin cfg1.N,
    win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- Window 0's block at point t holds rows 2000·t … 2000·t + 1999 of the feature array. -/
theorem rows1_0 (c : Dev nD) (t : Fin cfg1.N) (x : S2000x128.Idx) (k : S20000x128.Idx)
    (hk0 : (k 0).val = 2000 * t.val + (x 0).val) (hk1 : (k 1).val = (x 1).val) :
    (iblk1 V c 0 t : Vec Ideal S2000x128 .f32) x = (V c main_arg1 : S20000x128.Idx → Elt Ideal .f32) k := by
  obtain ⟨i0r, i0c, i1r, i1c, i2r, i2c, ior, ioc⟩ := blockIdx1 t
  unfold iblk1
  rw [View.read_apply]
  show V c main_arg1 _ = V c main_arg1 _
  congr 1
  funext a
  apply Fin.ext
  match a with
  | ⟨0, _⟩ => show win1_0.index t 0 * 2000 + 1 * (x 0).val = (k 0).val; rw [i0r, hk0]; omega
  | ⟨1, _⟩ => show win1_0.index t 1 * 128 + 1 * (x 1).val = (k 1).val; rw [i0c, hk1]; omega

/-- Window 1's block at every point is the whole of the weight array. -/
theorem whole1_1 (c : Dev nD) (t : Fin cfg1.N) :
    (iblk1 V c 1 t : Vec Ideal S128x256 .f32) = (V c main_arg4 : S128x256.Idx → Elt Ideal .f32) := by
  obtain ⟨i0r, i0c, i1r, i1c, i2r, i2c, ior, ioc⟩ := blockIdx1 t
  funext x
  unfold iblk1
  rw [View.read_apply]
  show V c main_arg4 _ = V c main_arg4 _
  congr 1
  funext a
  apply Fin.ext
  match a with
  | ⟨0, _⟩ => show win1_1.index t 0 * 128 + 1 * (x 0).val = (x 0).val; rw [i1r]; omega
  | ⟨1, _⟩ => show win1_1.index t 1 * 256 + 1 * (x 1).val = (x 1).val; rw [i1c]; omega

/-- Window 2's block at every point is the whole of the bias row. -/
theorem whole1_2 (c : Dev nD) (t : Fin cfg1.N) :
    (iblk1 V c 2 t : Vec Ideal S1x256 .f32) = (V c main_v2 : S1x256.Idx → Elt Ideal .f32) := by
  obtain ⟨i0r, i0c, i1r, i1c, i2r, i2c, ior, ioc⟩ := blockIdx1 t
  funext x
  unfold iblk1
  rw [View.read_apply]
  show V c main_v2 _ = V c main_v2 _
  congr 1
  funext a
  apply Fin.ext
  match a with
  | ⟨0, _⟩ => show win1_2.index t 0 * 1 + 1 * (x 0).val = (x 0).val; rw [i2r]; omega
  | ⟨1, _⟩ => show win1_2.index t 1 * 256 + 1 * (x 1).val = (x 1).val; rw [i2c]; omega

/-- The result array of region 1 as one function of the arrays the region finds: the projection of the features. -/
abbrev whole1 (c : Dev nD) : S20000x256.Idx → Elt Ideal .f32 :=
  proj (V c main_arg1 : S20000x128.Idx → Elt Ideal .f32) (V c main_arg4 : S128x256.Idx → Elt Ideal .f32)
    (V c main_v2 : S1x256.Idx → Elt Ideal .f32)

/-- What point t writes back is rows 2000·t … 2000·t + 1999 of the projection of the whole feature array. -/
theorem flushed1_eq (c : Dev nD) (t : Fin cfg1.N) :
    (dat1 V c).flushed 3 t = ((cfg1.win 3).blk t).view.read (Elt Ideal) (whole1 V c) := by
  have ht : t.val < 10 := lt_of_lt_of_eq t.isLt N_1
  obtain ⟨i0r, i0c, i1r, i1c, i2r, i2c, ior, ioc⟩ := blockIdx1 t
  show (cfg1.win 3).cut (grid1.coords t) ((dat1 V c).after 3 t) = _
  rw [after1_3]
  unfold out1_3
  rw [View.canon_unit_zero Payload.zeros2]
  simp only [View.ld_unit_zero (S := S2000x128) Payload.zeros2,
    View.ld_unit_zero (S := S128x256) Payload.zeros2,
    View.ld_unit_zero (S := S1x256) Payload.zeros2,
    View.ld_unit_zero (S := S2000x256) Payload.zeros2]
  rw [Payload.pay1, whole1_1, whole1_2]
  funext j
  rw [View.read_apply]
  show proj (iblk1 V c 0 t : Vec Ideal S2000x128 .f32) _ _ j = _
  refine (proj_rows (fun r : Fin 2000 => (⟨2000 * t.val + r.val, by have := r.isLt; omega⟩ : Fin 20000))
    (V c main_arg1 : S20000x128.Idx → Elt Ideal .f32) _ _
    (iblk1 V c 0 t : Vec Ideal S2000x128 .f32)
    (fun r k => rows1_0 V c t (ix2 r k) _ rfl rfl) j).trans ?_
  unfold whole1
  congr 1
  funext a
  apply Fin.ext
  match a with
  | ⟨0, _⟩ => show 2000 * t.val + (j 0).val = win1_3.index t 0 * 2000 + 1 * (j 0).val; rw [ior]; omega
  | ⟨1, _⟩ => show (j 1).val = win1_3.index t 1 * 256 + 1 * (j 1).val; rw [ioc]; omega

/-- An index of the result array lies in point t's block iff each coordinate lies in the block's range on its
    axis. -/
theorem mem_blk1 (t : Fin cfg1.N) (i : S20000x256.Idx) :
    i ∈ ((cfg1.win 3).blk t).view.set ↔
      ∀ a : Fin 2, win1_3.index t a * S2000x256.size a ≤ (i a).val
        ∧ (i a).val < win1_3.index t a * S2000x256.size a + S2000x256.size a := by
  show i ∈ ((View.whole main_v3).slice (win1_3.rect t)).set ↔ _
  rw [View.set_slice_whole, Rect.mem_set_unit]
  exact Iff.rfl

/-- Every index of the result array lies in the block of some point that writes back: row r in point r / 2000's. -/
theorem cover1 (i : S20000x256.Idx) :
    ∃ t : Fin cfg1.N, (cfg1.win 3).flush t = true ∧ i ∈ ((cfg1.win 3).blk t).view.set := by
  have hi0 : (i 0).val < 20000 := (i 0).isLt
  have hi1 : (i 1).val < 256 := (i 1).isLt
  have hN : cfg1.N = 10 := N_1
  let t : Fin cfg1.N := ⟨(i 0).val / 2000, by rw [hN]; omega⟩
  obtain ⟨i0r, i0c, i1r, i1c, i2r, i2c, ior, ioc⟩ := blockIdx1 t
  have ht : t.val = (i 0).val / 2000 := rfl
  refine ⟨t, flush1_3 t, ?_⟩
  rw [mem_blk1]
  intro a
  match a with
  | ⟨0, _⟩ =>
    show win1_3.index t 0 * 2000 ≤ (i 0).val ∧ (i 0).val < win1_3.index t 0 * 2000 + 2000
    rw [ior, ht]; omega
  | ⟨1, _⟩ =>
    show win1_3.index t 1 * 256 ≤ (i 1).val ∧ (i 1).val < win1_3.index t 1 * 256 + 256
    rw [ioc]; omega

/-- After all 10 points the result array of region 1 is the projection of the feature array it was entered with. -/
theorem final1 (c : Dev nD) :
    (dat1 V c).arrAt 3 cfg1.N
      = proj (V c main_arg1 : S20000x128.Idx → Elt Ideal .f32) (V c main_arg4 : S128x256.Idx → Elt Ideal .f32)
          (V c main_v2 : S1x256.Idx → Elt Ideal .f32) :=
  (dat1 V c).arrAt_eq_of_cover 3 (whole1 V c) (fun t _ => flushed1_eq V c t) cover1

end Cert.KernelIdeal.Val

end
-- ==== Proof.Region2.lean ====
/-
  Region 2: the first layer's update of the first node type, computed 2000 rows at a time.

  The first node type has two incoming relations. The region's grid has 25 points. At point t the body is given
  rows 2000·t … 2000·t + 1999 of three arrays of 50000 rows — the neighbour means of each relation and the node
  type's own features —, the three 256 × 256 weight arrays whole and the whole bias row (block index 0 at every
  point), and it writes rows 2000·t … 2000·t + 1999 of the result. Row r of the update depends on row r of the
  three row-indexed operands only, so the block written at point t is that block of rows of the update of the whole
  arrays; the 25 blocks of rows cover the 50000 rows (row r lies in the block of point r / 2000), so after the last
  point the result array is the update of the whole arrays.
-/
import proofs.«158813_j31396210933902_1_alg».proof.Proof.Gen.KernelIdeal.Frame
import proofs.«158813_j31396210933902_1_alg».proof.Proof.Payload
import Idealize.ShloMosaic.Lib.Pipeline.Value

noncomputable section

namespace Cert.KernelIdeal.Val

open Cert.KernelIdeal Cert.KernelIdeal.Gen Idealize.ShloMosaic Idealize.ShloMosaic.TcCoe Idealize.SL.Sem
open Idealize.ShloMosaic.ValueIdx Cert.Hetero
open Idealize.ShloMosaic.Pipeline (Dat)

variable (V : (c : Dev nD) → (b : Ref sig .tc) → Buf (Elt Ideal) ((c : Thread nD τ).loc b))

/-- The block indices of region 2's windows at every point t of the grid: a window of rows is at block (t, 0), a
    window that holds a whole array stays at block (0, 0); the result window is at block (t, 0). -/
theorem blockIdx2 : ∀ t : Fin cfg2.N,
    win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = t.val
    ∧ win2_7.index t (1 : Fin 2) = 0 :=
  (by decide +kernel : ∀ t : Fin grid2.N, _)

/-- Window 0's block at point t holds rows 2000·t … 2000·t + 1999 of the first relation's neighbour means. -/
theorem rows2_0 (c : Dev nD) (t : Fin cfg2.N) (x : S2000x256.Idx) (k : S50000x256.Idx)
    (hk0 : (k 0).val = 2000 * t.val + (x 0).val) (hk1 : (k 1).val = (x 1).val) :
    (iblk2 V c 0 t : Vec Ideal S2000x256 .f32) x = (V c main_v26 : S50000x256.Idx → Elt Ideal .f32) k := by
  obtain ⟨i0r, i0c, i1r, i1c, i2r, i2c, i3r, i3c, i4r, i4c, i5r, i5c, i6r, i6c, ior, ioc⟩ := blockIdx2 t
  unfold iblk2
  rw [View.read_apply]
  show V c main_v26 _ = V c main_v26 _
  congr 1
  funext a
  apply Fin.ext
  match a with
  | ⟨0, _⟩ => show win2_0.index t 0 * 2000 + 1 * (x 0).val = (k 0).val; rw [i0r, hk0]; omega
  | ⟨1, _⟩ => show win2_0.index t 1 * 256 + 1 * (x 1).val = (k 1).val; rw [i0c, hk1]; omega

/-- Window 1's block at every point is the whole of the first relation's weight. -/
theorem whole2_1 (c : Dev nD) (t : Fin cfg2.N) :
    (iblk2 V c 1 t : Vec Ideal S256x256 .f32) = (V c main_v84 : S256x256.Idx → Elt Ideal .f32) := by
  obtain ⟨i0r, i0c, i1r, i1c, i2r, i2c, i3r, i3c, i4r, i4c, i5r, i5c, i6r, i6c, ior, ioc⟩ := blockIdx2 t
  funext x
  unfold iblk2
  rw [View.read_apply]
  show V c main_v84 _ = V c main_v84 _
  congr 1
  funext a
  apply Fin.ext
  match a with
  | ⟨0, _⟩ => show win2_1.index t 0 * 256 + 1 * (x 0).val = (x 0).val; rw [i1r]; omega
  | ⟨1, _⟩ => show win2_1.index t 1 * 256 + 1 * (x 1).val = (x 1).val; rw [i1c]; omega

/-- Window 2's block at point t holds rows 2000·t … 2000·t + 1999 of the second relation's neighbour means. -/
theorem rows2_2 (c : Dev nD) (t : Fin cfg2.N) (x : S2000x256.Idx) (k : S50000x256.Idx)
    (hk0 : (k 0).val = 2000 * t.val + (x 0).val) (hk1 : (k 1).val = (x 1).val) :
    (iblk2 V c 2 t : Vec Ideal S2000x256 .f32) x = (V c main_v72 : S50000x256.Idx → Elt Ideal .f32) k := by
  obtain ⟨i0r, i0c, i1r, i1c, i2r, i2c, i3r, i3c, i4r, i4c, i5r, i5c, i6r, i6c, ior, ioc⟩ := blockIdx2 t
  unfold iblk2
  rw [View.read_apply]
  show V c main_v72 _ = V c main_v72 _
  congr 1
  funext a
  apply Fin.ext
  match a with
  | ⟨0, _⟩ => show win2_2.index t 0 * 2000 + 1 * (x 0).val = (k 0).val; rw [i2r, hk0]; omega
  | ⟨1, _⟩ => show win2_2.index t 1 * 256 + 1 * (x 1).val = (k 1).val; rw [i2c, hk1]; omega

/-- Window 3's block at every point is the whole of the second relation's weight. -/
theorem whole2_3 (c : Dev nD) (t : Fin cfg2.N) :
    (iblk2 V c 3 t : Vec Ideal S256x256 .f32) = (V c main_v86 : S256x256.Idx → Elt Ideal .f32) := by
  obtain ⟨i0r, i0c, i1r, i1c, i2r, i2c, i3r, i3c, i4r, i4c, i5r, i5c, i6r, i6c, ior, ioc⟩ := blockIdx2 t
  funext x
  unfold iblk2
  rw [View.read_apply]
  show V c main_v86 _ = V c main_v86 _
  congr 1
  funext a
  apply Fin.ext
  match a with
  | ⟨0, _⟩ => show win2_3.index t 0 * 256 + 1 * (x 0).val = (x 0).val; rw [i3r]; omega
  | ⟨1, _⟩ => show win2_3.index t 1 * 256 + 1 * (x 1).val = (x 1).val; rw [i3c]; omega

/-- Window 4's block at point t holds rows 2000·t … 2000·t + 1999 of the node type's own features. -/
theorem rows2_4 (c : Dev nD) (t : Fin cfg2.N) (x : S2000x256.Idx) (k : S50000x256.Idx)
    (hk0 : (k 0).val = 2000 * t.val + (x 0).val) (hk1 : (k 1).val = (x 1).val) :
    (iblk2 V c 4 t : Vec Ideal S2000x256 .f32) x = (V c main_v1 : S50000x256.Idx → Elt Ideal .f32) k := by
  obtain ⟨i0r, i0c, i1r, i1c, i2r, i2c, i3r, i3c, i4r, i4c, i5r, i5c, i6r, i6c, ior, ioc⟩ := blockIdx2 t
  unfold iblk2
  rw [View.read_apply]
  show V c main_v1 _ = V c main_v1 _
  congr 1
  funext a
  apply Fin.ext
  match a with
  | ⟨0, _⟩ => show win2_4.index t 0 * 2000 + 1 * (x 0).val = (k 0).val; rw [i4r, hk0]; omega
  | ⟨1, _⟩ => show win2_4.index t 1 * 256 + 1 * (x 1).val = (k 1).val; rw [i4c, hk1]; omega

/-- Window 5's block at every point is the whole of the summed own-feature weight. -/
theorem whole2_5 (c : Dev nD) (t : Fin cfg2.N) :
    (iblk2 V c 5 t : Vec Ideal S256x256 .f32) = (V c main_v77 : S256x256.Idx → Elt Ideal .f32) := by
  obtain ⟨i0r, i0c, i1r, i1c, i2r, i2c, i3r, i3c, i4r, i4c, i5r, i5c, i6r, i6c, ior, ioc⟩ := blockIdx2 t
  funext x
  unfold iblk2
  rw [View.read_apply]
  show V c main_v77 _ = V c main_v77 _
  congr 1
  funext a
  apply Fin.ext
  match a with
  | ⟨0, _⟩ => show win2_5.index t 0 * 256 + 1 * (x 0).val = (x 0).val; rw [i5r]; omega
  | ⟨1, _⟩ => show win2_5.index t 1 * 256 + 1 * (x 1).val = (x 1).val; rw [i5c]; omega

/-- Window 6's block at every point is the whole of the bias row. -/
theorem whole2_6 (c : Dev nD) (t : Fin cfg2.N) :
    (iblk2 V c 6 t : Vec Ideal S1x256 .f32) = (V c main_v87 : S1x256.Idx → Elt Ideal .f32) := by
  obtain ⟨i0r, i0c, i1r, i1c, i2r, i2c, i3r, i3c, i4r, i4c, i5r, i5c, i6r, i6c, ior, ioc⟩ := blockIdx2 t
  funext x
  unfold iblk2
  rw [View.read_apply]
  show V c main_v87 _ = V c main_v87 _
  congr 1
  funext a
  apply Fin.ext
  match a with
  | ⟨0, _⟩ => show win2_6.index t 0 * 1 + 1 * (x 0).val = (x 0).val; rw [i6r]; omega
  | ⟨1, _⟩ => show win2_6.index t 1 * 256 + 1 * (x 1).val = (x 1).val; rw [i6c]; omega

/-- The result array of region 2 as one function of the arrays the region finds: the update of the node type. -/
abbrev whole2 (c : Dev nD) : S50000x256.Idx → Elt Ideal .f32 :=
  mix3 (V c main_v26 : S50000x256.Idx → Elt Ideal .f32) (V c main_v84 : S256x256.Idx → Elt Ideal .f32)
    (V c main_v72 : S50000x256.Idx → Elt Ideal .f32) (V c main_v86 : S256x256.Idx → Elt Ideal .f32)
    (V c main_v1 : S50000x256.Idx → Elt Ideal .f32) (V c main_v77 : S256x256.Idx → Elt Ideal .f32)
    (V c main_v87 : S1x256.Idx → Elt Ideal .f32)

/-- What point t writes back is rows 2000·t … 2000·t + 1999 of the update of the whole arrays. -/
theorem flushed2_eq (c : Dev nD) (t : Fin cfg2.N) :
    (dat2 V c).flushed 7 t = ((cfg2.win 7).blk t).view.read (Elt Ideal) (whole2 V c) := by
  have ht : t.val < 25 := lt_of_lt_of_eq t.isLt N_2
  obtain ⟨i0r, i0c, i1r, i1c, i2r, i2c, i3r, i3c, i4r, i4c, i5r, i5c, i6r, i6c, ior, ioc⟩ := blockIdx2 t
  show (cfg2.win 7).cut (grid2.coords t) ((dat2 V c).after 7 t) = _
  rw [after2_7]
  unfold out2_7
  rw [View.canon_unit_zero Payload.zeros2]
  simp only [View.ld_unit_zero (S := S2000x256) Payload.zeros2,
    View.ld_unit_zero (S := S256x256) Payload.zeros2,
    View.ld_unit_zero (S := S1x256) Payload.zeros2]
  rw [Payload.pay2, whole2_1, whole2_3, whole2_5, whole2_6]
  funext j
  rw [View.read_apply]
  show mix3 (iblk2 V c 0 t : Vec Ideal S2000x256 .f32) _ (iblk2 V c 2 t : Vec Ideal S2000x256 .f32) _ (iblk2 V c 4 t : Vec Ideal S2000x256 .f32) _ _ j = _
  refine (mix3_rows (fun r : Fin 2000 => (⟨2000 * t.val + r.val, by have := r.isLt; omega⟩ : Fin 50000))
    (V c main_v26 : S50000x256.Idx → Elt Ideal .f32) _ (V c main_v72 : S50000x256.Idx → Elt Ideal .f32) _ (V c main_v1 : S50000x256.Idx → Elt Ideal .f32) _ _
    (iblk2 V c 0 t : Vec Ideal S2000x256 .f32) (iblk2 V c 2 t : Vec Ideal S2000x256 .f32) (iblk2 V c 4 t : Vec Ideal S2000x256 .f32)
    (fun r k => rows2_0 V c t (ix2 r k) _ rfl rfl)
    (fun r k => rows2_2 V c t (ix2 r k) _ rfl rfl)
    (fun r k => rows2_4 V c t (ix2 r k) _ rfl rfl) j).trans ?_
  unfold whole2
  congr 1
  funext a
  apply Fin.ext
  match a with
  | ⟨0, _⟩ => show 2000 * t.val + (j 0).val = win2_7.index t 0 * 2000 + 1 * (j 0).val; rw [ior]; omega
  | ⟨1, _⟩ => show (j 1).val = win2_7.index t 1 * 256 + 1 * (j 1).val; rw [ioc]; omega

/-- An index of the result array lies in point t's block iff each coordinate lies in the block's range on its
    axis. -/
theorem mem_blk2 (t : Fin cfg2.N) (i : S50000x256.Idx) :
    i ∈ ((cfg2.win 7).blk t).view.set ↔
      ∀ a : Fin 2, win2_7.index t a * S2000x256.size a ≤ (i a).val
        ∧ (i a).val < win2_7.index t a * S2000x256.size a + S2000x256.size a := by
  show i ∈ ((View.whole main_v88).slice (win2_7.rect t)).set ↔ _
  rw [View.set_slice_whole, Rect.mem_set_unit]
  exact Iff.rfl

/-- Every index of the result array lies in the block of some point that writes back: row r in point r / 2000's. -/
theorem cover2 (i : S50000x256.Idx) :
    ∃ t : Fin cfg2.N, (cfg2.win 7).flush t = true ∧ i ∈ ((cfg2.win 7).blk t).view.set := by
  have hi0 : (i 0).val < 50000 := (i 0).isLt
  have hi1 : (i 1).val < 256 := (i 1).isLt
  have hN : cfg2.N = 25 := N_2
  let t : Fin cfg2.N := ⟨(i 0).val / 2000, by rw [hN]; omega⟩
  obtain ⟨i0r, i0c, i1r, i1c, i2r, i2c, i3r, i3c, i4r, i4c, i5r, i5c, i6r, i6c, ior, ioc⟩ := blockIdx2 t
  have ht : t.val = (i 0).val / 2000 := rfl
  refine ⟨t, flush2_7 t, ?_⟩
  rw [mem_blk2]
  intro a
  match a with
  | ⟨0, _⟩ =>
    show win2_7.index t 0 * 2000 ≤ (i 0).val ∧ (i 0).val < win2_7.index t 0 * 2000 + 2000
    rw [ior, ht]; omega
  | ⟨1, _⟩ =>
    show win2_7.index t 1 * 256 ≤ (i 1).val ∧ (i 1).val < win2_7.index t 1 * 256 + 256
    rw [ioc]; omega

/-- After all 25 points the result array of region 2 is the update computed from the arrays it was entered with. -/
theorem final2 (c : Dev nD) :
    (dat2 V c).arrAt 7 cfg2.N
      = mix3 (V c main_v26 : S50000x256.Idx → Elt Ideal .f32) (V c main_v84 : S256x256.Idx → Elt Ideal .f32)
          (V c main_v72 : S50000x256.Idx → Elt Ideal .f32) (V c main_v86 : S256x256.Idx → Elt Ideal .f32)
          (V c main_v1 : S50000x256.Idx → Elt Ideal .f32) (V c main_v77 : S256x256.Idx → Elt Ideal .f32)
          (V c main_v87 : S1x256.Idx → Elt Ideal .f32) :=
  (dat2 V c).arrAt_eq_of_cover 7 (whole2 V c) (fun t _ => flushed2_eq V c t) cover2

end Cert.KernelIdeal.Val

end
-- ==== Proof.Region3.lean ====
/-
  Region 3: the first layer's update of the second node type, computed 2000 rows at a time.

  The second node type has one incoming relation. The region's grid has 10 points. At point t the body is given
  rows 2000·t … 2000·t + 1999 of two arrays of 20000 rows — the relation's neighbour means and the node type's own
  features —, the two 256 × 256 weight arrays whole and the whole bias row (block index 0 at every point), and it
  writes rows 2000·t … 2000·t + 1999 of the result. Row r of the update depends on row r of the two row-indexed
  operands only, so the block written at point t is that block of rows of the update of the whole arrays; the 10
  blocks of rows cover the 20000 rows (row r lies in the block of point r / 2000), so after the last point the
  result array is the update of the whole arrays.
-/
import proofs.«158813_j31396210933902_1_alg».proof.Proof.Gen.KernelIdeal.Frame
import proofs.«158813_j31396210933902_1_alg».proof.Proof.Payload
import Idealize.ShloMosaic.Lib.Pipeline.Value

noncomputable section

namespace Cert.KernelIdeal.Val

open Cert.KernelIdeal Cert.KernelIdeal.Gen Idealize.ShloMosaic Idealize.ShloMosaic.TcCoe Idealize.SL.Sem
open Idealize.ShloMosaic.ValueIdx Cert.Hetero
open Idealize.ShloMosaic.Pipeline (Dat)

variable (V : (c : Dev nD) → (b : Ref sig .tc) → Buf (Elt Ideal) ((c : Thread nD τ).loc b))

/-- The block indices of region 3's windows at every point t of the grid: a window of rows is at block (t, 0), a
    window that holds a whole array stays at block (0, 0); the result window is at block (t, 0). -/
theorem blockIdx3 : ∀ t : Fin cfg3.N,
    win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = t.val
    ∧ win3_5.index t (1 : Fin 2) = 0 :=
  (by decide +kernel : ∀ t : Fin grid3.N, _)

/-- Window 0's block at point t holds rows 2000·t … 2000·t + 1999 of the relation's neighbour means. -/
theorem rows3_0 (c : Dev nD) (t : Fin cfg3.N) (x : S2000x256.Idx) (k : S20000x256.Idx)
    (hk0 : (k 0).val = 2000 * t.val + (x 0).val) (hk1 : (k 1).val = (x 1).val) :
    (iblk3 V c 0 t : Vec Ideal S2000x256 .f32) x = (V c main_v49 : S20000x256.Idx → Elt Ideal .f32) k := by
  obtain ⟨i0r, i0c, i1r, i1c, i2r, i2c, i3r, i3c, i4r, i4c, ior, ioc⟩ := blockIdx3 t
  unfold iblk3
  rw [View.read_apply]
  show V c main_v49 _ = V c main_v49 _
  congr 1
  funext a
  apply Fin.ext
  match a with
  | ⟨0, _⟩ => show win3_0.index t 0 * 2000 + 1 * (x 0).val = (k 0).val; rw [i0r, hk0]; omega
  | ⟨1, _⟩ => show win3_0.index t 1 * 256 + 1 * (x 1).val = (k 1).val; rw [i0c, hk1]; omega

/-- Window 1's block at every point is the whole of the relation's weight. -/
theorem whole3_1 (c : Dev nD) (t : Fin cfg3.N) :
    (iblk3 V c 1 t : Vec Ideal S256x256 .f32) = (V c main_v90 : S256x256.Idx → Elt Ideal .f32) := by
  obtain ⟨i0r, i0c, i1r, i1c, i2r, i2c, i3r, i3c, i4r, i4c, ior, ioc⟩ := blockIdx3 t
  funext x
  unfold iblk3
  rw [View.read_apply]
  show V c main_v90 _ = V c main_v90 _
  congr 1
  funext a
  apply Fin.ext
  match a with
  | ⟨0, _⟩ => show win3_1.index t 0 * 256 + 1 * (x 0).val = (x 0).val; rw [i1r]; omega
  | ⟨1, _⟩ => show win3_1.index t 1 * 256 + 1 * (x 1).val = (x 1).val; rw [i1c]; omega

/-- Window 2's block at point t holds rows 2000·t … 2000·t + 1999 of the node type's own features. -/
theorem rows3_2 (c : Dev nD) (t : Fin cfg3.N) (x : S2000x256.Idx) (k : S20000x256.Idx)
    (hk0 : (k 0).val = 2000 * t.val + (x 0).val) (hk1 : (k 1).val = (x 1).val) :
    (iblk3 V c 2 t : Vec Ideal S2000x256 .f32) x = (V c main_v3 : S20000x256.Idx → Elt Ideal .f32) k := by
  obtain ⟨i0r, i0c, i1r, i1c, i2r, i2c, i3r, i3c, i4r, i4c, ior, ioc⟩ := blockIdx3 t
  unfold iblk3
  rw [View.read_apply]
  show V c main_v3 _ = V c main_v3 _
  congr 1
  funext a
  apply Fin.ext
  match a with
  | ⟨0, _⟩ => show win3_2.index t 0 * 2000 + 1 * (x 0).val = (k 0).val; rw [i2r, hk0]; omega
  | ⟨1, _⟩ => show win3_2.index t 1 * 256 + 1 * (x 1).val = (k 1).val; rw [i2c, hk1]; omega

/-- Window 3's block at every point is the whole of the own-feature weight. -/
theorem whole3_3 (c : Dev nD) (t : Fin cfg3.N) :
    (iblk3 V c 3 t : Vec Ideal S256x256 .f32) = (V c main_v92 : S256x256.Idx → Elt Ideal .f32) := by
  obtain ⟨i0r, i0c, i1r, i1c, i2r, i2c, i3r, i3c, i4r, i4c, ior, ioc⟩ := blockIdx3 t
  funext x
  unfold iblk3
  rw [View.read_apply]
  show V c main_v92 _ = V c main_v92 _
  congr 1
  funext a
  apply Fin.ext
  match a with
  | ⟨0, _⟩ => show win3_3.index t 0 * 256 + 1 * (x 0).val = (x 0).val; rw [i3r]; omega
  | ⟨1, _⟩ => show win3_3.index t 1 * 256 + 1 * (x 1).val = (x 1).val; rw [i3c]; omega

/-- Window 4's block at every point is the whole of the bias row. -/
theorem whole3_4 (c : Dev nD) (t : Fin cfg3.N) :
    (iblk3 V c 4 t : Vec Ideal S1x256 .f32) = (V c main_v95 : S1x256.Idx → Elt Ideal .f32) := by
  obtain ⟨i0r, i0c, i1r, i1c, i2r, i2c, i3r, i3c, i4r, i4c, ior, ioc⟩ := blockIdx3 t
  funext x
  unfold iblk3
  rw [View.read_apply]
  show V c main_v95 _ = V c main_v95 _
  congr 1
  funext a
  apply Fin.ext
  match a with
  | ⟨0, _⟩ => show win3_4.index t 0 * 1 + 1 * (x 0).val = (x 0).val; rw [i4r]; omega
  | ⟨1, _⟩ => show win3_4.index t 1 * 256 + 1 * (x 1).val = (x 1).val; rw [i4c]; omega

/-- The result array of region 3 as one function of the arrays the region finds: the update of the node type. -/
abbrev whole3 (c : Dev nD) : S20000x256.Idx → Elt Ideal .f32 :=
  mix2 (V c main_v49 : S20000x256.Idx → Elt Ideal .f32) (V c main_v90 : S256x256.Idx → Elt Ideal .f32)
    (V c main_v3 : S20000x256.Idx → Elt Ideal .f32) (V c main_v92 : S256x256.Idx → Elt Ideal .f32)
    (V c main_v95 : S1x256.Idx → Elt Ideal .f32)

/-- What point t writes back is rows 2000·t … 2000·t + 1999 of the update of the whole arrays. -/
theorem flushed3_eq (c : Dev nD) (t : Fin cfg3.N) :
    (dat3 V c).flushed 5 t = ((cfg3.win 5).blk t).view.read (Elt Ideal) (whole3 V c) := by
  have ht : t.val < 10 := lt_of_lt_of_eq t.isLt N_3
  obtain ⟨i0r, i0c, i1r, i1c, i2r, i2c, i3r, i3c, i4r, i4c, ior, ioc⟩ := blockIdx3 t
  show (cfg3.win 5).cut (grid3.coords t) ((dat3 V c).after 5 t) = _
  rw [after3_5]
  unfold out3_5
  rw [View.canon_unit_zero Payload.zeros2]
  simp only [View.ld_unit_zero (S := S2000x256) Payload.zeros2,
    View.ld_unit_zero (S := S256x256) Payload.zeros2,
    View.ld_unit_zero (S := S1x256) Payload.zeros2]
  rw [Payload.pay3, whole3_1, whole3_3, whole3_4]
  funext j
  rw [View.read_apply]
  show mix2 (iblk3 V c 0 t : Vec Ideal S2000x256 .f32) _ (iblk3 V c 2 t : Vec Ideal S2000x256 .f32) _ _ j = _
  refine (mix2_rows (fun r : Fin 2000 => (⟨2000 * t.val + r.val, by have := r.isLt; omega⟩ : Fin 20000))
    (V c main_v49 : S20000x256.Idx → Elt Ideal .f32) _ (V c main_v3 : S20000x256.Idx → Elt Ideal .f32) _ _
    (iblk3 V c 0 t : Vec Ideal S2000x256 .f32) (iblk3 V c 2 t : Vec Ideal S2000x256 .f32)
    (fun r k => rows3_0 V c t (ix2 r k) _ rfl rfl)
    (fun r k => rows3_2 V c t (ix2 r k) _ rfl rfl) j).trans ?_
  unfold whole3
  congr 1
  funext a
  apply Fin.ext
  match a with
  | ⟨0, _⟩ => show 2000 * t.val + (j 0).val = win3_5.index t 0 * 2000 + 1 * (j 0).val; rw [ior]; omega
  | ⟨1, _⟩ => show (j 1).val = win3_5.index t 1 * 256 + 1 * (j 1).val; rw [ioc]; omega

/-- An index of the result array lies in point t's block iff each coordinate lies in the block's range on its
    axis. -/
theorem mem_blk3 (t : Fin cfg3.N) (i : S20000x256.Idx) :
    i ∈ ((cfg3.win 5).blk t).view.set ↔
      ∀ a : Fin 2, win3_5.index t a * S2000x256.size a ≤ (i a).val
        ∧ (i a).val < win3_5.index t a * S2000x256.size a + S2000x256.size a := by
  show i ∈ ((View.whole main_v96).slice (win3_5.rect t)).set ↔ _
  rw [View.set_slice_whole, Rect.mem_set_unit]
  exact Iff.rfl

/-- Every index of the result array lies in the block of some point that writes back: row r in point r / 2000's. -/
theorem cover3 (i : S20000x256.Idx) :
    ∃ t : Fin cfg3.N, (cfg3.win 5).flush t = true ∧ i ∈ ((cfg3.win 5).blk t).view.set := by
  have hi0 : (i 0).val < 20000 := (i 0).isLt
  have hi1 : (i 1).val < 256 := (i 1).isLt
  have hN : cfg3.N = 10 := N_3
  let t : Fin cfg3.N := ⟨(i 0).val / 2000, by rw [hN]; omega⟩
  obtain ⟨i0r, i0c, i1r, i1c, i2r, i2c, i3r, i3c, i4r, i4c, ior, ioc⟩ := blockIdx3 t
  have ht : t.val = (i 0).val / 2000 := rfl
  refine ⟨t, flush3_5 t, ?_⟩
  rw [mem_blk3]
  intro a
  match a with
  | ⟨0, _⟩ =>
    show win3_5.index t 0 * 2000 ≤ (i 0).val ∧ (i 0).val < win3_5.index t 0 * 2000 + 2000
    rw [ior, ht]; omega
  | ⟨1, _⟩ =>
    show win3_5.index t 1 * 256 ≤ (i 1).val ∧ (i 1).val < win3_5.index t 1 * 256 + 256
    rw [ioc]; omega

/-- After all 10 points the result array of region 3 is the update computed from the arrays it was entered with. -/
theorem final3 (c : Dev nD) :
    (dat3 V c).arrAt 5 cfg3.N
      = mix2 (V c main_v49 : S20000x256.Idx → Elt Ideal .f32) (V c main_v90 : S256x256.Idx → Elt Ideal .f32)
          (V c main_v3 : S20000x256.Idx → Elt Ideal .f32) (V c main_v92 : S256x256.Idx → Elt Ideal .f32)
          (V c main_v95 : S1x256.Idx → Elt Ideal .f32) :=
  (dat3 V c).arrAt_eq_of_cover 5 (whole3 V c) (fun t _ => flushed3_eq V c t) cover3

end Cert.KernelIdeal.Val

end
-- ==== Proof.Region4.lean ====
/-
  Region 4: the second layer's update of the first node type, computed 2000 rows at a time.

  The same map as the first layer's, on the second layer's operands. The region's grid has 25 points. At point t
  the body is given rows 2000·t … 2000·t + 1999 of three arrays of 50000 rows — the neighbour means of each of the
  two incoming relations and the node type's own features after the first layer —, the three 256 × 256 weight arrays
  whole and the whole bias row (block index 0 at every point), and it writes rows 2000·t … 2000·t + 1999 of the
  result. Row r of the update depends on row r of the three row-indexed operands only, so the block written at
  point t is that block of rows of the update of the whole arrays; the 25 blocks of rows cover the 50000 rows (row r
  lies in the block of point r / 2000), so after the last point the result array is the update of the whole arrays.
-/
import proofs.«158813_j31396210933902_1_alg».proof.Proof.Gen.KernelIdeal.Frame
import proofs.«158813_j31396210933902_1_alg».proof.Proof.Payload
import Idealize.ShloMosaic.Lib.Pipeline.Value

noncomputable section

namespace Cert.KernelIdeal.Val

open Cert.KernelIdeal Cert.KernelIdeal.Gen Idealize.ShloMosaic Idealize.ShloMosaic.TcCoe Idealize.SL.Sem
open Idealize.ShloMosaic.ValueIdx Cert.Hetero
open Idealize.ShloMosaic.Pipeline (Dat)

variable (V : (c : Dev nD) → (b : Ref sig .tc) → Buf (Elt Ideal) ((c : Thread nD τ).loc b))

/-- The block indices of region 4's windows at every point t of the grid: a window of rows is at block (t, 0), a
    window that holds a whole array stays at block (0, 0); the result window is at block (t, 0). -/
theorem blockIdx4 : ∀ t : Fin cfg4.N,
    win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0
    ∧ win4_3.index t (0 : Fin 2) = 0
    ∧ win4_3.index t (1 : Fin 2) = 0
    ∧ win4_4.index t (0 : Fin 2) = t.val
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = t.val
    ∧ win4_7.index t (1 : Fin 2) = 0 :=
  (by decide +kernel : ∀ t : Fin grid4.N, _)

/-- Window 0's block at point t holds rows 2000·t … 2000·t + 1999 of the first relation's neighbour means. -/
theorem rows4_0 (c : Dev nD) (t : Fin cfg4.N) (x : S2000x256.Idx) (k : S50000x256.Idx)
    (hk0 : (k 0).val = 2000 * t.val + (x 0).val) (hk1 : (k 1).val = (x 1).val) :
    (iblk4 V c 0 t : Vec Ideal S2000x256 .f32) x = (V c main_v119 : S50000x256.Idx → Elt Ideal .f32) k := by
  obtain ⟨i0r, i0c, i1r, i1c, i2r, i2c, i3r, i3c, i4r, i4c, i5r, i5c, i6r, i6c, ior, ioc⟩ := blockIdx4 t
  unfold iblk4
  rw [View.read_apply]
  show V c main_v119 _ = V c main_v119 _
  congr 1
  funext a
  apply Fin.ext
  match a with
  | ⟨0, _⟩ => show win4_0.index t 0 * 2000 + 1 * (x 0).val = (k 0).val; rw [i0r, hk0]; omega
  | ⟨1, _⟩ => show win4_0.index t 1 * 256 + 1 * (x 1).val = (k 1).val; rw [i0c, hk1]; omega

/-- Window 1's block at every point is the whole of the first relation's weight. -/
theorem whole4_1 (c : Dev nD) (t : Fin cfg4.N) :
    (iblk4 V c 1 t : Vec Ideal S256x256 .f32) = (V c main_v177 : S256x256.Idx → Elt Ideal .f32) := by
  obtain ⟨i0r, i0c, i1r, i1c, i2r, i2c, i3r, i3c, i4r, i4c, i5r, i5c, i6r, i6c, ior, ioc⟩ := blockIdx4 t
  funext x
  unfold iblk4
  rw [View.read_apply]
  show V c main_v177 _ = V c main_v177 _
  congr 1
  funext a
  apply Fin.ext
  match a with
  | ⟨0, _⟩ => show win4_1.index t 0 * 256 + 1 * (x 0).val = (x 0).val; rw [i1r]; omega
  | ⟨1, _⟩ => show win4_1.index t 1 * 256 + 1 * (x 1).val = (x 1).val; rw [i1c]; omega

/-- Window 2's block at point t holds rows 2000·t … 2000·t + 1999 of the second relation's neighbour means. -/
theorem rows4_2 (c : Dev nD) (t : Fin cfg4.N) (x : S2000x256.Idx) (k : S50000x256.Idx)
    (hk0 : (k 0).val = 2000 * t.val + (x 0).val) (hk1 : (k 1).val = (x 1).val) :
    (iblk4 V c 2 t : Vec Ideal S2000x256 .f32) x = (V c main_v165 : S50000x256.Idx → Elt Ideal .f32) k := by
  obtain ⟨i0r, i0c, i1r, i1c, i2r, i2c, i3r, i3c, i4r, i4c, i5r, i5c, i6r, i6c, ior, ioc⟩ := blockIdx4 t
  unfold iblk4
  rw [View.read_apply]
  show V c main_v165 _ = V c main_v165 _
  congr 1
  funext a
  apply Fin.ext
  match a with
  | ⟨0, _⟩ => show win4_2.index t 0 * 2000 + 1 * (x 0).val = (k 0).val; rw [i2r, hk0]; omega
  | ⟨1, _⟩ => show win4_2.index t 1 * 256 + 1 * (x 1).val = (k 1).val; rw [i2c, hk1]; omega

/-- Window 3's block at every point is the whole of the second relation's weight. -/
theorem whole4_3 (c : Dev nD) (t : Fin cfg4.N) :
    (iblk4 V c 3 t : Vec Ideal S256x256 .f32) = (V c main_v179 : S256x256.Idx → Elt Ideal .f32) := by
  obtain ⟨i0r, i0c, i1r, i1c, i2r, i2c, i3r, i3c, i4r, i4c, i5r, i5c, i6r, i6c, ior, ioc⟩ := blockIdx4 t
  funext x
  unfold iblk4
  rw [View.read_apply]
  show V c main_v179 _ = V c main_v179 _
  congr 1
  funext a
  apply Fin.ext
  match a with
  | ⟨0, _⟩ => show win4_3.index t 0 * 256 + 1 * (x 0).val = (x 0).val; rw [i3r]; omega
  | ⟨1, _⟩ => show win4_3.index t 1 * 256 + 1 * (x 1).val = (x 1).val; rw [i3c]; omega

/-- Window 4's block at point t holds rows 2000·t … 2000·t + 1999 of the node type's own features. -/
theorem rows4_4 (c : Dev nD) (t : Fin cfg4.N) (x : S2000x256.Idx) (k : S50000x256.Idx)
    (hk0 : (k 0).val = 2000 * t.val + (x 0).val) (hk1 : (k 1).val = (x 1).val) :
    (iblk4 V c 4 t : Vec Ideal S2000x256 .f32) x = (V c main_v88 : S50000x256.Idx → Elt Ideal .f32) k := by
  obtain ⟨i0r, i0c, i1r, i1c, i2r, i2c, i3r, i3c, i4r, i4c, i5r, i5c, i6r, i6c, ior, ioc⟩ := blockIdx4 t
  unfold iblk4
  rw [View.read_apply]
  show V c main_v88 _ = V c main_v88 _
  congr 1
  funext a
  apply Fin.ext
  match a with
  | ⟨0, _⟩ => show win4_4.index t 0 * 2000 + 1 * (x 0).val = (k 0).val; rw [i4r, hk0]; omega
  | ⟨1, _⟩ => show win4_4.index t 1 * 256 + 1 * (x 1).val = (k 1).val; rw [i4c, hk1]; omega

/-- Window 5's block at every point is the whole of the summed own-feature weight. -/
theorem whole4_5 (c : Dev nD) (t : Fin cfg4.N) :
    (iblk4 V c 5 t : Vec Ideal S256x256 .f32) = (V c main_v170 : S256x256.Idx → Elt Ideal .f32) := by
  obtain ⟨i0r, i0c, i1r, i1c, i2r, i2c, i3r, i3c, i4r, i4c, i5r, i5c, i6r, i6c, ior, ioc⟩ := blockIdx4 t
  funext x
  unfold iblk4
  rw [View.read_apply]
  show V c main_v170 _ = V c main_v170 _
  congr 1
  funext a
  apply Fin.ext
  match a with
  | ⟨0, _⟩ => show win4_5.index t 0 * 256 + 1 * (x 0).val = (x 0).val; rw [i5r]; omega
  | ⟨1, _⟩ => show win4_5.index t 1 * 256 + 1 * (x 1).val = (x 1).val; rw [i5c]; omega

/-- Window 6's block at every point is the whole of the bias row. -/
theorem whole4_6 (c : Dev nD) (t : Fin cfg4.N) :
    (iblk4 V c 6 t : Vec Ideal S1x256 .f32) = (V c main_v180 : S1x256.Idx → Elt Ideal .f32) := by
  obtain ⟨i0r, i0c, i1r, i1c, i2r, i2c, i3r, i3c, i4r, i4c, i5r, i5c, i6r, i6c, ior, ioc⟩ := blockIdx4 t
  funext x
  unfold iblk4
  rw [View.read_apply]
  show V c main_v180 _ = V c main_v180 _
  congr 1
  funext a
  apply Fin.ext
  match a with
  | ⟨0, _⟩ => show win4_6.index t 0 * 1 + 1 * (x 0).val = (x 0).val; rw [i6r]; omega
  | ⟨1, _⟩ => show win4_6.index t 1 * 256 + 1 * (x 1).val = (x 1).val; rw [i6c]; omega

/-- The result array of region 4 as one function of the arrays the region finds: the update of the node type. -/
abbrev whole4 (c : Dev nD) : S50000x256.Idx → Elt Ideal .f32 :=
  mix3 (V c main_v119 : S50000x256.Idx → Elt Ideal .f32) (V c main_v177 : S256x256.Idx → Elt Ideal .f32)
    (V c main_v165 : S50000x256.Idx → Elt Ideal .f32) (V c main_v179 : S256x256.Idx → Elt Ideal .f32)
    (V c main_v88 : S50000x256.Idx → Elt Ideal .f32) (V c main_v170 : S256x256.Idx → Elt Ideal .f32)
    (V c main_v180 : S1x256.Idx → Elt Ideal .f32)

/-- What point t writes back is rows 2000·t … 2000·t + 1999 of the update of the whole arrays. -/
theorem flushed4_eq (c : Dev nD) (t : Fin cfg4.N) :
    (dat4 V c).flushed 7 t = ((cfg4.win 7).blk t).view.read (Elt Ideal) (whole4 V c) := by
  have ht : t.val < 25 := lt_of_lt_of_eq t.isLt N_4
  obtain ⟨i0r, i0c, i1r, i1c, i2r, i2c, i3r, i3c, i4r, i4c, i5r, i5c, i6r, i6c, ior, ioc⟩ := blockIdx4 t
  show (cfg4.win 7).cut (grid4.coords t) ((dat4 V c).after 7 t) = _
  rw [after4_7]
  unfold out4_7
  rw [View.canon_unit_zero Payload.zeros2]
  simp only [View.ld_unit_zero (S := S2000x256) Payload.zeros2,
    View.ld_unit_zero (S := S256x256) Payload.zeros2,
    View.ld_unit_zero (S := S1x256) Payload.zeros2]
  rw [Payload.pay4, whole4_1, whole4_3, whole4_5, whole4_6]
  funext j
  rw [View.read_apply]
  show mix3 (iblk4 V c 0 t : Vec Ideal S2000x256 .f32) _ (iblk4 V c 2 t : Vec Ideal S2000x256 .f32) _ (iblk4 V c 4 t : Vec Ideal S2000x256 .f32) _ _ j = _
  refine (mix3_rows (fun r : Fin 2000 => (⟨2000 * t.val + r.val, by have := r.isLt; omega⟩ : Fin 50000))
    (V c main_v119 : S50000x256.Idx → Elt Ideal .f32) _ (V c main_v165 : S50000x256.Idx → Elt Ideal .f32) _ (V c main_v88 : S50000x256.Idx → Elt Ideal .f32) _ _
    (iblk4 V c 0 t : Vec Ideal S2000x256 .f32) (iblk4 V c 2 t : Vec Ideal S2000x256 .f32) (iblk4 V c 4 t : Vec Ideal S2000x256 .f32)
    (fun r k => rows4_0 V c t (ix2 r k) _ rfl rfl)
    (fun r k => rows4_2 V c t (ix2 r k) _ rfl rfl)
    (fun r k => rows4_4 V c t (ix2 r k) _ rfl rfl) j).trans ?_
  unfold whole4
  congr 1
  funext a
  apply Fin.ext
  match a with
  | ⟨0, _⟩ => show 2000 * t.val + (j 0).val = win4_7.index t 0 * 2000 + 1 * (j 0).val; rw [ior]; omega
  | ⟨1, _⟩ => show (j 1).val = win4_7.index t 1 * 256 + 1 * (j 1).val; rw [ioc]; omega

/-- An index of the result array lies in point t's block iff each coordinate lies in the block's range on its
    axis. -/
theorem mem_blk4 (t : Fin cfg4.N) (i : S50000x256.Idx) :
    i ∈ ((cfg4.win 7).blk t).view.set ↔
      ∀ a : Fin 2, win4_7.index t a * S2000x256.size a ≤ (i a).val
        ∧ (i a).val < win4_7.index t a * S2000x256.size a + S2000x256.size a := by
  show i ∈ ((View.whole main_v181).slice (win4_7.rect t)).set ↔ _
  rw [View.set_slice_whole, Rect.mem_set_unit]
  exact Iff.rfl

/-- Every index of the result array lies in the block of some point that writes back: row r in point r / 2000's. -/
theorem cover4 (i : S50000x256.Idx) :
    ∃ t : Fin cfg4.N, (cfg4.win 7).flush t = true ∧ i ∈ ((cfg4.win 7).blk t).view.set := by
  have hi0 : (i 0).val < 50000 := (i 0).isLt
  have hi1 : (i 1).val < 256 := (i 1).isLt
  have hN : cfg4.N = 25 := N_4
  let t : Fin cfg4.N := ⟨(i 0).val / 2000, by rw [hN]; omega⟩
  obtain ⟨i0r, i0c, i1r, i1c, i2r, i2c, i3r, i3c, i4r, i4c, i5r, i5c, i6r, i6c, ior, ioc⟩ := blockIdx4 t
  have ht : t.val = (i 0).val / 2000 := rfl
  refine ⟨t, flush4_7 t, ?_⟩
  rw [mem_blk4]
  intro a
  match a with
  | ⟨0, _⟩ =>
    show win4_7.index t 0 * 2000 ≤ (i 0).val ∧ (i 0).val < win4_7.index t 0 * 2000 + 2000
    rw [ior, ht]; omega
  | ⟨1, _⟩ =>
    show win4_7.index t 1 * 256 ≤ (i 1).val ∧ (i 1).val < win4_7.index t 1 * 256 + 256
    rw [ioc]; omega

/-- After all 25 points the result array of region 4 is the update computed from the arrays it was entered with. -/
theorem final4 (c : Dev nD) :
    (dat4 V c).arrAt 7 cfg4.N
      = mix3 (V c main_v119 : S50000x256.Idx → Elt Ideal .f32) (V c main_v177 : S256x256.Idx → Elt Ideal .f32)
          (V c main_v165 : S50000x256.Idx → Elt Ideal .f32) (V c main_v179 : S256x256.Idx → Elt Ideal .f32)
          (V c main_v88 : S50000x256.Idx → Elt Ideal .f32) (V c main_v170 : S256x256.Idx → Elt Ideal .f32)
          (V c main_v180 : S1x256.Idx → Elt Ideal .f32) :=
  (dat4 V c).arrAt_eq_of_cover 7 (whole4 V c) (fun t _ => flushed4_eq V c t) cover4

end Cert.KernelIdeal.Val

end
-- ==== Proof.Region5.lean ====
/-
  Region 5: the second layer's update of the second node type, computed 2000 rows at a time.

  The same map as the first layer's, on the second layer's operands. The region's grid has 10 points. At point t
  the body is given rows 2000·t … 2000·t + 1999 of two arrays of 20000 rows — the incoming relation's neighbour means
  and the node type's own features after the first layer —, the two 256 × 256 weight arrays whole and the whole bias
  row (block index 0 at every point), and it writes rows 2000·t … 2000·t + 1999 of the result. Row r of the update
  depends on row r of the two row-indexed operands only, so the block written at point t is that block of rows of
  the update of the whole arrays; the 10 blocks of rows cover the 20000 rows (row r lies in the block of point
  r / 2000), so after the last point the result array is the update of the whole arrays.
-/
import proofs.«158813_j31396210933902_1_alg».proof.Proof.Gen.KernelIdeal.Frame
import proofs.«158813_j31396210933902_1_alg».proof.Proof.Payload
import Idealize.ShloMosaic.Lib.Pipeline.Value

noncomputable section

namespace Cert.KernelIdeal.Val

open Cert.KernelIdeal Cert.KernelIdeal.Gen Idealize.ShloMosaic Idealize.ShloMosaic.TcCoe Idealize.SL.Sem
open Idealize.ShloMosaic.ValueIdx Cert.Hetero
open Idealize.ShloMosaic.Pipeline (Dat)

variable (V : (c : Dev nD) → (b : Ref sig .tc) → Buf (Elt Ideal) ((c : Thread nD τ).loc b))

/-- The block indices of region 5's windows at every point t of the grid: a window of rows is at block (t, 0), a
    window that holds a whole array stays at block (0, 0); the result window is at block (t, 0). -/
theorem blockIdx5 : ∀ t : Fin cfg5.N,
    win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = t.val
    ∧ win5_5.index t (1 : Fin 2) = 0 :=
  (by decide +kernel : ∀ t : Fin grid5.N, _)

/-- Window 0's block at point t holds rows 2000·t … 2000·t + 1999 of the relation's neighbour means. -/
theorem rows5_0 (c : Dev nD) (t : Fin cfg5.N) (x : S2000x256.Idx) (k : S20000x256.Idx)
    (hk0 : (k 0).val = 2000 * t.val + (x 0).val) (hk1 : (k 1).val = (x 1).val) :
    (iblk5 V c 0 t : Vec Ideal S2000x256 .f32) x = (V c main_v142 : S20000x256.Idx → Elt Ideal .f32) k := by
  obtain ⟨i0r, i0c, i1r, i1c, i2r, i2c, i3r, i3c, i4r, i4c, ior, ioc⟩ := blockIdx5 t
  unfold iblk5
  rw [View.read_apply]
  show V c main_v142 _ = V c main_v142 _
  congr 1
  funext a
  apply Fin.ext
  match a with
  | ⟨0, _⟩ => show win5_0.index t 0 * 2000 + 1 * (x 0).val = (k 0).val; rw [i0r, hk0]; omega
  | ⟨1, _⟩ => show win5_0.index t 1 * 256 + 1 * (x 1).val = (k 1).val; rw [i0c, hk1]; omega

/-- Window 1's block at every point is the whole of the relation's weight. -/
theorem whole5_1 (c : Dev nD) (t : Fin cfg5.N) :
    (iblk5 V c 1 t : Vec Ideal S256x256 .f32) = (V c main_v183 : S256x256.Idx → Elt Ideal .f32) := by
  obtain ⟨i0r, i0c, i1r, i1c, i2r, i2c, i3r, i3c, i4r, i4c, ior, ioc⟩ := blockIdx5 t
  funext x
  unfold iblk5
  rw [View.read_apply]
  show V c main_v183 _ = V c main_v183 _
  congr 1
  funext a
  apply Fin.ext
  match a with
  | ⟨0, _⟩ => show win5_1.index t 0 * 256 + 1 * (x 0).val = (x 0).val; rw [i1r]; omega
  | ⟨1, _⟩ => show win5_1.index t 1 * 256 + 1 * (x 1).val = (x 1).val; rw [i1c]; omega

/-- Window 2's block at point t holds rows 2000·t … 2000·t + 1999 of the node type's own features. -/
theorem rows5_2 (c : Dev nD) (t : Fin cfg5.N) (x : S2000x256.Idx) (k : S20000x256.Idx)
    (hk0 : (k 0).val = 2000 * t.val + (x 0).val) (hk1 : (k 1).val = (x 1).val) :
    (iblk5 V c 2 t : Vec Ideal S2000x256 .f32) x = (V c main_v96 : S20000x256.Idx → Elt Ideal .f32) k := by
  obtain ⟨i0r, i0c, i1r, i1c, i2r, i2c, i3r, i3c, i4r, i4c, ior, ioc⟩ := blockIdx5 t
  unfold iblk5
  rw [View.read_apply]
  show V c main_v96 _ = V c main_v96 _
  congr 1
  funext a
  apply Fin.ext
  match a with
  | ⟨0, _⟩ => show win5_2.index t 0 * 2000 + 1 * (x 0).val = (k 0).val; rw [i2r, hk0]; omega
  | ⟨1, _⟩ => show win5_2.index t 1 * 256 + 1 * (x 1).val = (k 1).val; rw [i2c, hk1]; omega

/-- Window 3's block at every point is the whole of the own-feature weight. -/
theorem whole5_3 (c : Dev nD) (t : Fin cfg5.N) :
    (iblk5 V c 3 t : Vec Ideal S256x256 .f32) = (V c main_v185 : S256x256.Idx → Elt Ideal .f32) := by
  obtain ⟨i0r, i0c, i1r, i1c, i2r, i2c, i3r, i3c, i4r, i4c, ior, ioc⟩ := blockIdx5 t
  funext x
  unfold iblk5
  rw [View.read_apply]
  show V c main_v185 _ = V c main_v185 _
  congr 1
  funext a
  apply Fin.ext
  match a with
  | ⟨0, _⟩ => show win5_3.index t 0 * 256 + 1 * (x 0).val = (x 0).val; rw [i3r]; omega
  | ⟨1, _⟩ => show win5_3.index t 1 * 256 + 1 * (x 1).val = (x 1).val; rw [i3c]; omega

/-- Window 4's block at every point is the whole of the bias row. -/
theorem whole5_4 (c : Dev nD) (t : Fin cfg5.N) :
    (iblk5 V c 4 t : Vec Ideal S1x256 .f32) = (V c main_v188 : S1x256.Idx → Elt Ideal .f32) := by
  obtain ⟨i0r, i0c, i1r, i1c, i2r, i2c, i3r, i3c, i4r, i4c, ior, ioc⟩ := blockIdx5 t
  funext x
  unfold iblk5
  rw [View.read_apply]
  show V c main_v188 _ = V c main_v188 _
  congr 1
  funext a
  apply Fin.ext
  match a with
  | ⟨0, _⟩ => show win5_4.index t 0 * 1 + 1 * (x 0).val = (x 0).val; rw [i4r]; omega
  | ⟨1, _⟩ => show win5_4.index t 1 * 256 + 1 * (x 1).val = (x 1).val; rw [i4c]; omega

/-- The result array of region 5 as one function of the arrays the region finds: the update of the node type. -/
abbrev whole5 (c : Dev nD) : S20000x256.Idx → Elt Ideal .f32 :=
  mix2 (V c main_v142 : S20000x256.Idx → Elt Ideal .f32) (V c main_v183 : S256x256.Idx → Elt Ideal .f32)
    (V c main_v96 : S20000x256.Idx → Elt Ideal .f32) (V c main_v185 : S256x256.Idx → Elt Ideal .f32)
    (V c main_v188 : S1x256.Idx → Elt Ideal .f32)

/-- What point t writes back is rows 2000·t … 2000·t + 1999 of the update of the whole arrays. -/
theorem flushed5_eq (c : Dev nD) (t : Fin cfg5.N) :
    (dat5 V c).flushed 5 t = ((cfg5.win 5).blk t).view.read (Elt Ideal) (whole5 V c) := by
  have ht : t.val < 10 := lt_of_lt_of_eq t.isLt N_5
  obtain ⟨i0r, i0c, i1r, i1c, i2r, i2c, i3r, i3c, i4r, i4c, ior, ioc⟩ := blockIdx5 t
  show (cfg5.win 5).cut (grid5.coords t) ((dat5 V c).after 5 t) = _
  rw [after5_5]
  unfold out5_5
  rw [View.canon_unit_zero Payload.zeros2]
  simp only [View.ld_unit_zero (S := S2000x256) Payload.zeros2,
    View.ld_unit_zero (S := S256x256) Payload.zeros2,
    View.ld_unit_zero (S := S1x256) Payload.zeros2]
  rw [Payload.pay5, whole5_1, whole5_3, whole5_4]
  funext j
  rw [View.read_apply]
  show mix2 (iblk5 V c 0 t : Vec Ideal S2000x256 .f32) _ (iblk5 V c 2 t : Vec Ideal S2000x256 .f32) _ _ j = _
  refine (mix2_rows (fun r : Fin 2000 => (⟨2000 * t.val + r.val, by have := r.isLt; omega⟩ : Fin 20000))
    (V c main_v142 : S20000x256.Idx → Elt Ideal .f32) _ (V c main_v96 : S20000x256.Idx → Elt Ideal .f32) _ _
    (iblk5 V c 0 t : Vec Ideal S2000x256 .f32) (iblk5 V c 2 t : Vec Ideal S2000x256 .f32)
    (fun r k => rows5_0 V c t (ix2 r k) _ rfl rfl)
    (fun r k => rows5_2 V c t (ix2 r k) _ rfl rfl) j).trans ?_
  unfold whole5
  congr 1
  funext a
  apply Fin.ext
  match a with
  | ⟨0, _⟩ => show 2000 * t.val + (j 0).val = win5_5.index t 0 * 2000 + 1 * (j 0).val; rw [ior]; omega
  | ⟨1, _⟩ => show (j 1).val = win5_5.index t 1 * 256 + 1 * (j 1).val; rw [ioc]; omega

/-- An index of the result array lies in point t's block iff each coordinate lies in the block's range on its
    axis. -/
theorem mem_blk5 (t : Fin cfg5.N) (i : S20000x256.Idx) :
    i ∈ ((cfg5.win 5).blk t).view.set ↔
      ∀ a : Fin 2, win5_5.index t a * S2000x256.size a ≤ (i a).val
        ∧ (i a).val < win5_5.index t a * S2000x256.size a + S2000x256.size a := by
  show i ∈ ((View.whole main_v189).slice (win5_5.rect t)).set ↔ _
  rw [View.set_slice_whole, Rect.mem_set_unit]
  exact Iff.rfl

/-- Every index of the result array lies in the block of some point that writes back: row r in point r / 2000's. -/
theorem cover5 (i : S20000x256.Idx) :
    ∃ t : Fin cfg5.N, (cfg5.win 5).flush t = true ∧ i ∈ ((cfg5.win 5).blk t).view.set := by
  have hi0 : (i 0).val < 20000 := (i 0).isLt
  have hi1 : (i 1).val < 256 := (i 1).isLt
  have hN : cfg5.N = 10 := N_5
  let t : Fin cfg5.N := ⟨(i 0).val / 2000, by rw [hN]; omega⟩
  obtain ⟨i0r, i0c, i1r, i1c, i2r, i2c, i3r, i3c, i4r, i4c, ior, ioc⟩ := blockIdx5 t
  have ht : t.val = (i 0).val / 2000 := rfl
  refine ⟨t, flush5_5 t, ?_⟩
  rw [mem_blk5]
  intro a
  match a with
  | ⟨0, _⟩ =>
    show win5_5.index t 0 * 2000 ≤ (i 0).val ∧ (i 0).val < win5_5.index t 0 * 2000 + 2000
    rw [ior, ht]; omega
  | ⟨1, _⟩ =>
    show win5_5.index t 1 * 256 ≤ (i 1).val ∧ (i 1).val < win5_5.index t 1 * 256 + 256
    rw [ioc]; omega

/-- After all 10 points the result array of region 5 is the update computed from the arrays it was entered with. -/
theorem final5 (c : Dev nD) :
    (dat5 V c).arrAt 5 cfg5.N
      = mix2 (V c main_v142 : S20000x256.Idx → Elt Ideal .f32) (V c main_v183 : S256x256.Idx → Elt Ideal .f32)
          (V c main_v96 : S20000x256.Idx → Elt Ideal .f32) (V c main_v185 : S256x256.Idx → Elt Ideal .f32)
          (V c main_v188 : S1x256.Idx → Elt Ideal .f32) :=
  (dat5 V c).arrAt_eq_of_cover 5 (whole5 V c) (fun t _ => flushed5_eq V c t) cover5

end Cert.KernelIdeal.Val

end
-- ==== Proof.Region6.lean ====
/-
  Region 6: the output head of the first node type, computed 2000 rows at a time.

  The region's grid has 25 points. At point t the body is given rows 2000·t … 2000·t + 1999 of the node type's
  features after the second layer (50000 rows), the whole 256 × 256 weight array and the whole bias row (block
  index 0 at every point), and it writes rows 2000·t … 2000·t + 1999 of the result. Row r of the head depends on row
  r of the features only, so the block written at point t is that block of rows of the head of the whole feature
  array; the 25 blocks of rows cover the 50000 rows (row r lies in the block of point r / 2000), so after the last
  point the result array is the head of the whole feature array.
-/
import proofs.«158813_j31396210933902_1_alg».proof.Proof.Gen.KernelIdeal.Frame
import proofs.«158813_j31396210933902_1_alg».proof.Proof.Payload
import Idealize.ShloMosaic.Lib.Pipeline.Value

noncomputable section

namespace Cert.KernelIdeal.Val

open Cert.KernelIdeal Cert.KernelIdeal.Gen Idealize.ShloMosaic Idealize.ShloMosaic.TcCoe Idealize.SL.Sem
open Idealize.ShloMosaic.ValueIdx Cert.Hetero
open Idealize.ShloMosaic.Pipeline (Dat)

variable (V : (c : Dev nD) → (b : Ref sig .tc) → Buf (Elt Ideal) ((c : Thread nD τ).loc b))

/-- The block indices of region 6's windows at every point t of the grid: a window of rows is at block (t, 0), a
    window that holds a whole array stays at block (0, 0); the result window is at block (t, 0). -/
theorem blockIdx6 : ∀ t : Fin cfg6.N,
    win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0 :=
  (by decide +kernel : ∀ t : Fin grid6.N, _)

/-- Window 0's block at point t holds rows 2000·t … 2000·t + 1999 of the node type's features after the second layer. -/
theorem rows6_0 (c : Dev nD) (t : Fin cfg6.N) (x : S2000x256.Idx) (k : S50000x256.Idx)
    (hk0 : (k 0).val = 2000 * t.val + (x 0).val) (hk1 : (k 1).val = (x 1).val) :
    (iblk6 V c 0 t : Vec Ideal S2000x256 .f32) x = (V c main_v181 : S50000x256.Idx → Elt Ideal .f32) k := by
  obtain ⟨i0r, i0c, i1r, i1c, i2r, i2c, ior, ioc⟩ := blockIdx6 t
  unfold iblk6
  rw [View.read_apply]
  show V c main_v181 _ = V c main_v181 _
  congr 1
  funext a
  apply Fin.ext
  match a with
  | ⟨0, _⟩ => show win6_0.index t 0 * 2000 + 1 * (x 0).val = (k 0).val; rw [i0r, hk0]; omega
  | ⟨1, _⟩ => show win6_0.index t 1 * 256 + 1 * (x 1).val = (k 1).val; rw [i0c, hk1]; omega

/-- Window 1's block at every point is the whole of the head's weight array. -/
theorem whole6_1 (c : Dev nD) (t : Fin cfg6.N) :
    (iblk6 V c 1 t : Vec Ideal S256x256 .f32) = (V c main_arg9 : S256x256.Idx → Elt Ideal .f32) := by
  obtain ⟨i0r, i0c, i1r, i1c, i2r, i2c, ior, ioc⟩ := blockIdx6 t
  funext x
  unfold iblk6
  rw [View.read_apply]
  show V c main_arg9 _ = V c main_arg9 _
  congr 1
  funext a
  apply Fin.ext
  match a with
  | ⟨0, _⟩ => show win6_1.index t 0 * 256 + 1 * (x 0).val = (x 0).val; rw [i1r]; omega
  | ⟨1, _⟩ => show win6_1.index t 1 * 256 + 1 * (x 1).val = (x 1).val; rw [i1c]; omega

/-- Window 2's block at every point is the whole of the bias row. -/
theorem whole6_2 (c : Dev nD) (t : Fin cfg6.N) :
    (iblk6 V c 2 t : Vec Ideal S1x256 .f32) = (V c main_v190 : S1x256.Idx → Elt Ideal .f32) := by
  obtain ⟨i0r, i0c, i1r, i1c, i2r, i2c, ior, ioc⟩ := blockIdx6 t
  funext x
  unfold iblk6
  rw [View.read_apply]
  show V c main_v190 _ = V c main_v190 _
  congr 1
  funext a
  apply Fin.ext
  match a with
  | ⟨0, _⟩ => show win6_2.index t 0 * 1 + 1 * (x 0).val = (x 0).val; rw [i2r]; omega
  | ⟨1, _⟩ => show win6_2.index t 1 * 256 + 1 * (x 1).val = (x 1).val; rw [i2c]; omega

/-- The result array of region 6 as one function of the arrays the region finds: the head of the features. -/
abbrev whole6 (c : Dev nD) : S50000x256.Idx → Elt Ideal .f32 :=
  head (V c main_v181 : S50000x256.Idx → Elt Ideal .f32) (V c main_arg9 : S256x256.Idx → Elt Ideal .f32)
    (V c main_v190 : S1x256.Idx → Elt Ideal .f32)

/-- What point t writes back is rows 2000·t … 2000·t + 1999 of the head of the whole feature array. -/
theorem flushed6_eq (c : Dev nD) (t : Fin cfg6.N) :
    (dat6 V c).flushed 3 t = ((cfg6.win 3).blk t).view.read (Elt Ideal) (whole6 V c) := by
  have ht : t.val < 25 := lt_of_lt_of_eq t.isLt N_6
  obtain ⟨i0r, i0c, i1r, i1c, i2r, i2c, ior, ioc⟩ := blockIdx6 t
  show (cfg6.win 3).cut (grid6.coords t) ((dat6 V c).after 3 t) = _
  rw [after6_3]
  unfold out6_3
  rw [View.canon_unit_zero Payload.zeros2]
  simp only [View.ld_unit_zero (S := S2000x256) Payload.zeros2,
    View.ld_unit_zero (S := S256x256) Payload.zeros2,
    View.ld_unit_zero (S := S1x256) Payload.zeros2]
  rw [Payload.pay6, whole6_1, whole6_2]
  funext j
  rw [View.read_apply]
  show head (iblk6 V c 0 t : Vec Ideal S2000x256 .f32) _ _ j = _
  refine (head_rows (fun r : Fin 2000 => (⟨2000 * t.val + r.val, by have := r.isLt; omega⟩ : Fin 50000))
    (V c main_v181 : S50000x256.Idx → Elt Ideal .f32) _ _
    (iblk6 V c 0 t : Vec Ideal S2000x256 .f32)
    (fun r k => rows6_0 V c t (ix2 r k) _ rfl rfl) j).trans ?_
  unfold whole6
  congr 1
  funext a
  apply Fin.ext
  match a with
  | ⟨0, _⟩ => show 2000 * t.val + (j 0).val = win6_3.index t 0 * 2000 + 1 * (j 0).val; rw [ior]; omega
  | ⟨1, _⟩ => show (j 1).val = win6_3.index t 1 * 256 + 1 * (j 1).val; rw [ioc]; omega

/-- An index of the result array lies in point t's block iff each coordinate lies in the block's range on its
    axis. -/
theorem mem_blk6 (t : Fin cfg6.N) (i : S50000x256.Idx) :
    i ∈ ((cfg6.win 3).blk t).view.set ↔
      ∀ a : Fin 2, win6_3.index t a * S2000x256.size a ≤ (i a).val
        ∧ (i a).val < win6_3.index t a * S2000x256.size a + S2000x256.size a := by
  show i ∈ ((View.whole main_v191).slice (win6_3.rect t)).set ↔ _
  rw [View.set_slice_whole, Rect.mem_set_unit]
  exact Iff.rfl

/-- Every index of the result array lies in the block of some point that writes back: row r in point r / 2000's. -/
theorem cover6 (i : S50000x256.Idx) :
    ∃ t : Fin cfg6.N, (cfg6.win 3).flush t = true ∧ i ∈ ((cfg6.win 3).blk t).view.set := by
  have hi0 : (i 0).val < 50000 := (i 0).isLt
  have hi1 : (i 1).val < 256 := (i 1).isLt
  have hN : cfg6.N = 25 := N_6
  let t : Fin cfg6.N := ⟨(i 0).val / 2000, by rw [hN]; omega⟩
  obtain ⟨i0r, i0c, i1r, i1c, i2r, i2c, ior, ioc⟩ := blockIdx6 t
  have ht : t.val = (i 0).val / 2000 := rfl
  refine ⟨t, flush6_3 t, ?_⟩
  rw [mem_blk6]
  intro a
  match a with
  | ⟨0, _⟩ =>
    show win6_3.index t 0 * 2000 ≤ (i 0).val ∧ (i 0).val < win6_3.index t 0 * 2000 + 2000
    rw [ior, ht]; omega
  | ⟨1, _⟩ =>
    show win6_3.index t 1 * 256 ≤ (i 1).val ∧ (i 1).val < win6_3.index t 1 * 256 + 256
    rw [ioc]; omega

/-- After all 25 points the result array of region 6 is the head of the feature array it was entered with. -/
theorem final6 (c : Dev nD) :
    (dat6 V c).arrAt 3 cfg6.N
      = head (V c main_v181 : S50000x256.Idx → Elt Ideal .f32) (V c main_arg9 : S256x256.Idx → Elt Ideal .f32)
          (V c main_v190 : S1x256.Idx → Elt Ideal .f32) :=
  (dat6 V c).arrAt_eq_of_cover 3 (whole6 V c) (fun t _ => flushed6_eq V c t) cover6

end Cert.KernelIdeal.Val

end
-- ==== Proof.Region7.lean ====
/-
  Region 7: the output head of the second node type, computed 2000 rows at a time.

  The region's grid has 10 points. At point t the body is given rows 2000·t … 2000·t + 1999 of the node type's
  features after the second layer (20000 rows), the whole 256 × 256 weight array and the whole bias row (block
  index 0 at every point), and it writes rows 2000·t … 2000·t + 1999 of the result. Row r of the head depends on row
  r of the features only, so the block written at point t is that block of rows of the head of the whole feature
  array; the 10 blocks of rows cover the 20000 rows (row r lies in the block of point r / 2000), so after the last
  point the result array is the head of the whole feature array.
-/
import proofs.«158813_j31396210933902_1_alg».proof.Proof.Gen.KernelIdeal.Frame
import proofs.«158813_j31396210933902_1_alg».proof.Proof.Payload
import Idealize.ShloMosaic.Lib.Pipeline.Value

noncomputable section

namespace Cert.KernelIdeal.Val

open Cert.KernelIdeal Cert.KernelIdeal.Gen Idealize.ShloMosaic Idealize.ShloMosaic.TcCoe Idealize.SL.Sem
open Idealize.ShloMosaic.ValueIdx Cert.Hetero
open Idealize.ShloMosaic.Pipeline (Dat)

variable (V : (c : Dev nD) → (b : Ref sig .tc) → Buf (Elt Ideal) ((c : Thread nD τ).loc b))

/-- The block indices of region 7's windows at every point t of the grid: a window of rows is at block (t, 0), a
    window that holds a whole array stays at block (0, 0); the result window is at block (t, 0). -/
theorem blockIdx7 : ∀ t : Fin cfg7.N,
    win7_0.index t (0 : Fin 2) = t.val
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = t.val
    ∧ win7_3.index t (1 : Fin 2) = 0 :=
  (by decide +kernel : ∀ t : Fin grid7.N, _)

/-- Window 0's block at point t holds rows 2000·t … 2000·t + 1999 of the node type's features after the second layer. -/
theorem rows7_0 (c : Dev nD) (t : Fin cfg7.N) (x : S2000x256.Idx) (k : S20000x256.Idx)
    (hk0 : (k 0).val = 2000 * t.val + (x 0).val) (hk1 : (k 1).val = (x 1).val) :
    (iblk7 V c 0 t : Vec Ideal S2000x256 .f32) x = (V c main_v189 : S20000x256.Idx → Elt Ideal .f32) k := by
  obtain ⟨i0r, i0c, i1r, i1c, i2r, i2c, ior, ioc⟩ := blockIdx7 t
  unfold iblk7
  rw [View.read_apply]
  show V c main_v189 _ = V c main_v189 _
  congr 1
  funext a
  apply Fin.ext
  match a with
  | ⟨0, _⟩ => show win7_0.index t 0 * 2000 + 1 * (x 0).val = (k 0).val; rw [i0r, hk0]; omega
  | ⟨1, _⟩ => show win7_0.index t 1 * 256 + 1 * (x 1).val = (k 1).val; rw [i0c, hk1]; omega

/-- Window 1's block at every point is the whole of the head's weight array. -/
theorem whole7_1 (c : Dev nD) (t : Fin cfg7.N) :
    (iblk7 V c 1 t : Vec Ideal S256x256 .f32) = (V c main_arg11 : S256x256.Idx → Elt Ideal .f32) := by
  obtain ⟨i0r, i0c, i1r, i1c, i2r, i2c, ior, ioc⟩ := blockIdx7 t
  funext x
  unfold iblk7
  rw [View.read_apply]
  show V c main_arg11 _ = V c main_arg11 _
  congr 1
  funext a
  apply Fin.ext
  match a with
  | ⟨0, _⟩ => show win7_1.index t 0 * 256 + 1 * (x 0).val = (x 0).val; rw [i1r]; omega
  | ⟨1, _⟩ => show win7_1.index t 1 * 256 + 1 * (x 1).val = (x 1).val; rw [i1c]; omega

/-- Window 2's block at every point is the whole of the bias row. -/
theorem whole7_2 (c : Dev nD) (t : Fin cfg7.N) :
    (iblk7 V c 2 t : Vec Ideal S1x256 .f32) = (V c main_v192 : S1x256.Idx → Elt Ideal .f32) := by
  obtain ⟨i0r, i0c, i1r, i1c, i2r, i2c, ior, ioc⟩ := blockIdx7 t
  funext x
  unfold iblk7
  rw [View.read_apply]
  show V c main_v192 _ = V c main_v192 _
  congr 1
  funext a
  apply Fin.ext
  match a with
  | ⟨0, _⟩ => show win7_2.index t 0 * 1 + 1 * (x 0).val = (x 0).val; rw [i2r]; omega
  | ⟨1, _⟩ => show win7_2.index t 1 * 256 + 1 * (x 1).val = (x 1).val; rw [i2c]; omega

/-- The result array of region 7 as one function of the arrays the region finds: the head of the features. -/
abbrev whole7 (c : Dev nD) : S20000x256.Idx → Elt Ideal .f32 :=
  head (V c main_v189 : S20000x256.Idx → Elt Ideal .f32) (V c main_arg11 : S256x256.Idx → Elt Ideal .f32)
    (V c main_v192 : S1x256.Idx → Elt Ideal .f32)

/-- What point t writes back is rows 2000·t … 2000·t + 1999 of the head of the whole feature array. -/
theorem flushed7_eq (c : Dev nD) (t : Fin cfg7.N) :
    (dat7 V c).flushed 3 t = ((cfg7.win 3).blk t).view.read (Elt Ideal) (whole7 V c) := by
  have ht : t.val < 10 := lt_of_lt_of_eq t.isLt N_7
  obtain ⟨i0r, i0c, i1r, i1c, i2r, i2c, ior, ioc⟩ := blockIdx7 t
  show (cfg7.win 3).cut (grid7.coords t) ((dat7 V c).after 3 t) = _
  rw [after7_3]
  unfold out7_3
  rw [View.canon_unit_zero Payload.zeros2]
  simp only [View.ld_unit_zero (S := S2000x256) Payload.zeros2,
    View.ld_unit_zero (S := S256x256) Payload.zeros2,
    View.ld_unit_zero (S := S1x256) Payload.zeros2]
  rw [Payload.pay7, whole7_1, whole7_2]
  funext j
  rw [View.read_apply]
  show head (iblk7 V c 0 t : Vec Ideal S2000x256 .f32) _ _ j = _
  refine (head_rows (fun r : Fin 2000 => (⟨2000 * t.val + r.val, by have := r.isLt; omega⟩ : Fin 20000))
    (V c main_v189 : S20000x256.Idx → Elt Ideal .f32) _ _
    (iblk7 V c 0 t : Vec Ideal S2000x256 .f32)
    (fun r k => rows7_0 V c t (ix2 r k) _ rfl rfl) j).trans ?_
  unfold whole7
  congr 1
  funext a
  apply Fin.ext
  match a with
  | ⟨0, _⟩ => show 2000 * t.val + (j 0).val = win7_3.index t 0 * 2000 + 1 * (j 0).val; rw [ior]; omega
  | ⟨1, _⟩ => show (j 1).val = win7_3.index t 1 * 256 + 1 * (j 1).val; rw [ioc]; omega

/-- An index of the result array lies in point t's block iff each coordinate lies in the block's range on its
    axis. -/
theorem mem_blk7 (t : Fin cfg7.N) (i : S20000x256.Idx) :
    i ∈ ((cfg7.win 3).blk t).view.set ↔
      ∀ a : Fin 2, win7_3.index t a * S2000x256.size a ≤ (i a).val
        ∧ (i a).val < win7_3.index t a * S2000x256.size a + S2000x256.size a := by
  show i ∈ ((View.whole main_v193).slice (win7_3.rect t)).set ↔ _
  rw [View.set_slice_whole, Rect.mem_set_unit]
  exact Iff.rfl

/-- Every index of the result array lies in the block of some point that writes back: row r in point r / 2000's. -/
theorem cover7 (i : S20000x256.Idx) :
    ∃ t : Fin cfg7.N, (cfg7.win 3).flush t = true ∧ i ∈ ((cfg7.win 3).blk t).view.set := by
  have hi0 : (i 0).val < 20000 := (i 0).isLt
  have hi1 : (i 1).val < 256 := (i 1).isLt
  have hN : cfg7.N = 10 := N_7
  let t : Fin cfg7.N := ⟨(i 0).val / 2000, by rw [hN]; omega⟩
  obtain ⟨i0r, i0c, i1r, i1c, i2r, i2c, ior, ioc⟩ := blockIdx7 t
  have ht : t.val = (i 0).val / 2000 := rfl
  refine ⟨t, flush7_3 t, ?_⟩
  rw [mem_blk7]
  intro a
  match a with
  | ⟨0, _⟩ =>
    show win7_3.index t 0 * 2000 ≤ (i 0).val ∧ (i 0).val < win7_3.index t 0 * 2000 + 2000
    rw [ior, ht]; omega
  | ⟨1, _⟩ =>
    show win7_3.index t 1 * 256 ≤ (i 1).val ∧ (i 1).val < win7_3.index t 1 * 256 + 256
    rw [ioc]; omega

/-- After all 10 points the result array of region 7 is the head of the feature array it was entered with. -/
theorem final7 (c : Dev nD) :
    (dat7 V c).arrAt 3 cfg7.N
      = head (V c main_v189 : S20000x256.Idx → Elt Ideal .f32) (V c main_arg11 : S256x256.Idx → Elt Ideal .f32)
          (V c main_v192 : S1x256.Idx → Elt Ideal .f32) :=
  (dat7 V c).arrAt_eq_of_cover 3 (whole7 V c) (fun t _ => flushed7_eq V c t) cover7

end Cert.KernelIdeal.Val

end
-- ==== Proof.ChainRegions.lean ====
/-
  Each region's output array from the arrays it is entered with: the region's dense form applied to its input arrays,
  whatever values those arrays are known to hold at the region's entry.
-/
import proofs.«158813_j31396210933902_1_alg».proof.Proof.Region0
import proofs.«158813_j31396210933902_1_alg».proof.Proof.Region1
import proofs.«158813_j31396210933902_1_alg».proof.Proof.Region2
import proofs.«158813_j31396210933902_1_alg».proof.Proof.Region3
import proofs.«158813_j31396210933902_1_alg».proof.Proof.Region4
import proofs.«158813_j31396210933902_1_alg».proof.Proof.Region5
import proofs.«158813_j31396210933902_1_alg».proof.Proof.Region6
import proofs.«158813_j31396210933902_1_alg».proof.Proof.Region7
import proofs.«158813_j31396210933902_1_alg».proof.Proof.ChainDefs

set_option maxRecDepth 16384

noncomputable section

namespace Cert.KernelIdeal.Val

open Idealize.ShloMosaic Idealize.ShloMosaic.TcCoe Idealize.ShloMosaic.StableHlo
open Idealize.SL Idealize.SL.Sem
open Cert.Hetero

variable (m : (ℓ : Loc nD τ sig) → Buf (Elt Ideal) ℓ) (ρ : Dev nD → PrngReg)

/-- Region 0: `main_v1` at its exit. -/
theorem R0_out (c : Dev nD) (x : (⟨S50000x256, .f32⟩ : BufTy).Contents (Elt Ideal)) (w : (⟨S256x256, .f32⟩ : BufTy).Contents (Elt Ideal)) (b : (⟨S1x256, .f32⟩ : BufTy).Contents (Elt Ideal))
    (h0 : Gen.W1 m ρ c (Proc.devRef .tc main_arg0) = x)
    (h1 : Gen.W1 m ρ c (Proc.devRef .tc main_arg2) = w)
    (h2 : Gen.W1 m ρ c (Proc.devRef .tc main_v0) = b) :
    Gen.W2 m ρ c (Proc.devRef .tc main_v1) = proj x w b := by
  subst h0 h1 h2
  exact (Gen.W2_arr m ρ c 3).trans (final0 (Gen.V1 m ρ) c)

/-- Region 1: `main_v3` at its exit. -/
theorem R1_out (c : Dev nD) (x : (⟨S20000x128, .f32⟩ : BufTy).Contents (Elt Ideal)) (w : (⟨S128x256, .f32⟩ : BufTy).Contents (Elt Ideal)) (b : (⟨S1x256, .f32⟩ : BufTy).Contents (Elt Ideal))
    (h0 : Gen.W3 m ρ c (Proc.devRef .tc main_arg1) = x)
    (h1 : Gen.W3 m ρ c (Proc.devRef .tc main_arg4) = w)
    (h2 : Gen.W3 m ρ c (Proc.devRef .tc main_v2) = b) :
    Gen.W4 m ρ c (Proc.devRef .tc main_v3) = proj x w b := by
  subst h0 h1 h2
  exact (Gen.W4_arr m ρ c 3).trans (final1 (Gen.V3 m ρ) c)

/-- Region 2: `main_v88` at its exit. -/
theorem R2_out (c : Dev nD) (a₁ : (⟨S50000x256, .f32⟩ : BufTy).Contents (Elt Ideal)) (w₁ : (⟨S256x256, .f32⟩ : BufTy).Contents (Elt Ideal)) (a₂ : (⟨S50000x256, .f32⟩ : BufTy).Contents (Elt Ideal)) (w₂ : (⟨S256x256, .f32⟩ : BufTy).Contents (Elt Ideal)) (a₃ : (⟨S50000x256, .f32⟩ : BufTy).Contents (Elt Ideal)) (w₃ : (⟨S256x256, .f32⟩ : BufTy).Contents (Elt Ideal)) (b : (⟨S1x256, .f32⟩ : BufTy).Contents (Elt Ideal))
    (h0 : Gen.W5 m ρ c (Proc.devRef .tc main_v26) = a₁)
    (h1 : Gen.W5 m ρ c (Proc.devRef .tc main_v84) = w₁)
    (h2 : Gen.W5 m ρ c (Proc.devRef .tc main_v72) = a₂)
    (h3 : Gen.W5 m ρ c (Proc.devRef .tc main_v86) = w₂)
    (h4 : Gen.W5 m ρ c (Proc.devRef .tc main_v1) = a₃)
    (h5 : Gen.W5 m ρ c (Proc.devRef .tc main_v77) = w₃)
    (h6 : Gen.W5 m ρ c (Proc.devRef .tc main_v87) = b) :
    Gen.W6 m ρ c (Proc.devRef .tc main_v88) = mix3 a₁ w₁ a₂ w₂ a₃ w₃ b := by
  subst h0 h1 h2 h3 h4 h5 h6
  exact (Gen.W6_arr m ρ c 7).trans (final2 (Gen.V5 m ρ) c)

/-- Region 3: `main_v96` at its exit. -/
theorem R3_out (c : Dev nD) (a₁ : (⟨S20000x256, .f32⟩ : BufTy).Contents (Elt Ideal)) (w₁ : (⟨S256x256, .f32⟩ : BufTy).Contents (Elt Ideal)) (a₂ : (⟨S20000x256, .f32⟩ : BufTy).Contents (Elt Ideal)) (w₂ : (⟨S256x256, .f32⟩ : BufTy).Contents (Elt Ideal)) (b : (⟨S1x256, .f32⟩ : BufTy).Contents (Elt Ideal))
    (h0 : Gen.W7 m ρ c (Proc.devRef .tc main_v49) = a₁)
    (h1 : Gen.W7 m ρ c (Proc.devRef .tc main_v90) = w₁)
    (h2 : Gen.W7 m ρ c (Proc.devRef .tc main_v3) = a₂)
    (h3 : Gen.W7 m ρ c (Proc.devRef .tc main_v92) = w₂)
    (h4 : Gen.W7 m ρ c (Proc.devRef .tc main_v95) = b) :
    Gen.W8 m ρ c (Proc.devRef .tc main_v96) = mix2 a₁ w₁ a₂ w₂ b := by
  subst h0 h1 h2 h3 h4
  exact (Gen.W8_arr m ρ c 5).trans (final3 (Gen.V7 m ρ) c)

/-- Region 4: `main_v181` at its exit. -/
theorem R4_out (c : Dev nD) (a₁ : (⟨S50000x256, .f32⟩ : BufTy).Contents (Elt Ideal)) (w₁ : (⟨S256x256, .f32⟩ : BufTy).Contents (Elt Ideal)) (a₂ : (⟨S50000x256, .f32⟩ : BufTy).Contents (Elt Ideal)) (w₂ : (⟨S256x256, .f32⟩ : BufTy).Contents (Elt Ideal)) (a₃ : (⟨S50000x256, .f32⟩ : BufTy).Contents (Elt Ideal)) (w₃ : (⟨S256x256, .f32⟩ : BufTy).Contents (Elt Ideal)) (b : (⟨S1x256, .f32⟩ : BufTy).Contents (Elt Ideal))
    (h0 : Gen.W9 m ρ c (Proc.devRef .tc main_v119) = a₁)
    (h1 : Gen.W9 m ρ c (Proc.devRef .tc main_v177) = w₁)
    (h2 : Gen.W9 m ρ c (Proc.devRef .tc main_v165) = a₂)
    (h3 : Gen.W9 m ρ c (Proc.devRef .tc main_v179) = w₂)
    (h4 : Gen.W9 m ρ c (Proc.devRef .tc main_v88) = a₃)
    (h5 : Gen.W9 m ρ c (Proc.devRef .tc main_v170) = w₃)
    (h6 : Gen.W9 m ρ c (Proc.devRef .tc main_v180) = b) :
    Gen.W10 m ρ c (Proc.devRef .tc main_v181) = mix3 a₁ w₁ a₂ w₂ a₃ w₃ b := by
  subst h0 h1 h2 h3 h4 h5 h6
  exact (Gen.W10_arr m ρ c 7).trans (final4 (Gen.V9 m ρ) c)

/-- Region 5: `main_v189` at its exit. -/
theorem R5_out (c : Dev nD) (a₁ : (⟨S20000x256, .f32⟩ : BufTy).Contents (Elt Ideal)) (w₁ : (⟨S256x256, .f32⟩ : BufTy).Contents (Elt Ideal)) (a₂ : (⟨S20000x256, .f32⟩ : BufTy).Contents (Elt Ideal)) (w₂ : (⟨S256x256, .f32⟩ : BufTy).Contents (Elt Ideal)) (b : (⟨S1x256, .f32⟩ : BufTy).Contents (Elt Ideal))
    (h0 : Gen.W11 m ρ c (Proc.devRef .tc main_v142) = a₁)
    (h1 : Gen.W11 m ρ c (Proc.devRef .tc main_v183) = w₁)
    (h2 : Gen.W11 m ρ c (Proc.devRef .tc main_v96) = a₂)
    (h3 : Gen.W11 m ρ c (Proc.devRef .tc main_v185) = w₂)
    (h4 : Gen.W11 m ρ c (Proc.devRef .tc main_v188) = b) :
    Gen.W12 m ρ c (Proc.devRef .tc main_v189) = mix2 a₁ w₁ a₂ w₂ b := by
  subst h0 h1 h2 h3 h4
  exact (Gen.W12_arr m ρ c 5).trans (final5 (Gen.V11 m ρ) c)

/-- Region 6: `main_v191` at its exit. -/
theorem R6_out (c : Dev nD) (x : (⟨S50000x256, .f32⟩ : BufTy).Contents (Elt Ideal)) (w : (⟨S256x256, .f32⟩ : BufTy).Contents (Elt Ideal)) (b : (⟨S1x256, .f32⟩ : BufTy).Contents (Elt Ideal))
    (h0 : Gen.W13 m ρ c (Proc.devRef .tc main_v181) = x)
    (h1 : Gen.W13 m ρ c (Proc.devRef .tc main_arg9) = w)
    (h2 : Gen.W13 m ρ c (Proc.devRef .tc main_v190) = b) :
    Gen.W14 m ρ c (Proc.devRef .tc main_v191) = head x w b := by
  subst h0 h1 h2
  exact (Gen.W14_arr m ρ c 3).trans (final6 (Gen.V13 m ρ) c)

/-- Region 7: `main_v193` at its exit. -/
theorem R7_out (c : Dev nD) (x : (⟨S20000x256, .f32⟩ : BufTy).Contents (Elt Ideal)) (w : (⟨S256x256, .f32⟩ : BufTy).Contents (Elt Ideal)) (b : (⟨S1x256, .f32⟩ : BufTy).Contents (Elt Ideal))
    (h0 : Gen.W15 m ρ c (Proc.devRef .tc main_v189) = x)
    (h1 : Gen.W15 m ρ c (Proc.devRef .tc main_arg11) = w)
    (h2 : Gen.W15 m ρ c (Proc.devRef .tc main_v192) = b) :
    Gen.W16 m ρ c (Proc.devRef .tc main_v193) = head x w b := by
  subst h0 h1 h2
  exact (Gen.W16_arr m ρ c 3).trans (final7 (Gen.V15 m ρ) c)

end Cert.KernelIdeal.Val

end
-- ==== Proof.ChainOut.lean ====
/-
  The kernel program's two results as functions of its argument arrays.

  The buffer contents at the sixteen segment boundaries are walked from the launch memory forward: at each boundary
  every buffer a later segment reads is identified — a host stretch's result by the stretch's operations, a region's
  output by its dense form, anything else by what it held at the boundary before — until the last boundary, where
  the two result arrays hold `out0` and `out1` of the argument arrays.
-/
import proofs.«158813_j31396210933902_1_alg».proof.Proof.ChainKeep
import proofs.«158813_j31396210933902_1_alg».proof.Proof.ChainDefs
import proofs.«158813_j31396210933902_1_alg».proof.Proof.ChainHostA
import proofs.«158813_j31396210933902_1_alg».proof.Proof.ChainHost2
import proofs.«158813_j31396210933902_1_alg».proof.Proof.ChainHost4
import proofs.«158813_j31396210933902_1_alg».proof.Proof.ChainRegions

set_option maxRecDepth 16384

noncomputable section

namespace Cert.KernelIdeal.Val

open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-! ## Boundary 1 (after host stretch 0) -/
theorem B1_v0 (c : Dev nD) :
    Gen.W1 m ρ c (Proc.devRef .tc main_v0) = biasRow (m ((c : Thread nD τ).loc main_arg3)) :=
  H0_v0 m ρ c _ (W0_arg m ρ c main_arg3 (by decide))

/-! ## Boundary 2 (after region 0) -/
theorem B2_v1 (c : Dev nD) :
    Gen.W2 m ρ c (Proc.devRef .tc main_v1) = hg0 (m ((c : Thread nD τ).loc main_arg0)) (m ((c : Thread nD τ).loc main_arg2)) (m ((c : Thread nD τ).loc main_arg3)) :=
  R0_out m ρ c _ _ _ (W1_arg m ρ c main_arg0 (by decide)) (W1_arg m ρ c main_arg2 (by decide)) (B1_v0 m ρ c)

/-! ## Boundary 3 (after host stretch 1) -/
theorem B3_v2 (c : Dev nD) :
    Gen.W3 m ρ c (Proc.devRef .tc main_v2) = biasRow (m ((c : Thread nD τ).loc main_arg5)) :=
  H1_v2 m ρ c _ (W2_arg m ρ c main_arg5 (by decide))
theorem B3_v1 (c : Dev nD) :
    Gen.W3 m ρ c (Proc.devRef .tc main_v1) = hg0 (m ((c : Thread nD τ).loc main_arg0)) (m ((c : Thread nD τ).loc main_arg2)) (m ((c : Thread nD τ).loc main_arg3)) :=
  (keepH1 m ρ c main_v1 (by decide)).trans (B2_v1 m ρ c)

/-! ## Boundary 4 (after region 1) -/
theorem B4_v3 (c : Dev nD) :
    Gen.W4 m ρ c (Proc.devRef .tc main_v3) = hp0 (m ((c : Thread nD τ).loc main_arg1)) (m ((c : Thread nD τ).loc main_arg4)) (m ((c : Thread nD τ).loc main_arg5)) :=
  R1_out m ρ c _ _ _ (W3_arg m ρ c main_arg1 (by decide)) (W3_arg m ρ c main_arg4 (by decide)) (B3_v2 m ρ c)
theorem B4_v1 (c : Dev nD) :
    Gen.W4 m ρ c (Proc.devRef .tc main_v1) = hg0 (m ((c : Thread nD τ).loc main_arg0)) (m ((c : Thread nD τ).loc main_arg2)) (m ((c : Thread nD τ).loc main_arg3)) :=
  (keepR1 m ρ c main_v1 (by decide)).trans (B3_v1 m ρ c)

/-! ## Boundary 5 (after host stretch 2) -/
theorem B5_v26 (c : Dev nD) :
    Gen.W5 m ρ c (Proc.devRef .tc main_v26) = meanGG (hg0 (m ((c : Thread nD τ).loc main_arg0)) (m ((c : Thread nD τ).loc main_arg2)) (m ((c : Thread nD τ).loc main_arg3))) (m ((c : Thread nD τ).loc main_arg13)) :=
  H2_v26 m ρ c _ _ (B4_v1 m ρ c) (W4_arg m ρ c main_arg13 (by decide))
theorem B5_v49 (c : Dev nD) :
    Gen.W5 m ρ c (Proc.devRef .tc main_v49) = meanGP (hg0 (m ((c : Thread nD τ).loc main_arg0)) (m ((c : Thread nD τ).loc main_arg2)) (m ((c : Thread nD τ).loc main_arg3))) (m ((c : Thread nD τ).loc main_arg14)) :=
  H2_v49 m ρ c _ _ (B4_v1 m ρ c) (W4_arg m ρ c main_arg14 (by decide))
theorem B5_v72 (c : Dev nD) :
    Gen.W5 m ρ c (Proc.devRef .tc main_v72) = meanPG (hp0 (m ((c : Thread nD τ).loc main_arg1)) (m ((c : Thread nD τ).loc main_arg4)) (m ((c : Thread nD τ).loc main_arg5))) (m ((c : Thread nD τ).loc main_arg15)) :=
  H2_v72 m ρ c _ _ (B4_v3 m ρ c) (W4_arg m ρ c main_arg15 (by decide))
theorem B5_v77 (c : Dev nD) :
    Gen.W5 m ρ c (Proc.devRef .tc main_v77) = wPair0 (m ((c : Thread nD τ).loc main_arg8)) :=
  H2_v77 m ρ c _ (W4_arg m ρ c main_arg8 (by decide))
theorem B5_v84 (c : Dev nD) :
    Gen.W5 m ρ c (Proc.devRef .tc main_v84) = wAt00 (m ((c : Thread nD τ).loc main_arg6)) :=
  H2_v84 m ρ c _ (W4_arg m ρ c main_arg6 (by decide))
theorem B5_v86 (c : Dev nD) :
    Gen.W5 m ρ c (Proc.devRef .tc main_v86) = wAt02 (m ((c : Thread nD τ).loc main_arg6)) :=
  H2_v86 m ρ c _ (W4_arg m ρ c main_arg6 (by decide))
theorem B5_v87 (c : Dev nD) :
    Gen.W5 m ρ c (Proc.devRef .tc main_v87) = biasRow (bPair0 (m ((c : Thread nD τ).loc main_arg7))) :=
  H2_v87 m ρ c _ (W4_arg m ρ c main_arg7 (by decide))
theorem B5_v1 (c : Dev nD) :
    Gen.W5 m ρ c (Proc.devRef .tc main_v1) = hg0 (m ((c : Thread nD τ).loc main_arg0)) (m ((c : Thread nD τ).loc main_arg2)) (m ((c : Thread nD τ).loc main_arg3)) :=
  (keepH2 m ρ c main_v1 (by decide)).trans (B4_v1 m ρ c)
theorem B5_v3 (c : Dev nD) :
    Gen.W5 m ρ c (Proc.devRef .tc main_v3) = hp0 (m ((c : Thread nD τ).loc main_arg1)) (m ((c : Thread nD τ).loc main_arg4)) (m ((c : Thread nD τ).loc main_arg5)) :=
  (keepH2 m ρ c main_v3 (by decide)).trans (B4_v3 m ρ c)

/-! ## Boundary 6 (after region 2) -/
theorem B6_v88 (c : Dev nD) :
    Gen.W6 m ρ c (Proc.devRef .tc main_v88) = hg1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) :=
  R2_out m ρ c _ _ _ _ _ _ _ (B5_v26 m ρ c) (B5_v84 m ρ c) (B5_v72 m ρ c) (B5_v86 m ρ c) (B5_v1 m ρ c) (B5_v77 m ρ c) (B5_v87 m ρ c)
theorem B6_v49 (c : Dev nD) :
    Gen.W6 m ρ c (Proc.devRef .tc main_v49) = meanGP (hg0 (m ((c : Thread nD τ).loc main_arg0)) (m ((c : Thread nD τ).loc main_arg2)) (m ((c : Thread nD τ).loc main_arg3))) (m ((c : Thread nD τ).loc main_arg14)) :=
  (keepR2 m ρ c main_v49 (by decide)).trans (B5_v49 m ρ c)
theorem B6_v3 (c : Dev nD) :
    Gen.W6 m ρ c (Proc.devRef .tc main_v3) = hp0 (m ((c : Thread nD τ).loc main_arg1)) (m ((c : Thread nD τ).loc main_arg4)) (m ((c : Thread nD τ).loc main_arg5)) :=
  (keepR2 m ρ c main_v3 (by decide)).trans (B5_v3 m ρ c)

/-! ## Boundary 7 (after host stretch 3) -/
theorem B7_v90 (c : Dev nD) :
    Gen.W7 m ρ c (Proc.devRef .tc main_v90) = wAt01 (m ((c : Thread nD τ).loc main_arg6)) :=
  H3_v90 m ρ c _ (W6_arg m ρ c main_arg6 (by decide))
theorem B7_v92 (c : Dev nD) :
    Gen.W7 m ρ c (Proc.devRef .tc main_v92) = wAt01 (m ((c : Thread nD τ).loc main_arg8)) :=
  H3_v92 m ρ c _ (W6_arg m ρ c main_arg8 (by decide))
theorem B7_v95 (c : Dev nD) :
    Gen.W7 m ρ c (Proc.devRef .tc main_v95) = biasRow (bAt01 (m ((c : Thread nD τ).loc main_arg7))) :=
  H3_v95 m ρ c _ (W6_arg m ρ c main_arg7 (by decide))
theorem B7_v49 (c : Dev nD) :
    Gen.W7 m ρ c (Proc.devRef .tc main_v49) = meanGP (hg0 (m ((c : Thread nD τ).loc main_arg0)) (m ((c : Thread nD τ).loc main_arg2)) (m ((c : Thread nD τ).loc main_arg3))) (m ((c : Thread nD τ).loc main_arg14)) :=
  (keepH3 m ρ c main_v49 (by decide)).trans (B6_v49 m ρ c)
theorem B7_v3 (c : Dev nD) :
    Gen.W7 m ρ c (Proc.devRef .tc main_v3) = hp0 (m ((c : Thread nD τ).loc main_arg1)) (m ((c : Thread nD τ).loc main_arg4)) (m ((c : Thread nD τ).loc main_arg5)) :=
  (keepH3 m ρ c main_v3 (by decide)).trans (B6_v3 m ρ c)
theorem B7_v88 (c : Dev nD) :
    Gen.W7 m ρ c (Proc.devRef .tc main_v88) = hg1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) :=
  (keepH3 m ρ c main_v88 (by decide)).trans (B6_v88 m ρ c)

/-! ## Boundary 8 (after region 3) -/
theorem B8_v96 (c : Dev nD) :
    Gen.W8 m ρ c (Proc.devRef .tc main_v96) = hp1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) :=
  R3_out m ρ c _ _ _ _ _ (B7_v49 m ρ c) (B7_v90 m ρ c) (B7_v3 m ρ c) (B7_v92 m ρ c) (B7_v95 m ρ c)
theorem B8_v88 (c : Dev nD) :
    Gen.W8 m ρ c (Proc.devRef .tc main_v88) = hg1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) :=
  (keepR3 m ρ c main_v88 (by decide)).trans (B7_v88 m ρ c)

/-! ## Boundary 9 (after host stretch 4) -/
theorem B9_v119 (c : Dev nD) :
    Gen.W9 m ρ c (Proc.devRef .tc main_v119) = meanGG (hg1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15))) (m ((c : Thread nD τ).loc main_arg13)) :=
  H4_v119 m ρ c _ _ (B8_v88 m ρ c) (W8_arg m ρ c main_arg13 (by decide))
theorem B9_v142 (c : Dev nD) :
    Gen.W9 m ρ c (Proc.devRef .tc main_v142) = meanGP (hg1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15))) (m ((c : Thread nD τ).loc main_arg14)) :=
  H4_v142 m ρ c _ _ (B8_v88 m ρ c) (W8_arg m ρ c main_arg14 (by decide))
theorem B9_v165 (c : Dev nD) :
    Gen.W9 m ρ c (Proc.devRef .tc main_v165) = meanPG (hp1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15))) (m ((c : Thread nD τ).loc main_arg15)) :=
  H4_v165 m ρ c _ _ (B8_v96 m ρ c) (W8_arg m ρ c main_arg15 (by decide))
theorem B9_v170 (c : Dev nD) :
    Gen.W9 m ρ c (Proc.devRef .tc main_v170) = wPair1 (m ((c : Thread nD τ).loc main_arg8)) :=
  H4_v170 m ρ c _ (W8_arg m ρ c main_arg8 (by decide))
theorem B9_v177 (c : Dev nD) :
    Gen.W9 m ρ c (Proc.devRef .tc main_v177) = wAt10 (m ((c : Thread nD τ).loc main_arg6)) :=
  H4_v177 m ρ c _ (W8_arg m ρ c main_arg6 (by decide))
theorem B9_v179 (c : Dev nD) :
    Gen.W9 m ρ c (Proc.devRef .tc main_v179) = wAt12 (m ((c : Thread nD τ).loc main_arg6)) :=
  H4_v179 m ρ c _ (W8_arg m ρ c main_arg6 (by decide))
theorem B9_v180 (c : Dev nD) :
    Gen.W9 m ρ c (Proc.devRef .tc main_v180) = biasRow (bPair1 (m ((c : Thread nD τ).loc main_arg7))) :=
  H4_v180 m ρ c _ (W8_arg m ρ c main_arg7 (by decide))
theorem B9_v88 (c : Dev nD) :
    Gen.W9 m ρ c (Proc.devRef .tc main_v88) = hg1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) :=
  (keepH4 m ρ c main_v88 (by decide)).trans (B8_v88 m ρ c)
theorem B9_v96 (c : Dev nD) :
    Gen.W9 m ρ c (Proc.devRef .tc main_v96) = hp1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) :=
  (keepH4 m ρ c main_v96 (by decide)).trans (B8_v96 m ρ c)

/-! ## Boundary 10 (after region 4) -/
theorem B10_v181 (c : Dev nD) :
    Gen.W10 m ρ c (Proc.devRef .tc main_v181) = hg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) :=
  R4_out m ρ c _ _ _ _ _ _ _ (B9_v119 m ρ c) (B9_v177 m ρ c) (B9_v165 m ρ c) (B9_v179 m ρ c) (B9_v88 m ρ c) (B9_v170 m ρ c) (B9_v180 m ρ c)
theorem B10_v142 (c : Dev nD) :
    Gen.W10 m ρ c (Proc.devRef .tc main_v142) = meanGP (hg1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15))) (m ((c : Thread nD τ).loc main_arg14)) :=
  (keepR4 m ρ c main_v142 (by decide)).trans (B9_v142 m ρ c)
theorem B10_v96 (c : Dev nD) :
    Gen.W10 m ρ c (Proc.devRef .tc main_v96) = hp1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) :=
  (keepR4 m ρ c main_v96 (by decide)).trans (B9_v96 m ρ c)

/-! ## Boundary 11 (after host stretch 5) -/
theorem B11_v183 (c : Dev nD) :
    Gen.W11 m ρ c (Proc.devRef .tc main_v183) = wAt11 (m ((c : Thread nD τ).loc main_arg6)) :=
  H5_v183 m ρ c _ (W10_arg m ρ c main_arg6 (by decide))
theorem B11_v185 (c : Dev nD) :
    Gen.W11 m ρ c (Proc.devRef .tc main_v185) = wAt11 (m ((c : Thread nD τ).loc main_arg8)) :=
  H5_v185 m ρ c _ (W10_arg m ρ c main_arg8 (by decide))
theorem B11_v188 (c : Dev nD) :
    Gen.W11 m ρ c (Proc.devRef .tc main_v188) = biasRow (bAt11 (m ((c : Thread nD τ).loc main_arg7))) :=
  H5_v188 m ρ c _ (W10_arg m ρ c main_arg7 (by decide))
theorem B11_v142 (c : Dev nD) :
    Gen.W11 m ρ c (Proc.devRef .tc main_v142) = meanGP (hg1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15))) (m ((c : Thread nD τ).loc main_arg14)) :=
  (keepH5 m ρ c main_v142 (by decide)).trans (B10_v142 m ρ c)
theorem B11_v96 (c : Dev nD) :
    Gen.W11 m ρ c (Proc.devRef .tc main_v96) = hp1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) :=
  (keepH5 m ρ c main_v96 (by decide)).trans (B10_v96 m ρ c)
theorem B11_v181 (c : Dev nD) :
    Gen.W11 m ρ c (Proc.devRef .tc main_v181) = hg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) :=
  (keepH5 m ρ c main_v181 (by decide)).trans (B10_v181 m ρ c)

/-! ## Boundary 12 (after region 5) -/
theorem B12_v189 (c : Dev nD) :
    Gen.W12 m ρ c (Proc.devRef .tc main_v189) = hp2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) :=
  R5_out m ρ c _ _ _ _ _ (B11_v142 m ρ c) (B11_v183 m ρ c) (B11_v96 m ρ c) (B11_v185 m ρ c) (B11_v188 m ρ c)
theorem B12_v181 (c : Dev nD) :
    Gen.W12 m ρ c (Proc.devRef .tc main_v181) = hg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) :=
  (keepR5 m ρ c main_v181 (by decide)).trans (B11_v181 m ρ c)

/-! ## Boundary 13 (after host stretch 6) -/
theorem B13_v190 (c : Dev nD) :
    Gen.W13 m ρ c (Proc.devRef .tc main_v190) = biasRow (m ((c : Thread nD τ).loc main_arg10)) :=
  H6_v190 m ρ c _ (W12_arg m ρ c main_arg10 (by decide))
theorem B13_v181 (c : Dev nD) :
    Gen.W13 m ρ c (Proc.devRef .tc main_v181) = hg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) :=
  (keepH6 m ρ c main_v181 (by decide)).trans (B12_v181 m ρ c)
theorem B13_v189 (c : Dev nD) :
    Gen.W13 m ρ c (Proc.devRef .tc main_v189) = hp2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) :=
  (keepH6 m ρ c main_v189 (by decide)).trans (B12_v189 m ρ c)

/-! ## Boundary 14 (after region 6) -/
theorem B14_v191 (c : Dev nD) :
    Gen.W14 m ρ c (Proc.devRef .tc main_v191) = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15)) :=
  R6_out m ρ c _ _ _ (B13_v181 m ρ c) (W13_arg m ρ c main_arg9 (by decide)) (B13_v190 m ρ c)
theorem B14_v189 (c : Dev nD) :
    Gen.W14 m ρ c (Proc.devRef .tc main_v189) = hp2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) :=
  (keepR6 m ρ c main_v189 (by decide)).trans (B13_v189 m ρ c)

/-! ## Boundary 15 (after host stretch 7) -/
theorem B15_v192 (c : Dev nD) :
    Gen.W15 m ρ c (Proc.devRef .tc main_v192) = biasRow (m ((c : Thread nD τ).loc main_arg12)) :=
  H7_v192 m ρ c _ (W14_arg m ρ c main_arg12 (by decide))
theorem B15_v189 (c : Dev nD) :
    Gen.W15 m ρ c (Proc.devRef .tc main_v189) = hp2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) :=
  (keepH7 m ρ c main_v189 (by decide)).trans (B14_v189 m ρ c)
theorem B15_v191 (c : Dev nD) :
    Gen.W15 m ρ c (Proc.devRef .tc main_v191) = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15)) :=
  (keepH7 m ρ c main_v191 (by decide)).trans (B14_v191 m ρ c)

/-! ## Boundary 16 (after region 7) -/
theorem B16_v193 (c : Dev nD) :
    Gen.W16 m ρ c (Proc.devRef .tc main_v193) = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) :=
  R7_out m ρ c _ _ _ (B15_v189 m ρ c) (W15_arg m ρ c main_arg11 (by decide)) (B15_v192 m ρ c)
theorem B16_v191 (c : Dev nD) :
    Gen.W16 m ρ c (Proc.devRef .tc main_v191) = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15)) :=
  (keepR7 m ρ c main_v191 (by decide)).trans (B15_v191 m ρ c)

/-! ## The two results -/

/-- The first result array at the program's return. -/
theorem W16_out0 (c : Dev nD) :
    Gen.W16 m ρ c (Proc.devRef .tc main_v191) = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15)) :=
  B16_v191 m ρ c
/-- The second result array at the program's return. -/
theorem W16_out1 (c : Dev nD) :
    Gen.W16 m ρ c (Proc.devRef .tc main_v193) = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) :=
  B16_v193 m ρ c

end Cert.KernelIdeal.Val

end
-- ==== Proof.ChainRun.lean ====
/-
  The kernel program's run with its two results as functions of the argument arrays: from any memory with zero
  counters the program terminates without fault, and in every final state the first result array is `out0` and the
  second `out1` of the sixteen argument arrays as launched, which are themselves unchanged.
-/
import proofs.«158813_j31396210933902_1_alg».proof.Proof.KernelRun
import proofs.«158813_j31396210933902_1_alg».proof.Proof.ChainOut

set_option maxRecDepth 16384

noncomputable section

namespace Cert.KernelIdeal.Val

open Idealize.ShloMosaic Idealize.ShloMosaic.TcCoe
open Idealize.SL Idealize.SL.Sem

variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
      r.2.mem ((c.tc : Thread nD τ).loc main_v191)
        = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg13)) (m ((c.tc : Thread nD τ).loc main_arg14)) (m ((c.tc : Thread nD τ).loc main_arg15))
      ∧ r.2.mem ((c.tc : Thread nD τ).loc main_v193)
        = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono
    (fun r h c => ⟨(h c).1.trans (W16_out0 m ρ c), (h c).2.1.trans (W16_out1 m ρ c), (h c).2.2⟩)
    (run_results (F := Ideal) m ρ)

end Cert.KernelIdeal.Val

end
-- ==== Proof.FiniteArgs.lean ====
/-
  Finite inputs.

  The certificate's precondition is a conjunction over the thirteen float argument arrays: for each array x, "every
  entry of |x| is below +∞", the conjunction over all entries taken as a reduction by `and` from 1, and the thirteen
  results joined by `and`. Here it is read back: an `and` of one-bit words is 1 only if both are; a reduction by `and`
  over all axes that came out 1 met a 1 at every entry; the pattern 0x7F800000 denotes +∞; and an extended real x with
  max x (-x) < +∞ is neither -∞ nor +∞, so it is a real number. Hence every entry of every float argument is real.
-/
import proofs.«158813_j31396210933902_1_alg».proof.Defs
import proofs.«158813_j31396210933902_1_alg».proof.Proof.Gen.Pre_finite_inputs
import proofs.«158813_j31396210933902_1_alg».proof.Proof.Forms
import Idealize.ShloMosaic.Lib.ReduceAll
import Idealize.ShloMosaic.Lib.ValueIdx

noncomputable section

namespace Cert.Hetero

open Idealize.ShloMosaic

/-- The shape of a scalar has one index. -/
instance subsingleton_idx_rank0 : Subsingleton (⟨0, ![]⟩ : Shape).Idx := ⟨fun a b => funext fun d => d.elim0⟩

/-- The pattern of `+∞`. -/
theorem inf32_eq_top : Ideal.ofBits .f32 0x7F800000#32 = ⊤ := by
  simp [Ideal.ofBits, Ideal.ieee]

/-- An extended real whose absolute value `max x (-x)` is below `+∞` is a real number. -/
theorem real_of_abs_lt_inf32 (x : EReal)
    (h : Ideal.cmp .olt (max x (-x)) (Ideal.ofBits .f32 0x7F800000#32) = 1#1) : ∃ r : ℝ, x = (r : EReal) := by
  rw [inf32_eq_top] at h
  induction x using EReal.rec with
  | bot => simp [Ideal.cmp] at h
  | coe r => exact ⟨r, rfl⟩
  | top => simp [Ideal.cmp] at h

section
variable {S : Shape} {axes : List (Fin S.rank)}

/-- "All entries of `|x|` are below `+∞`", as a reduction by `and` over all axes that is 1, makes `x` real entrywise. -/
theorem isReal_of_all_abs_lt_inf32 (x : FVec Ideal S .f32)
    (hb : (⟨0, ![]⟩ : Shape).BroadcastsInDim S (![] : Fin 0 → Fin S.rank))
    (hr : S.ReducesTo axes ⟨0, ![]⟩) (hu : 0 < (⟨0, ![]⟩ : Shape).numel) (j : (⟨0, ![]⟩ : Shape).Idx)
    (h : Host.reduce IntOp.andi
          (cmpf .olt (Host.absf x) (broadcastInDim S ![] hb (constant (F := Ideal) ⟨0, ![]⟩ .f32 0x7F800000#32)))
          (constantI ⟨0, ![]⟩ 1 1#1) hr hu j = 1#1) : IsReal x := by
  intro i
  exact real_of_abs_lt_inf32 (x i) (Host.reduce_andi_all _ _ hr hu j h i)
end

end Cert.Hetero

namespace Cert.KernelIdeal.Val

open Idealize.ShloMosaic Idealize.SL.Sem Cert.Hetero

/-- Under the certificate's precondition every float argument array holds real numbers only. The precondition at the
    one index of its result is a left-nested `and` of thirteen "all entries of |x| are below +∞"; it is split from the
    right, and each part read back by `isReal_of_all_abs_lt_inf32`. -/
theorem args_real (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    IsReal (S := ⟨2, ![50000, 256]⟩) (m ((c.tc : Thread Cert.KernelIdeal.nD Cert.KernelIdeal.τ).loc Cert.KernelIdeal.main_arg0))
    ∧ IsReal (S := ⟨2, ![20000, 128]⟩) (m ((c.tc : Thread Cert.KernelIdeal.nD Cert.KernelIdeal.τ).loc Cert.KernelIdeal.main_arg1))
    ∧ IsReal (S := ⟨2, ![256, 256]⟩) (m ((c.tc : Thread Cert.KernelIdeal.nD Cert.KernelIdeal.τ).loc Cert.KernelIdeal.main_arg2))
    ∧ IsReal (S := ⟨1, ![256]⟩) (m ((c.tc : Thread Cert.KernelIdeal.nD Cert.KernelIdeal.τ).loc Cert.KernelIdeal.main_arg3))
    ∧ IsReal (S := ⟨2, ![128, 256]⟩) (m ((c.tc : Thread Cert.KernelIdeal.nD Cert.KernelIdeal.τ).loc Cert.KernelIdeal.main_arg4))
    ∧ IsReal (S := ⟨1, ![256]⟩) (m ((c.tc : Thread Cert.KernelIdeal.nD Cert.KernelIdeal.τ).loc Cert.KernelIdeal.main_arg5))
    ∧ IsReal (S := ⟨4, ![2, 3, 256, 256]⟩) (m ((c.tc : Thread Cert.KernelIdeal.nD Cert.KernelIdeal.τ).loc Cert.KernelIdeal.main_arg6))
    ∧ IsReal (S := ⟨3, ![2, 3, 256]⟩) (m ((c.tc : Thread Cert.KernelIdeal.nD Cert.KernelIdeal.τ).loc Cert.KernelIdeal.main_arg7))
    ∧ IsReal (S := ⟨4, ![2, 3, 256, 256]⟩) (m ((c.tc : Thread Cert.KernelIdeal.nD Cert.KernelIdeal.τ).loc Cert.KernelIdeal.main_arg8))
    ∧ IsReal (S := ⟨2, ![256, 256]⟩) (m ((c.tc : Thread Cert.KernelIdeal.nD Cert.KernelIdeal.τ).loc Cert.KernelIdeal.main_arg9))
    ∧ IsReal (S := ⟨1, ![256]⟩) (m ((c.tc : Thread Cert.KernelIdeal.nD Cert.KernelIdeal.τ).loc Cert.KernelIdeal.main_arg10))
    ∧ IsReal (S := ⟨2, ![256, 256]⟩) (m ((c.tc : Thread Cert.KernelIdeal.nD Cert.KernelIdeal.τ).loc Cert.KernelIdeal.main_arg11))
    ∧ IsReal (S := ⟨1, ![256]⟩) (m ((c.tc : Thread Cert.KernelIdeal.nD Cert.KernelIdeal.τ).loc Cert.KernelIdeal.main_arg12)) := by
  have h := congrFun (hpre c) ValueIdx.ix0
  dsimp only [Cert.Pre_finite_inputs.fn, Cert.Pre_finite_inputs.fn_part1, Cert.Pre_finite_inputs.fn_part2,
    Cert.Pre_finite_inputs.fn_part3, andi] at h
  obtain ⟨h, h12⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  exact ⟨isReal_of_all_abs_lt_inf32 _ _ _ _ _ h,
    isReal_of_all_abs_lt_inf32 _ _ _ _ _ h1,
    isReal_of_all_abs_lt_inf32 _ _ _ _ _ h2,
    isReal_of_all_abs_lt_inf32 _ _ _ _ _ h3,
    isReal_of_all_abs_lt_inf32 _ _ _ _ _ h4,
    isReal_of_all_abs_lt_inf32 _ _ _ _ _ h5,
    isReal_of_all_abs_lt_inf32 _ _ _ _ _ h6,
    isReal_of_all_abs_lt_inf32 _ _ _ _ _ h7,
    isReal_of_all_abs_lt_inf32 _ _ _ _ _ h8,
    isReal_of_all_abs_lt_inf32 _ _ _ _ _ h9,
    isReal_of_all_abs_lt_inf32 _ _ _ _ _ h10,
    isReal_of_all_abs_lt_inf32 _ _ _ _ _ h11,
    isReal_of_all_abs_lt_inf32 _ _ _ _ _ h12⟩

end Cert.KernelIdeal.Val

end
-- ==== Proof.RefForms.lean ====
/-
  The reference's dense stages, read on the extended reals.

  The reference computes, for each of the two node types, an input projection, two layers of message passing, and an
  output head. Every dense step is a general dot product with the plain dimension numbers (contract the left
  operand's columns with the right operand's rows), a bias vector broadcast along the rows, sums of such terms, for
  the node type with two incoming relations a product with one half, and for all but the heads the positive part.

  * `dot50`, `dot20`, `dot20in`: each of the three dot products is the product rows by columns.
  * `bias50`, `bias20`: a vector broadcast first to one row and then along the rows reads, at entry (r, c), the
    vector at c.
  * `splat_at`: a scalar constant broadcast to any shape reads the constant everywhere.
  * `v4_at`, `v9_at`: the two input projections, max (x · w + b) 0.
  * `v118_at`, `v228_at`: the two layers' update of the node type with two incoming relations,
    max ((((a₁ · w₁ + b₁) + h · u₁) + ((a₂ · w₂ + b₂) + h · u₂)) · ½) 0, with a₁, a₂ the neighbours' means, h the
    node's own feature.
  * `v119_at`, `v229_at`: the update of the node type with one incoming relation, max ((a · w + b) + h · u) 0.
  * `v233_at`, `v237_at`: the output heads, h · w + b.

  Each stage is read in terms of the earlier stages it is built from, which stay folded: first every product stage
  and every broadcast stage on its own (one definition unfolded at a time), then the sums by the stages' one-step
  equations.
-/
import proofs.«158813_j31396210933902_1_alg».proof.Proof.RefRead
import proofs.«158813_j31396210933902_1_alg».proof.Proof.Forms
import Idealize.ShloMosaic.Lib.Pipeline.Value
import Idealize.ShloMosaic.Lib.ValueIdx
import Idealize.ShloMosaic.Lib.IdealHost

set_option Elab.async false

noncomputable section

namespace Cert.ReferenceIdeal

open Cert.ReferenceIdeal.Gen Idealize.ShloMosaic Idealize.ShloMosaic.ValueIdx Idealize.ShloMosaic.PlainProduct Cert.Hetero

/-- The three dot products of the reference have the plain dimension numbers: each is the product rows by columns. -/
theorem dot50 (x : FVec Ideal S50000x256 .f32) (w : FVec Ideal S256x256 .f32) :
    Host.dotGeneral (F := Ideal) dot_S50000x256_S256x256_S50000x256_1_0_0_1_n_n none x w = rowsByCols x w :=
  dotGeneral_plain none .single x w

theorem dot20 (x : FVec Ideal S20000x256 .f32) (w : FVec Ideal S256x256 .f32) :
    Host.dotGeneral (F := Ideal) dot_S20000x256_S256x256_S20000x256_1_0_0_1_n_n none x w = rowsByCols x w :=
  dotGeneral_plain none .single x w

theorem dot20in (x : FVec Ideal S20000x128 .f32) (w : FVec Ideal S128x256 .f32) :
    Host.dotGeneral (F := Ideal) dot_S20000x128_S128x256_S20000x256_1_0_0_1_n_n none x w = rowsByCols x w :=
  dotGeneral_plain none .single x w

/-- A vector broadcast to one row and then along 50000 rows reads the vector at the column. -/
theorem bias50 {α : Type} (v : S256.Idx → α) (i : S50000x256.Idx) :
    broadcastInDim S50000x256 ![0, 1] bcast_S1x256_S50000x256_0_1 (broadcastInDim S1x256 ![1] bcast_S256_S1x256_1 v) i
      = v (ix1 (i 1)) := by
  rw [broadcastInDim_apply _ bcast_S1x256_S50000x256_0_1 _ i (ix2 (0 : Fin 1) (i 1)) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])]
  exact broadcastInDim_apply _ bcast_S256_S1x256_1 v _ (ix1 (i 1)) (fun a => match a with
    | ⟨0, _⟩ => by show (i 1).val = if (256 : Nat) = 1 then 0 else (i 1).val; rw [if_neg (by decide)])

/-- The same along 20000 rows. -/
theorem bias20 {α : Type} (v : S256.Idx → α) (i : S20000x256.Idx) :
    broadcastInDim S20000x256 ![0, 1] bcast_S1x256_S20000x256_0_1 (broadcastInDim S1x256 ![1] bcast_S256_S1x256_1 v) i
      = v (ix1 (i 1)) := by
  rw [broadcastInDim_apply _ bcast_S1x256_S20000x256_0_1 _ i (ix2 (0 : Fin 1) (i 1)) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])]
  exact broadcastInDim_apply _ bcast_S256_S1x256_1 v _ (ix1 (i 1)) (fun a => match a with
    | ⟨0, _⟩ => by show (i 1).val = if (256 : Nat) = 1 then 0 else (i 1).val; rw [if_neg (by decide)])

/-- A scalar constant broadcast to any shape reads, at every index, the extended real its pattern denotes. -/
theorem splat_at {T : Shape} (h : S_.BroadcastsInDim T (![] : Fin 0 → Fin T.rank)) (w : BitVec 32) (i : T.Idx) :
    broadcastInDim T ![] h (constant (F := Ideal) S_ .f32 w) i = Ideal.ofBits .f32 w :=
  broadcastInDim_scalar_apply h _ i

end Cert.ReferenceIdeal

namespace Cert.ReferenceIdeal.Stage

open Cert.ReferenceIdeal Cert.ReferenceIdeal.Gen Cert.ReferenceIdeal.ReadP Idealize.ShloMosaic Idealize.ShloMosaic.ValueIdx Idealize.ShloMosaic.PlainProduct Cert.Hetero

variable (x0 : FVec Ideal S50000x256 .f32) (x1 : FVec Ideal S20000x128 .f32) (x2 : FVec Ideal S256x256 .f32) (x3 : FVec Ideal S256 .f32) (x4 : FVec Ideal S128x256 .f32) (x5 : FVec Ideal S256 .f32) (x6 : FVec Ideal S2x3x256x256 .f32) (x7 : FVec Ideal S2x3x256 .f32) (x8 : FVec Ideal S2x3x256x256 .f32) (x9 : FVec Ideal S256x256 .f32) (x10 : FVec Ideal S256 .f32) (x11 : FVec Ideal S256x256 .f32) (x12 : FVec Ideal S256 .f32) (x13 : IVec S2x800000 32) (x14 : IVec S2x400000 32) (x15 : IVec S2x400000 32)

/-! ## Each product stage is a product rows by columns -/

theorem v0_fun : val_main_v0 (F := Ideal) x0 x2 = rowsByCols (φ₁ := .f32) (φ₂ := .f32) x0 x2 := by
  unfold val_main_v0; exact dot50 _ _
theorem v5_fun : val_main_v5 (F := Ideal) x1 x4 = rowsByCols (φ₁ := .f32) (φ₂ := .f32) x1 x4 := by
  unfold val_main_v5; exact dot20in _ _
theorem v39_fun : val_main_v39 (F := Ideal) x0 x2 x3 x6 x13 = rowsByCols (φ₁ := .f32) (φ₂ := .f32) (val_main_v38 (F := Ideal) x0 x2 x3 x13) (val_main_v11 (F := Ideal) x6) := by
  unfold val_main_v39; exact dot50 _ _
theorem v43_fun : val_main_v43 (F := Ideal) x0 x2 x3 x8 = rowsByCols (φ₁ := .f32) (φ₂ := .f32) (val_main_v4 (F := Ideal) x0 x2 x3) (val_main_v15 (F := Ideal) x8) := by
  unfold val_main_v43; exact dot50 _ _
theorem v109_fun : val_main_v109 (F := Ideal) x1 x4 x5 x6 x15 = rowsByCols (φ₁ := .f32) (φ₂ := .f32) (val_main_v108 (F := Ideal) x1 x4 x5 x15) (val_main_v81 (F := Ideal) x6) := by
  unfold val_main_v109; exact dot50 _ _
theorem v113_fun : val_main_v113 (F := Ideal) x0 x2 x3 x8 = rowsByCols (φ₁ := .f32) (φ₂ := .f32) (val_main_v4 (F := Ideal) x0 x2 x3) (val_main_v85 (F := Ideal) x8) := by
  unfold val_main_v113; exact dot50 _ _
theorem v74_fun : val_main_v74 (F := Ideal) x0 x2 x3 x6 x14 = rowsByCols (φ₁ := .f32) (φ₂ := .f32) (val_main_v73 (F := Ideal) x0 x2 x3 x14) (val_main_v46 (F := Ideal) x6) := by
  unfold val_main_v74; exact dot20 _ _
theorem v78_fun : val_main_v78 (F := Ideal) x1 x4 x5 x8 = rowsByCols (φ₁ := .f32) (φ₂ := .f32) (val_main_v9 (F := Ideal) x1 x4 x5) (val_main_v50 (F := Ideal) x8) := by
  unfold val_main_v78; exact dot20 _ _
theorem v149_fun : val_main_v149 (F := Ideal) x0 x1 x2 x3 x4 x5 x6 x7 x8 x13 x15 = rowsByCols (φ₁ := .f32) (φ₂ := .f32) (val_main_v148 (F := Ideal) x0 x1 x2 x3 x4 x5 x6 x7 x8 x13 x15) (val_main_v121 (F := Ideal) x6) := by
  unfold val_main_v149; exact dot50 _ _
theorem v153_fun : val_main_v153 (F := Ideal) x0 x1 x2 x3 x4 x5 x6 x7 x8 x13 x15 = rowsByCols (φ₁ := .f32) (φ₂ := .f32) (val_main_v118 (F := Ideal) x0 x1 x2 x3 x4 x5 x6 x7 x8 x13 x15) (val_main_v125 (F := Ideal) x8) := by
  unfold val_main_v153; exact dot50 _ _
theorem v219_fun : val_main_v219 (F := Ideal) x0 x1 x2 x3 x4 x5 x6 x7 x8 x14 x15 = rowsByCols (φ₁ := .f32) (φ₂ := .f32) (val_main_v218 (F := Ideal) x0 x1 x2 x3 x4 x5 x6 x7 x8 x14 x15) (val_main_v191 (F := Ideal) x6) := by
  unfold val_main_v219; exact dot50 _ _
theorem v223_fun : val_main_v223 (F := Ideal) x0 x1 x2 x3 x4 x5 x6 x7 x8 x13 x15 = rowsByCols (φ₁ := .f32) (φ₂ := .f32) (val_main_v118 (F := Ideal) x0 x1 x2 x3 x4 x5 x6 x7 x8 x13 x15) (val_main_v195 (F := Ideal) x8) := by
  unfold val_main_v223; exact dot50 _ _
theorem v184_fun : val_main_v184 (F := Ideal) x0 x1 x2 x3 x4 x5 x6 x7 x8 x13 x14 x15 = rowsByCols (φ₁ := .f32) (φ₂ := .f32) (val_main_v183 (F := Ideal) x0 x1 x2 x3 x4 x5 x6 x7 x8 x13 x14 x15) (val_main_v156 (F := Ideal) x6) := by
  unfold val_main_v184; exact dot20 _ _
theorem v188_fun : val_main_v188 (F := Ideal) x0 x1 x2 x3 x4 x5 x6 x7 x8 x14 = rowsByCols (φ₁ := .f32) (φ₂ := .f32) (val_main_v119 (F := Ideal) x0 x1 x2 x3 x4 x5 x6 x7 x8 x14) (val_main_v160 (F := Ideal) x8) := by
  unfold val_main_v188; exact dot20 _ _
theorem v230_fun : val_main_v230 (F := Ideal) x0 x1 x2 x3 x4 x5 x6 x7 x8 x9 x13 x14 x15 = rowsByCols (φ₁ := .f32) (φ₂ := .f32) (val_main_v228 (F := Ideal) x0 x1 x2 x3 x4 x5 x6 x7 x8 x13 x14 x15) x9 := by
  unfold val_main_v230; exact dot50 _ _
theorem v234_fun : val_main_v234 (F := Ideal) x0 x1 x2 x3 x4 x5 x6 x7 x8 x11 x13 x14 x15 = rowsByCols (φ₁ := .f32) (φ₂ := .f32) (val_main_v229 (F := Ideal) x0 x1 x2 x3 x4 x5 x6 x7 x8 x13 x14 x15) x11 := by
  unfold val_main_v234; exact dot20 _ _

/-! ## Each broadcast bias row reads the bias vector at the column -/

theorem v2_at (i : S50000x256.Idx) : val_main_v2 (F := Ideal) x3 i = x3 (ix1 (i 1)) := by
  unfold val_main_v2 val_main_v1; exact bias50 _ i
theorem v7_at (i : S20000x256.Idx) : val_main_v7 (F := Ideal) x5 i = x5 (ix1 (i 1)) := by
  unfold val_main_v7 val_main_v6; exact bias20 _ i
theorem v41_at (i : S50000x256.Idx) : val_main_v41 (F := Ideal) x7 i = val_main_v13 (F := Ideal) x7 (ix1 (i 1)) := by
  unfold val_main_v41 val_main_v40; exact bias50 _ i
theorem v111_at (i : S50000x256.Idx) : val_main_v111 (F := Ideal) x7 i = val_main_v83 (F := Ideal) x7 (ix1 (i 1)) := by
  unfold val_main_v111 val_main_v110; exact bias50 _ i
theorem v76_at (i : S20000x256.Idx) : val_main_v76 (F := Ideal) x7 i = val_main_v48 (F := Ideal) x7 (ix1 (i 1)) := by
  unfold val_main_v76 val_main_v75; exact bias20 _ i
theorem v151_at (i : S50000x256.Idx) : val_main_v151 (F := Ideal) x7 i = val_main_v123 (F := Ideal) x7 (ix1 (i 1)) := by
  unfold val_main_v151 val_main_v150; exact bias50 _ i
theorem v221_at (i : S50000x256.Idx) : val_main_v221 (F := Ideal) x7 i = val_main_v193 (F := Ideal) x7 (ix1 (i 1)) := by
  unfold val_main_v221 val_main_v220; exact bias50 _ i
theorem v186_at (i : S20000x256.Idx) : val_main_v186 (F := Ideal) x7 i = val_main_v158 (F := Ideal) x7 (ix1 (i 1)) := by
  unfold val_main_v186 val_main_v185; exact bias20 _ i
theorem v232_at (i : S50000x256.Idx) : val_main_v232 (F := Ideal) x10 i = x10 (ix1 (i 1)) := by
  unfold val_main_v232 val_main_v231; exact bias50 _ i
theorem v236_at (i : S20000x256.Idx) : val_main_v236 (F := Ideal) x12 i = x12 (ix1 (i 1)) := by
  unfold val_main_v236 val_main_v235; exact bias20 _ i

/-! ## The constant arrays -/

theorem call0_v0_at (i : S50000x256.Idx) : val_main_call0_v0 (F := Ideal) i = z32 := by
  unfold val_main_call0_v0 val_main_call0_cst; exact splat_at _ _ i
theorem call1_v0_at (i : S20000x256.Idx) : val_main_call1_v0 (F := Ideal) i = z32 := by
  unfold val_main_call1_v0 val_main_call1_cst; exact splat_at _ _ i
theorem call2_v0_at (i : S50000x256.Idx) : val_main_call2_v0 (F := Ideal) i = z32 := by
  unfold val_main_call2_v0 val_main_call2_cst; exact splat_at _ _ i
theorem call3_v0_at (i : S20000x256.Idx) : val_main_call3_v0 (F := Ideal) i = z32 := by
  unfold val_main_call3_v0 val_main_call3_cst; exact splat_at _ _ i
theorem call4_v0_at (i : S50000x256.Idx) : val_main_call4_v0 (F := Ideal) i = z32 := by
  unfold val_main_call4_v0 val_main_call4_cst; exact splat_at _ _ i
theorem call5_v0_at (i : S20000x256.Idx) : val_main_call5_v0 (F := Ideal) i = z32 := by
  unfold val_main_call5_v0 val_main_call5_cst; exact splat_at _ _ i
theorem v116_at (i : S50000x256.Idx) : val_main_v116 (F := Ideal) i = half32 := by
  unfold val_main_v116 val_main_cst_16; exact splat_at _ _ i
theorem v226_at (i : S50000x256.Idx) : val_main_v226 (F := Ideal) i = half32 := by
  unfold val_main_v226 val_main_cst_35; exact splat_at _ _ i

/-! ## The dense stages in the reference's arrangement -/

theorem v4_at (i : S50000x256.Idx) :
    val_main_v4 (F := Ideal) x0 x2 x3 i = max (rowsByCols (φ₁ := .f32) (φ₂ := .f32) x0 x2 i + x3 (ix1 (i 1))) z32 := by
  rw [val_main_v4_apply, val_main_v3_apply, v0_fun, v2_at, call0_v0_at]; rfl
theorem v9_at (i : S20000x256.Idx) :
    val_main_v9 (F := Ideal) x1 x4 x5 i = max (rowsByCols (φ₁ := .f32) (φ₂ := .f32) x1 x4 i + x5 (ix1 (i 1))) z32 := by
  rw [val_main_v9_apply, val_main_v8_apply, v5_fun, v7_at, call1_v0_at]; rfl
theorem v118_at (i : S50000x256.Idx) :
    val_main_v118 (F := Ideal) x0 x1 x2 x3 x4 x5 x6 x7 x8 x13 x15 i
      = max ((((rowsByCols (φ₁ := .f32) (φ₂ := .f32) (val_main_v38 (F := Ideal) x0 x2 x3 x13) (val_main_v11 (F := Ideal) x6) i + val_main_v13 (F := Ideal) x7 (ix1 (i 1))) + rowsByCols (φ₁ := .f32) (φ₂ := .f32) (val_main_v4 (F := Ideal) x0 x2 x3) (val_main_v15 (F := Ideal) x8) i)
          + ((rowsByCols (φ₁ := .f32) (φ₂ := .f32) (val_main_v108 (F := Ideal) x1 x4 x5 x15) (val_main_v81 (F := Ideal) x6) i + val_main_v83 (F := Ideal) x7 (ix1 (i 1))) + rowsByCols (φ₁ := .f32) (φ₂ := .f32) (val_main_v4 (F := Ideal) x0 x2 x3) (val_main_v85 (F := Ideal) x8) i)) * half32) z32 := by
  rw [val_main_v118_apply, val_main_v117_apply, val_main_v115_apply, val_main_v44_apply, val_main_v42_apply, val_main_v114_apply, val_main_v112_apply, v39_fun, v43_fun, v109_fun, v113_fun, v41_at, v111_at, v116_at, call2_v0_at]; rfl
theorem v119_at (i : S20000x256.Idx) :
    val_main_v119 (F := Ideal) x0 x1 x2 x3 x4 x5 x6 x7 x8 x14 i
      = max ((rowsByCols (φ₁ := .f32) (φ₂ := .f32) (val_main_v73 (F := Ideal) x0 x2 x3 x14) (val_main_v46 (F := Ideal) x6) i + val_main_v48 (F := Ideal) x7 (ix1 (i 1))) + rowsByCols (φ₁ := .f32) (φ₂ := .f32) (val_main_v9 (F := Ideal) x1 x4 x5) (val_main_v50 (F := Ideal) x8) i) z32 := by
  rw [val_main_v119_apply, val_main_v79_apply, val_main_v77_apply, v74_fun, v78_fun, v76_at, call3_v0_at]; rfl
theorem v228_at (i : S50000x256.Idx) :
    val_main_v228 (F := Ideal) x0 x1 x2 x3 x4 x5 x6 x7 x8 x13 x14 x15 i
      = max ((((rowsByCols (φ₁ := .f32) (φ₂ := .f32) (val_main_v148 (F := Ideal) x0 x1 x2 x3 x4 x5 x6 x7 x8 x13 x15) (val_main_v121 (F := Ideal) x6) i + val_main_v123 (F := Ideal) x7 (ix1 (i 1))) + rowsByCols (φ₁ := .f32) (φ₂ := .f32) (val_main_v118 (F := Ideal) x0 x1 x2 x3 x4 x5 x6 x7 x8 x13 x15) (val_main_v125 (F := Ideal) x8) i)
          + ((rowsByCols (φ₁ := .f32) (φ₂ := .f32) (val_main_v218 (F := Ideal) x0 x1 x2 x3 x4 x5 x6 x7 x8 x14 x15) (val_main_v191 (F := Ideal) x6) i + val_main_v193 (F := Ideal) x7 (ix1 (i 1))) + rowsByCols (φ₁ := .f32) (φ₂ := .f32) (val_main_v118 (F := Ideal) x0 x1 x2 x3 x4 x5 x6 x7 x8 x13 x15) (val_main_v195 (F := Ideal) x8) i)) * half32) z32 := by
  rw [val_main_v228_apply, val_main_v227_apply, val_main_v225_apply, val_main_v154_apply, val_main_v152_apply, val_main_v224_apply, val_main_v222_apply, v149_fun, v153_fun, v219_fun, v223_fun, v151_at, v221_at, v226_at, call4_v0_at]; rfl
theorem v229_at (i : S20000x256.Idx) :
    val_main_v229 (F := Ideal) x0 x1 x2 x3 x4 x5 x6 x7 x8 x13 x14 x15 i
      = max ((rowsByCols (φ₁ := .f32) (φ₂ := .f32) (val_main_v183 (F := Ideal) x0 x1 x2 x3 x4 x5 x6 x7 x8 x13 x14 x15) (val_main_v156 (F := Ideal) x6) i + val_main_v158 (F := Ideal) x7 (ix1 (i 1))) + rowsByCols (φ₁ := .f32) (φ₂ := .f32) (val_main_v119 (F := Ideal) x0 x1 x2 x3 x4 x5 x6 x7 x8 x14) (val_main_v160 (F := Ideal) x8) i) z32 := by
  rw [val_main_v229_apply, val_main_v189_apply, val_main_v187_apply, v184_fun, v188_fun, v186_at, call5_v0_at]; rfl
theorem v233_at (i : S50000x256.Idx) :
    val_main_v233 (F := Ideal) x0 x1 x2 x3 x4 x5 x6 x7 x8 x9 x10 x13 x14 x15 i = rowsByCols (φ₁ := .f32) (φ₂ := .f32) (val_main_v228 (F := Ideal) x0 x1 x2 x3 x4 x5 x6 x7 x8 x13 x14 x15) x9 i + x10 (ix1 (i 1)) := by
  rw [val_main_v233_apply, v230_fun, v232_at]; rfl
theorem v237_at (i : S20000x256.Idx) :
    val_main_v237 (F := Ideal) x0 x1 x2 x3 x4 x5 x6 x7 x8 x11 x12 x13 x14 x15 i = rowsByCols (φ₁ := .f32) (φ₂ := .f32) (val_main_v229 (F := Ideal) x0 x1 x2 x3 x4 x5 x6 x7 x8 x13 x14 x15) x11 i + x12 (ix1 (i 1)) := by
  rw [val_main_v237_apply, v234_fun, v236_at]; rfl

end Cert.ReferenceIdeal.Stage

end
-- ==== Proof.Laws.lean ====
/-
  The laws that join the two arrangements of a layer, and the closure of finiteness under the network's operations.

  A layer's merged form (one product with the sum of two weight arrays, one bias row that is the sum of two) equals
  the separate form (two products, two bias rows) when the left operand and both weight arrays are finite: a finite
  factor distributes over a sum of finite terms, and everything else is regrouping of sums. Finiteness of the left
  operand in the second layer is the finiteness of the first layer's output, which is why every operation of the
  network — gathering rows, scatter-adding them, dividing by a count that is at least one, products, sums, positive
  parts — is shown to keep arrays finite.
-/
import proofs.«158813_j31396210933902_1_alg».proof.Proof.Forms

noncomputable section

open scoped BigOperators

namespace Cert.Hetero

open Idealize.ShloMosaic Idealize.ShloMosaic.ValueIdx Idealize.ShloMosaic.PlainProduct

variable {N K K₂ K₃ M : Nat}

/-! ## A finite factor distributes over a sum of finite terms -/

theorem real_mul_add {h p q : EReal} (hh : ∃ r : ℝ, h = r) (hp : ∃ r : ℝ, p = r) (hq : ∃ r : ℝ, q = r) :
    h * (p + q) = h * p + h * q := by
  obtain ⟨a, rfl⟩ := hh; obtain ⟨b, rfl⟩ := hp; obtain ⟨c, rfl⟩ := hq
  rw [← EReal.coe_add, ← EReal.coe_mul, ← EReal.coe_mul, ← EReal.coe_mul, ← EReal.coe_add, mul_add]

/-- Rows by columns against the entrywise sum of two finite weight arrays, for a finite left operand, is the sum of
    the two products. -/
theorem rowsByCols_add_right {h : FVec Ideal ⟨2, ![N, K]⟩ .f32} {A B : FVec Ideal ⟨2, ![K, M]⟩ .f32}
    (hh : IsReal h) (hA : IsReal A) (hB : IsReal B) (i : (⟨2, ![N, M]⟩ : Shape).Idx) :
    rowsByCols h (fun e => A e + B e) i = rowsByCols h A i + rowsByCols h B i := by
  unfold rowsByCols
  rw [← Finset.sum_add_distrib]
  exact Finset.sum_congr rfl fun k _ => real_mul_add (hh _) (hA _) (hB _)

/-! ## The body forms in the reference's arrangement -/

theorem proj_eq (x : FVec Ideal ⟨2, ![N, K]⟩ .f32) (w : FVec Ideal ⟨2, ![K, M]⟩ .f32) (b : FVec Ideal ⟨2, ![1, M]⟩ .f32)
    (i : (⟨2, ![N, M]⟩ : Shape).Idx) : proj x w b i = max (rowsByCols x w i + biasAt b i) z32 := by
  unfold proj; rw [z32_eq, one32_eq, zero_add, mul_one]

theorem head_eq (x : FVec Ideal ⟨2, ![N, K]⟩ .f32) (w : FVec Ideal ⟨2, ![K, M]⟩ .f32) (b : FVec Ideal ⟨2, ![1, M]⟩ .f32)
    (i : (⟨2, ![N, M]⟩ : Shape).Idx) : head x w b i = rowsByCols x w i + biasAt b i := by
  unfold head; rw [z32_eq, one32_eq, zero_add, mul_one]

theorem mix2_eq (a₁ : FVec Ideal ⟨2, ![N, K]⟩ .f32) (w₁ : FVec Ideal ⟨2, ![K, M]⟩ .f32)
    (a₂ : FVec Ideal ⟨2, ![N, K₂]⟩ .f32) (w₂ : FVec Ideal ⟨2, ![K₂, M]⟩ .f32) (b : FVec Ideal ⟨2, ![1, M]⟩ .f32)
    (i : (⟨2, ![N, M]⟩ : Shape).Idx) :
    mix2 a₁ w₁ a₂ w₂ b i = max ((rowsByCols a₁ w₁ i + biasAt b i) + rowsByCols a₂ w₂ i) z32 := by
  unfold mix2; rw [z32_eq, one32_eq, zero_add, mul_one, add_right_comm]

/-- The two-relation update: with the own-feature weight the entrywise sum `A + B` of finite arrays, a finite own
    feature `h`, and the bias row the entrywise sum `b₀ + b₂`, the merged form is the average of the two relations'
    separate updates. -/
theorem mix3_eq (a₁ : FVec Ideal ⟨2, ![N, K]⟩ .f32) (w₁ : FVec Ideal ⟨2, ![K, M]⟩ .f32)
    (a₂ : FVec Ideal ⟨2, ![N, K₂]⟩ .f32) (w₂ : FVec Ideal ⟨2, ![K₂, M]⟩ .f32)
    (h : FVec Ideal ⟨2, ![N, K₃]⟩ .f32) (A B : FVec Ideal ⟨2, ![K₃, M]⟩ .f32) (b : FVec Ideal ⟨2, ![1, M]⟩ .f32)
    (hh : IsReal h) (hA : IsReal A) (hB : IsReal B) (i : (⟨2, ![N, M]⟩ : Shape).Idx) (b₀ b₂ : EReal)
    (hb : biasAt b i = b₀ + b₂) :
    mix3 a₁ w₁ a₂ w₂ h (fun e => A e + B e) b i
      = max ((((rowsByCols a₁ w₁ i + b₀) + rowsByCols h A i) + ((rowsByCols a₂ w₂ i + b₂) + rowsByCols h B i)) * half32) z32 := by
  unfold mix3
  rw [rowsByCols_add_right hh hA hB i, hb, z32_eq, zero_add]
  congr 2
  abel

/-! ## Finiteness is kept by every operation of the network -/

section Closure

variable {s t si su : Shape}

theorem IsReal.of_reads {x : s.Idx → EReal} (hx : IsReal x) (f : t.Idx → s.Idx) : IsReal (fun j => x (f j)) := fun j => hx (f j)

theorem IsReal.broadcastInDim {x : s.Idx → EReal} (hx : IsReal x) (dims : Fin s.rank → Fin t.rank) (h : s.BroadcastsInDim t dims) :
    IsReal (broadcastInDim t dims h x) := fun _ => hx _
theorem IsReal.shapeCast {x : s.Idx → EReal} (hx : IsReal x) (h : s.ShapeCasts t) : IsReal (shapeCast t x h) := fun _ => hx _
theorem IsReal.extractStridedSlice {x : s.Idx → EReal} (hx : IsReal x) (off : Fin s.rank → Nat) (h : s.Slices off t) :
    IsReal (extractStridedSlice t off x h) := fun _ => hx _
theorem IsReal.gather {w : Nat} {x : s.Idx → EReal} (hx : IsReal x) (d : GatherDims s si t) (idx : IVec si w) :
    IsReal (Host.gather d x idx) := fun _ => hx _
theorem IsReal.const {r : EReal} (hr : ∃ a : ℝ, r = a) : IsReal (fun _ : s.Idx => r) := fun _ => hr
theorem IsReal.add {x y : s.Idx → EReal} (hx : IsReal x) (hy : IsReal y) : IsReal (fun i => x i + y i) := fun i => real_add (hx i) (hy i)
theorem IsReal.mul {x y : s.Idx → EReal} (hx : IsReal x) (hy : IsReal y) : IsReal (fun i => x i * y i) := fun i => real_mul (hx i) (hy i)
theorem IsReal.max {x y : s.Idx → EReal} (hx : IsReal x) (hy : IsReal y) : IsReal (fun i => Max.max (x i) (y i)) := fun i => real_max (hx i) (hy i)

/-- A finite number over a nonzero finite number is finite. -/
theorem real_div {a b : EReal} (ha : ∃ r : ℝ, a = r) (hb : ∃ r : ℝ, b = r) (h0 : b ≠ 0) : ∃ r : ℝ, Ideal.div a b = r := by
  obtain ⟨x, rfl⟩ := ha; obtain ⟨y, rfl⟩ := hb
  have hy : y ≠ 0 := fun h => h0 (by rw [h]; rfl)
  rw [Ideal.div_coe hy]
  exact ⟨x * (1 / y), (EReal.coe_mul _ _).symm⟩

theorem IsReal.div {x y : s.Idx → EReal} (hx : IsReal x) (hy : IsReal y) (h0 : ∀ i, y i ≠ 0) :
    IsReal (fun i => Ideal.div (x i) (y i)) := fun i => real_div (hx i) (hy i) (h0 i)

/-- The accumulating scatter adds finitely many finite updates to a finite entry. -/
theorem IsReal.scatterAdd {w : Nat} {x : s.Idx → EReal} {u : su.Idx → EReal} (hx : IsReal x) (hu : IsReal u)
    (d : ScatterDims s si su) (idx : IVec si w) : IsReal (Ideal.hostScatterAdd d x idx u) :=
  fun i => real_add (hx i) (real_sum _ _ fun j _ => hu j)

/-- The larger of anything and one is not zero. -/
theorem max_one32_ne_zero (a : EReal) : max a one32 ≠ 0 := by
  rw [one32_eq]
  exact ne_of_gt (lt_of_lt_of_le (by norm_num : (0 : EReal) < 1) (le_max_right a 1))

end Closure

end Cert.Hetero

end
-- ==== Proof.Closure.lean ====
/-
  Finiteness under the printed operations.

  Each lemma says that one host operation, read on the extended reals, gives an array of real numbers when its float
  operands are arrays of real numbers: layout operations and the gather only move entries; sums, products and
  maxima of reals are real; a general dot product is a finite sum of products; the accumulating scatter adds finitely
  many updates; and the mean's quotient divides by the larger of a count and one, which is not zero. The tactic
  `is_real` applies them from the outside of a composed term inwards until only hypotheses remain.
-/
import Idealize.ShloMosaic.PureOps.Ideal.Laws
import proofs.«158813_j31396210933902_1_alg».proof.Proof.Laws

noncomputable section

open scoped BigOperators

namespace Cert.Hetero

open Idealize.ShloMosaic

variable {s t si su sl sr so : Shape}

theorem isReal_addf {x y : FVec Ideal s .f32} (hx : IsReal x) (hy : IsReal y) : IsReal (addf x y) := IsReal.add hx hy
theorem isReal_mulf {x y : FVec Ideal s .f32} (hx : IsReal x) (hy : IsReal y) : IsReal (mulf x y) := IsReal.mul hx hy
theorem isReal_maximumf {x y : FVec Ideal s .f32} (hx : IsReal x) (hy : IsReal y) : IsReal (maximumf x y) := IsReal.max hx hy
theorem isReal_constant (w : BitVec 32) (hw : ∃ r : ℝ, Ideal.ofBits .f32 w = r) : IsReal (constant (F := Ideal) s .f32 w) := fun _ => hw
theorem isReal_zero : IsReal (constant (F := Ideal) s .f32 0x00000000#32) := isReal_constant _ real_z32
theorem isReal_one : IsReal (constant (F := Ideal) s .f32 0x3F800000#32) := isReal_constant _ real_one32
theorem isReal_half : IsReal (constant (F := Ideal) s .f32 0x3F000000#32) := isReal_constant _ half32_real
theorem isReal_bcast {x : FVec Ideal s .f32} (hx : IsReal x) (dims : Fin s.rank → Fin t.rank) (h : s.BroadcastsInDim t dims) :
    IsReal (broadcastInDim t dims h x) := fun _ => hx _
theorem isReal_shapeCast {x : FVec Ideal s .f32} (hx : IsReal x) (h : s.ShapeCasts t) : IsReal (shapeCast t x h) := fun _ => hx _
theorem isReal_slice {x : FVec Ideal s .f32} (hx : IsReal x) (off : Fin s.rank → Nat) (h : s.Slices off t) :
    IsReal (extractStridedSlice t off x h) := fun _ => hx _
theorem isReal_gather {w : Nat} {x : FVec Ideal s .f32} (hx : IsReal x) (d : GatherDims s si t) (idx : IVec si w) :
    IsReal (Host.gather d x idx) := fun _ => hx _
theorem isReal_scatterAdd {w : Nat} {x : FVec Ideal s .f32} {u : FVec Ideal su .f32} (hx : IsReal x) (hu : IsReal u)
    (d : ScatterDims s si su) (idx : IVec si w) : IsReal (Host.scatterAdd d x idx u) := IsReal.scatterAdd hx hu d idx
theorem isReal_dot {x : FVec Ideal sl .f32} {w : FVec Ideal sr .f32} (hx : IsReal x) (hw : IsReal w) (d : DotDims sl sr so)
    (prec : Option ContractPrecision) : IsReal (Host.dotGeneral d prec x w) := fun j => by
  show ∃ r : ℝ, FloatOps.dotGeneral d prec .single x w j = r
  rw [Ideal.dotGeneral_apply]
  exact real_sum _ _ fun k _ => real_mul (hx _) (hw _)

/-- The mean's quotient: a finite sum array over the count array clipped below at one and broadcast along the
    feature axis. -/
theorem isReal_meanDiv {s₁ s₂ : Shape} {x : FVec Ideal s .f32} {c : FVec Ideal s₁ .f32} (hx : IsReal x) (hc : IsReal c)
    (d₀ : Fin (⟨0, ![]⟩ : Shape).rank → Fin s₁.rank) (h₀ : (⟨0, ![]⟩ : Shape).BroadcastsInDim s₁ d₀)
    (d₁ : Fin s₁.rank → Fin s₂.rank) (h₁ : s₁.BroadcastsInDim s₂ d₁)
    (d₂ : Fin s₂.rank → Fin s.rank) (h₂ : s₂.BroadcastsInDim s d₂) :
    IsReal (Host.divf x (broadcastInDim s d₂ h₂ (broadcastInDim s₂ d₁ h₁
      (maximumf c (broadcastInDim s₁ d₀ h₀ (constant (F := Ideal) ⟨0, ![]⟩ .f32 0x3F800000#32)))))) :=
  IsReal.div hx (isReal_bcast (isReal_bcast (isReal_maximumf hc (isReal_bcast isReal_one d₀ h₀)) d₁ h₁) d₂ h₂)
    (fun _ => max_one32_ne_zero _)

/-- Walks a composed term: every float operation keeps arrays of reals, down to hypotheses about the leaves. -/
macro "is_real" : tactic => `(tactic| repeat' (first
  | assumption
  | exact isReal_zero | exact isReal_one | exact isReal_half
  | apply isReal_meanDiv | apply isReal_addf | apply isReal_mulf | apply isReal_maximumf | apply isReal_dot
  | apply isReal_scatterAdd | apply isReal_gather | apply isReal_bcast | apply isReal_shapeCast | apply isReal_slice))

end Cert.Hetero

end
-- ==== Proof.RefReal.lean ====
/-
  The reference keeps its arrays finite, stage by stage, through the first layer.

  Read on the extended reals, every operation of the reference sends arrays of real numbers to arrays of real numbers:
  a product rows by columns is a finite sum of products; a broadcast, a slice, a reshape and a gather of rows only
  move entries; sums, products and maxima of reals are real; the accumulating scatter adds finitely many reals to a
  real; and a neighbour mean divides summed rows by the neighbour count clipped below at one, which is never zero.
  Each stage is one such operation applied to earlier stages, so its finiteness follows from theirs in one step, and
  the chain runs from the float arguments to both node types' features after the first layer. The integer arguments
  (the edge lists) only say which rows are gathered and where they are added: nothing is asked of them.
-/
import proofs.«158813_j31396210933902_1_alg».proof.Proof.RefRead
import proofs.«158813_j31396210933902_1_alg».proof.Proof.Closure

noncomputable section

namespace Cert.ReferenceIdeal.Stage

open Cert.ReferenceIdeal Cert.ReferenceIdeal.Gen Cert.ReferenceIdeal.ReadP Idealize.ShloMosaic Cert.Hetero

variable (x0 : (⟨S50000x256, .f32⟩ : BufTy).Contents (Elt Ideal)) (x1 : (⟨S20000x128, .f32⟩ : BufTy).Contents (Elt Ideal))
  (x2 : (⟨S256x256, .f32⟩ : BufTy).Contents (Elt Ideal)) (x3 : (⟨S256, .f32⟩ : BufTy).Contents (Elt Ideal))
  (x4 : (⟨S128x256, .f32⟩ : BufTy).Contents (Elt Ideal)) (x5 : (⟨S256, .f32⟩ : BufTy).Contents (Elt Ideal))
  (x6 : (⟨S2x3x256x256, .f32⟩ : BufTy).Contents (Elt Ideal)) (x7 : (⟨S2x3x256, .f32⟩ : BufTy).Contents (Elt Ideal))
  (x8 : (⟨S2x3x256x256, .f32⟩ : BufTy).Contents (Elt Ideal))
  (x13 : (⟨S2x800000, .i32⟩ : BufTy).Contents (Elt Ideal)) (x14 : (⟨S2x400000, .i32⟩ : BufTy).Contents (Elt Ideal))
  (x15 : (⟨S2x400000, .i32⟩ : BufTy).Contents (Elt Ideal))

/-! ## The input projections -/

/-- Stage v0: a product rows by columns of arrays of reals, a finite sum of products. -/
theorem v0_real
    (hx0 : IsReal (S := S50000x256) x0) (hx2 : IsReal (S := S256x256) x2) :
    IsReal (S := S50000x256) (val_main_v0 (F := Ideal) x0 x2) :=
  isReal_dot hx0 hx2 _ _

/-- Stage v1: a broadcast only repeats entries. -/
theorem v1_real
    (hx3 : IsReal (S := S256) x3) :
    IsReal (S := S1x256) (val_main_v1 (F := Ideal) x3) :=
  isReal_bcast hx3 _ _

/-- Stage v2: a broadcast only repeats entries. -/
theorem v2_real
    (hx3 : IsReal (S := S256) x3) :
    IsReal (S := S50000x256) (val_main_v2 (F := Ideal) x3) :=
  isReal_bcast (v1_real x3 hx3) _ _

/-- Stage v3: an entrywise sum of arrays of reals. -/
theorem v3_real
    (hx0 : IsReal (S := S50000x256) x0) (hx2 : IsReal (S := S256x256) x2) (hx3 : IsReal (S := S256) x3) :
    IsReal (S := S50000x256) (val_main_v3 (F := Ideal) x0 x2 x3) :=
  isReal_addf (v0_real x0 x2 hx0 hx2) (v2_real x3 hx3)

/-- Stage call0_cst: the splat of 0.0. -/
theorem call0_cst_real :
    IsReal (S := S_) (val_main_call0_cst (F := Ideal)) :=
  isReal_zero

/-- Stage call0_v0: a broadcast only repeats entries. -/
theorem call0_v0_real :
    IsReal (S := S50000x256) (val_main_call0_v0 (F := Ideal)) :=
  isReal_bcast call0_cst_real _ _

/-- Stage v4: an entrywise maximum of arrays of reals. -/
theorem v4_real
    (hx0 : IsReal (S := S50000x256) x0) (hx2 : IsReal (S := S256x256) x2) (hx3 : IsReal (S := S256) x3) :
    IsReal (S := S50000x256) (val_main_v4 (F := Ideal) x0 x2 x3) :=
  isReal_maximumf (v3_real x0 x2 x3 hx0 hx2 hx3) call0_v0_real

/-- Stage v5: a product rows by columns of arrays of reals, a finite sum of products. -/
theorem v5_real
    (hx1 : IsReal (S := S20000x128) x1) (hx4 : IsReal (S := S128x256) x4) :
    IsReal (S := S20000x256) (val_main_v5 (F := Ideal) x1 x4) :=
  isReal_dot hx1 hx4 _ _

/-- Stage v6: a broadcast only repeats entries. -/
theorem v6_real
    (hx5 : IsReal (S := S256) x5) :
    IsReal (S := S1x256) (val_main_v6 (F := Ideal) x5) :=
  isReal_bcast hx5 _ _

/-- Stage v7: a broadcast only repeats entries. -/
theorem v7_real
    (hx5 : IsReal (S := S256) x5) :
    IsReal (S := S20000x256) (val_main_v7 (F := Ideal) x5) :=
  isReal_bcast (v6_real x5 hx5) _ _

/-- Stage v8: an entrywise sum of arrays of reals. -/
theorem v8_real
    (hx1 : IsReal (S := S20000x128) x1) (hx4 : IsReal (S := S128x256) x4) (hx5 : IsReal (S := S256) x5) :
    IsReal (S := S20000x256) (val_main_v8 (F := Ideal) x1 x4 x5) :=
  isReal_addf (v5_real x1 x4 hx1 hx4) (v7_real x5 hx5)

/-- Stage call1_cst: the splat of 0.0. -/
theorem call1_cst_real :
    IsReal (S := S_) (val_main_call1_cst (F := Ideal)) :=
  isReal_zero

/-- Stage call1_v0: a broadcast only repeats entries. -/
theorem call1_v0_real :
    IsReal (S := S20000x256) (val_main_call1_v0 (F := Ideal)) :=
  isReal_bcast call1_cst_real _ _

/-- Stage v9: an entrywise maximum of arrays of reals. -/
theorem v9_real
    (hx1 : IsReal (S := S20000x128) x1) (hx4 : IsReal (S := S128x256) x4) (hx5 : IsReal (S := S256) x5) :
    IsReal (S := S20000x256) (val_main_v9 (F := Ideal) x1 x4 x5) :=
  isReal_maximumf (v8_real x1 x4 x5 hx1 hx4 hx5) call1_v0_real

/-! ## The own-feature weight slices -/

/-- Stage v14: a slice only selects entries. -/
theorem v14_real
    (hx8 : IsReal (S := S2x3x256x256) x8) :
    IsReal (S := S1x1x256x256) (val_main_v14 (F := Ideal) x8) :=
  isReal_slice hx8 _ _

/-- Stage v15: a reshape only renames entries. -/
theorem v15_real
    (hx8 : IsReal (S := S2x3x256x256) x8) :
    IsReal (S := S256x256) (val_main_v15 (F := Ideal) x8) :=
  isReal_shapeCast (v14_real x8 hx8) _

/-- Stage v84: a slice only selects entries. -/
theorem v84_real
    (hx8 : IsReal (S := S2x3x256x256) x8) :
    IsReal (S := S1x1x256x256) (val_main_v84 (F := Ideal) x8) :=
  isReal_slice hx8 _ _

/-- Stage v85: a reshape only renames entries. -/
theorem v85_real
    (hx8 : IsReal (S := S2x3x256x256) x8) :
    IsReal (S := S256x256) (val_main_v85 (F := Ideal) x8) :=
  isReal_shapeCast (v84_real x8 hx8) _

/-- Stage v124: a slice only selects entries. -/
theorem v124_real
    (hx8 : IsReal (S := S2x3x256x256) x8) :
    IsReal (S := S1x1x256x256) (val_main_v124 (F := Ideal) x8) :=
  isReal_slice hx8 _ _

/-- Stage v125: a reshape only renames entries. -/
theorem v125_real
    (hx8 : IsReal (S := S2x3x256x256) x8) :
    IsReal (S := S256x256) (val_main_v125 (F := Ideal) x8) :=
  isReal_shapeCast (v124_real x8 hx8) _

/-- Stage v194: a slice only selects entries. -/
theorem v194_real
    (hx8 : IsReal (S := S2x3x256x256) x8) :
    IsReal (S := S1x1x256x256) (val_main_v194 (F := Ideal) x8) :=
  isReal_slice hx8 _ _

/-- Stage v195: a reshape only renames entries. -/
theorem v195_real
    (hx8 : IsReal (S := S2x3x256x256) x8) :
    IsReal (S := S256x256) (val_main_v195 (F := Ideal) x8) :=
  isReal_shapeCast (v194_real x8 hx8) _

/-! ## First layer, first node type: the relation from its own type -/

/-- Stage cst: the splat of 0.0. -/
theorem cst_real :
    IsReal (S := S_) (val_main_cst (F := Ideal)) :=
  isReal_zero

/-- Stage v27: a broadcast only repeats entries. -/
theorem v27_real :
    IsReal (S := S50000x256) (val_main_v27 (F := Ideal)) :=
  isReal_bcast cst_real _ _

/-- Stage v26: gathered rows are rows of an array of reals. -/
theorem v26_real
    (hx0 : IsReal (S := S50000x256) x0) (hx2 : IsReal (S := S256x256) x2) (hx3 : IsReal (S := S256) x3) :
    IsReal (S := S800000x256) (val_main_v26 (F := Ideal) x0 x2 x3 x13) :=
  isReal_gather (v4_real x0 x2 x3 hx0 hx2 hx3) _ _

/-- Stage v29: each entry of the accumulating scatter is a real plus finitely many reals. -/
theorem v29_real
    (hx0 : IsReal (S := S50000x256) x0) (hx2 : IsReal (S := S256x256) x2) (hx3 : IsReal (S := S256) x3) :
    IsReal (S := S50000x256) (val_main_v29 (F := Ideal) x0 x2 x3 x13) :=
  isReal_scatterAdd v27_real (v26_real x0 x2 x3 x13 hx0 hx2 hx3) _ _

/-- Stage cst_2: the splat of 0.0. -/
theorem cst_2_real :
    IsReal (S := S_) (val_main_cst_2 (F := Ideal)) :=
  isReal_zero

/-- Stage v31: a broadcast only repeats entries. -/
theorem v31_real :
    IsReal (S := S50000) (val_main_v31 (F := Ideal)) :=
  isReal_bcast cst_2_real _ _

/-- Stage cst_1: the splat of 1.0. -/
theorem cst_1_real :
    IsReal (S := S_) (val_main_cst_1 (F := Ideal)) :=
  isReal_one

/-- Stage v30: a broadcast only repeats entries. -/
theorem v30_real :
    IsReal (S := S800000) (val_main_v30 (F := Ideal)) :=
  isReal_bcast cst_1_real _ _

/-- Stage v33: each entry of the accumulating scatter is a real plus finitely many reals. -/
theorem v33_real :
    IsReal (S := S50000) (val_main_v33 (F := Ideal) x13) :=
  isReal_scatterAdd v31_real v30_real _ _

/-- Stage v38: a neighbour mean, the summed rows over the neighbour count clipped below at one. -/
theorem v38_real
    (hx0 : IsReal (S := S50000x256) x0) (hx2 : IsReal (S := S256x256) x2) (hx3 : IsReal (S := S256) x3) :
    IsReal (S := S50000x256) (val_main_v38 (F := Ideal) x0 x2 x3 x13) :=
  isReal_meanDiv (v29_real x0 x2 x3 x13 hx0 hx2 hx3) (v33_real x13) _ _ _ _ _ _

/-- Stage v10: a slice only selects entries. -/
theorem v10_real
    (hx6 : IsReal (S := S2x3x256x256) x6) :
    IsReal (S := S1x1x256x256) (val_main_v10 (F := Ideal) x6) :=
  isReal_slice hx6 _ _

/-- Stage v11: a reshape only renames entries. -/
theorem v11_real
    (hx6 : IsReal (S := S2x3x256x256) x6) :
    IsReal (S := S256x256) (val_main_v11 (F := Ideal) x6) :=
  isReal_shapeCast (v10_real x6 hx6) _

/-- Stage v39: a product rows by columns of arrays of reals, a finite sum of products. -/
theorem v39_real
    (hx0 : IsReal (S := S50000x256) x0) (hx2 : IsReal (S := S256x256) x2) (hx3 : IsReal (S := S256) x3)
    (hx6 : IsReal (S := S2x3x256x256) x6) :
    IsReal (S := S50000x256) (val_main_v39 (F := Ideal) x0 x2 x3 x6 x13) :=
  isReal_dot (v38_real x0 x2 x3 x13 hx0 hx2 hx3) (v11_real x6 hx6) _ _

/-- Stage v12: a slice only selects entries. -/
theorem v12_real
    (hx7 : IsReal (S := S2x3x256) x7) :
    IsReal (S := S1x1x256) (val_main_v12 (F := Ideal) x7) :=
  isReal_slice hx7 _ _

/-- Stage v13: a reshape only renames entries. -/
theorem v13_real
    (hx7 : IsReal (S := S2x3x256) x7) :
    IsReal (S := S256) (val_main_v13 (F := Ideal) x7) :=
  isReal_shapeCast (v12_real x7 hx7) _

/-- Stage v40: a broadcast only repeats entries. -/
theorem v40_real
    (hx7 : IsReal (S := S2x3x256) x7) :
    IsReal (S := S1x256) (val_main_v40 (F := Ideal) x7) :=
  isReal_bcast (v13_real x7 hx7) _ _

/-- Stage v41: a broadcast only repeats entries. -/
theorem v41_real
    (hx7 : IsReal (S := S2x3x256) x7) :
    IsReal (S := S50000x256) (val_main_v41 (F := Ideal) x7) :=
  isReal_bcast (v40_real x7 hx7) _ _

/-- Stage v42: an entrywise sum of arrays of reals. -/
theorem v42_real
    (hx0 : IsReal (S := S50000x256) x0) (hx2 : IsReal (S := S256x256) x2) (hx3 : IsReal (S := S256) x3)
    (hx6 : IsReal (S := S2x3x256x256) x6) (hx7 : IsReal (S := S2x3x256) x7) :
    IsReal (S := S50000x256) (val_main_v42 (F := Ideal) x0 x2 x3 x6 x7 x13) :=
  isReal_addf (v39_real x0 x2 x3 x6 x13 hx0 hx2 hx3 hx6) (v41_real x7 hx7)

/-- Stage v43: a product rows by columns of arrays of reals, a finite sum of products. -/
theorem v43_real
    (hx0 : IsReal (S := S50000x256) x0) (hx2 : IsReal (S := S256x256) x2) (hx3 : IsReal (S := S256) x3)
    (hx8 : IsReal (S := S2x3x256x256) x8) :
    IsReal (S := S50000x256) (val_main_v43 (F := Ideal) x0 x2 x3 x8) :=
  isReal_dot (v4_real x0 x2 x3 hx0 hx2 hx3) (v15_real x8 hx8) _ _

/-- Stage v44: an entrywise sum of arrays of reals. -/
theorem v44_real
    (hx0 : IsReal (S := S50000x256) x0) (hx2 : IsReal (S := S256x256) x2) (hx3 : IsReal (S := S256) x3)
    (hx6 : IsReal (S := S2x3x256x256) x6) (hx7 : IsReal (S := S2x3x256) x7) (hx8 : IsReal (S := S2x3x256x256) x8) :
    IsReal (S := S50000x256) (val_main_v44 (F := Ideal) x0 x2 x3 x6 x7 x8 x13) :=
  isReal_addf (v42_real x0 x2 x3 x6 x7 x13 hx0 hx2 hx3 hx6 hx7) (v43_real x0 x2 x3 x8 hx0 hx2 hx3 hx8)

/-! ## First layer, first node type: the relation from the second type -/

/-- Stage cst_12: the splat of 0.0. -/
theorem cst_12_real :
    IsReal (S := S_) (val_main_cst_12 (F := Ideal)) :=
  isReal_zero

/-- Stage v97: a broadcast only repeats entries. -/
theorem v97_real :
    IsReal (S := S50000x256) (val_main_v97 (F := Ideal)) :=
  isReal_bcast cst_12_real _ _

/-- Stage v96: gathered rows are rows of an array of reals. -/
theorem v96_real
    (hx1 : IsReal (S := S20000x128) x1) (hx4 : IsReal (S := S128x256) x4) (hx5 : IsReal (S := S256) x5) :
    IsReal (S := S400000x256) (val_main_v96 (F := Ideal) x1 x4 x5 x15) :=
  isReal_gather (v9_real x1 x4 x5 hx1 hx4 hx5) _ _

/-- Stage v99: each entry of the accumulating scatter is a real plus finitely many reals. -/
theorem v99_real
    (hx1 : IsReal (S := S20000x128) x1) (hx4 : IsReal (S := S128x256) x4) (hx5 : IsReal (S := S256) x5) :
    IsReal (S := S50000x256) (val_main_v99 (F := Ideal) x1 x4 x5 x15) :=
  isReal_scatterAdd v97_real (v96_real x1 x4 x5 x15 hx1 hx4 hx5) _ _

/-- Stage cst_14: the splat of 0.0. -/
theorem cst_14_real :
    IsReal (S := S_) (val_main_cst_14 (F := Ideal)) :=
  isReal_zero

/-- Stage v101: a broadcast only repeats entries. -/
theorem v101_real :
    IsReal (S := S50000) (val_main_v101 (F := Ideal)) :=
  isReal_bcast cst_14_real _ _

/-- Stage cst_13: the splat of 1.0. -/
theorem cst_13_real :
    IsReal (S := S_) (val_main_cst_13 (F := Ideal)) :=
  isReal_one

/-- Stage v100: a broadcast only repeats entries. -/
theorem v100_real :
    IsReal (S := S400000) (val_main_v100 (F := Ideal)) :=
  isReal_bcast cst_13_real _ _

/-- Stage v103: each entry of the accumulating scatter is a real plus finitely many reals. -/
theorem v103_real :
    IsReal (S := S50000) (val_main_v103 (F := Ideal) x15) :=
  isReal_scatterAdd v101_real v100_real _ _

/-- Stage v108: a neighbour mean, the summed rows over the neighbour count clipped below at one. -/
theorem v108_real
    (hx1 : IsReal (S := S20000x128) x1) (hx4 : IsReal (S := S128x256) x4) (hx5 : IsReal (S := S256) x5) :
    IsReal (S := S50000x256) (val_main_v108 (F := Ideal) x1 x4 x5 x15) :=
  isReal_meanDiv (v99_real x1 x4 x5 x15 hx1 hx4 hx5) (v103_real x15) _ _ _ _ _ _

/-- Stage v80: a slice only selects entries. -/
theorem v80_real
    (hx6 : IsReal (S := S2x3x256x256) x6) :
    IsReal (S := S1x1x256x256) (val_main_v80 (F := Ideal) x6) :=
  isReal_slice hx6 _ _

/-- Stage v81: a reshape only renames entries. -/
theorem v81_real
    (hx6 : IsReal (S := S2x3x256x256) x6) :
    IsReal (S := S256x256) (val_main_v81 (F := Ideal) x6) :=
  isReal_shapeCast (v80_real x6 hx6) _

/-- Stage v109: a product rows by columns of arrays of reals, a finite sum of products. -/
theorem v109_real
    (hx1 : IsReal (S := S20000x128) x1) (hx4 : IsReal (S := S128x256) x4) (hx5 : IsReal (S := S256) x5)
    (hx6 : IsReal (S := S2x3x256x256) x6) :
    IsReal (S := S50000x256) (val_main_v109 (F := Ideal) x1 x4 x5 x6 x15) :=
  isReal_dot (v108_real x1 x4 x5 x15 hx1 hx4 hx5) (v81_real x6 hx6) _ _

/-- Stage v82: a slice only selects entries. -/
theorem v82_real
    (hx7 : IsReal (S := S2x3x256) x7) :
    IsReal (S := S1x1x256) (val_main_v82 (F := Ideal) x7) :=
  isReal_slice hx7 _ _

/-- Stage v83: a reshape only renames entries. -/
theorem v83_real
    (hx7 : IsReal (S := S2x3x256) x7) :
    IsReal (S := S256) (val_main_v83 (F := Ideal) x7) :=
  isReal_shapeCast (v82_real x7 hx7) _

/-- Stage v110: a broadcast only repeats entries. -/
theorem v110_real
    (hx7 : IsReal (S := S2x3x256) x7) :
    IsReal (S := S1x256) (val_main_v110 (F := Ideal) x7) :=
  isReal_bcast (v83_real x7 hx7) _ _

/-- Stage v111: a broadcast only repeats entries. -/
theorem v111_real
    (hx7 : IsReal (S := S2x3x256) x7) :
    IsReal (S := S50000x256) (val_main_v111 (F := Ideal) x7) :=
  isReal_bcast (v110_real x7 hx7) _ _

/-- Stage v112: an entrywise sum of arrays of reals. -/
theorem v112_real
    (hx1 : IsReal (S := S20000x128) x1) (hx4 : IsReal (S := S128x256) x4) (hx5 : IsReal (S := S256) x5)
    (hx6 : IsReal (S := S2x3x256x256) x6) (hx7 : IsReal (S := S2x3x256) x7) :
    IsReal (S := S50000x256) (val_main_v112 (F := Ideal) x1 x4 x5 x6 x7 x15) :=
  isReal_addf (v109_real x1 x4 x5 x6 x15 hx1 hx4 hx5 hx6) (v111_real x7 hx7)

/-- Stage v113: a product rows by columns of arrays of reals, a finite sum of products. -/
theorem v113_real
    (hx0 : IsReal (S := S50000x256) x0) (hx2 : IsReal (S := S256x256) x2) (hx3 : IsReal (S := S256) x3)
    (hx8 : IsReal (S := S2x3x256x256) x8) :
    IsReal (S := S50000x256) (val_main_v113 (F := Ideal) x0 x2 x3 x8) :=
  isReal_dot (v4_real x0 x2 x3 hx0 hx2 hx3) (v85_real x8 hx8) _ _

/-- Stage v114: an entrywise sum of arrays of reals. -/
theorem v114_real
    (hx0 : IsReal (S := S50000x256) x0) (hx1 : IsReal (S := S20000x128) x1) (hx2 : IsReal (S := S256x256) x2)
    (hx3 : IsReal (S := S256) x3) (hx4 : IsReal (S := S128x256) x4) (hx5 : IsReal (S := S256) x5)
    (hx6 : IsReal (S := S2x3x256x256) x6) (hx7 : IsReal (S := S2x3x256) x7) (hx8 : IsReal (S := S2x3x256x256) x8) :
    IsReal (S := S50000x256) (val_main_v114 (F := Ideal) x0 x1 x2 x3 x4 x5 x6 x7 x8 x15) :=
  isReal_addf (v112_real x1 x4 x5 x6 x7 x15 hx1 hx4 hx5 hx6 hx7) (v113_real x0 x2 x3 x8 hx0 hx2 hx3 hx8)

/-! ## First layer, first node type: the average and the positive part -/

/-- Stage v115: an entrywise sum of arrays of reals. -/
theorem v115_real
    (hx0 : IsReal (S := S50000x256) x0) (hx1 : IsReal (S := S20000x128) x1) (hx2 : IsReal (S := S256x256) x2)
    (hx3 : IsReal (S := S256) x3) (hx4 : IsReal (S := S128x256) x4) (hx5 : IsReal (S := S256) x5)
    (hx6 : IsReal (S := S2x3x256x256) x6) (hx7 : IsReal (S := S2x3x256) x7) (hx8 : IsReal (S := S2x3x256x256) x8) :
    IsReal (S := S50000x256) (val_main_v115 (F := Ideal) x0 x1 x2 x3 x4 x5 x6 x7 x8 x13 x15) :=
  isReal_addf (v44_real x0 x2 x3 x6 x7 x8 x13 hx0 hx2 hx3 hx6 hx7 hx8)
    (v114_real x0 x1 x2 x3 x4 x5 x6 x7 x8 x15 hx0 hx1 hx2 hx3 hx4 hx5 hx6 hx7 hx8)

/-- Stage cst_16: the splat of 0.5. -/
theorem cst_16_real :
    IsReal (S := S_) (val_main_cst_16 (F := Ideal)) :=
  isReal_half

/-- Stage v116: a broadcast only repeats entries. -/
theorem v116_real :
    IsReal (S := S50000x256) (val_main_v116 (F := Ideal)) :=
  isReal_bcast cst_16_real _ _

/-- Stage v117: an entrywise product of arrays of reals. -/
theorem v117_real
    (hx0 : IsReal (S := S50000x256) x0) (hx1 : IsReal (S := S20000x128) x1) (hx2 : IsReal (S := S256x256) x2)
    (hx3 : IsReal (S := S256) x3) (hx4 : IsReal (S := S128x256) x4) (hx5 : IsReal (S := S256) x5)
    (hx6 : IsReal (S := S2x3x256x256) x6) (hx7 : IsReal (S := S2x3x256) x7) (hx8 : IsReal (S := S2x3x256x256) x8) :
    IsReal (S := S50000x256) (val_main_v117 (F := Ideal) x0 x1 x2 x3 x4 x5 x6 x7 x8 x13 x15) :=
  isReal_mulf (v115_real x0 x1 x2 x3 x4 x5 x6 x7 x8 x13 x15 hx0 hx1 hx2 hx3 hx4 hx5 hx6 hx7 hx8) v116_real

/-- Stage call2_cst: the splat of 0.0. -/
theorem call2_cst_real :
    IsReal (S := S_) (val_main_call2_cst (F := Ideal)) :=
  isReal_zero

/-- Stage call2_v0: a broadcast only repeats entries. -/
theorem call2_v0_real :
    IsReal (S := S50000x256) (val_main_call2_v0 (F := Ideal)) :=
  isReal_bcast call2_cst_real _ _

/-- Stage v118: an entrywise maximum of arrays of reals. -/
theorem v118_real
    (hx0 : IsReal (S := S50000x256) x0) (hx1 : IsReal (S := S20000x128) x1) (hx2 : IsReal (S := S256x256) x2)
    (hx3 : IsReal (S := S256) x3) (hx4 : IsReal (S := S128x256) x4) (hx5 : IsReal (S := S256) x5)
    (hx6 : IsReal (S := S2x3x256x256) x6) (hx7 : IsReal (S := S2x3x256) x7) (hx8 : IsReal (S := S2x3x256x256) x8) :
    IsReal (S := S50000x256) (val_main_v118 (F := Ideal) x0 x1 x2 x3 x4 x5 x6 x7 x8 x13 x15) :=
  isReal_maximumf (v117_real x0 x1 x2 x3 x4 x5 x6 x7 x8 x13 x15 hx0 hx1 hx2 hx3 hx4 hx5 hx6 hx7 hx8) call2_v0_real

/-! ## First layer, second node type -/

/-- Stage cst_6: the splat of 0.0. -/
theorem cst_6_real :
    IsReal (S := S_) (val_main_cst_6 (F := Ideal)) :=
  isReal_zero

/-- Stage v62: a broadcast only repeats entries. -/
theorem v62_real :
    IsReal (S := S20000x256) (val_main_v62 (F := Ideal)) :=
  isReal_bcast cst_6_real _ _

/-- Stage v61: gathered rows are rows of an array of reals. -/
theorem v61_real
    (hx0 : IsReal (S := S50000x256) x0) (hx2 : IsReal (S := S256x256) x2) (hx3 : IsReal (S := S256) x3) :
    IsReal (S := S400000x256) (val_main_v61 (F := Ideal) x0 x2 x3 x14) :=
  isReal_gather (v4_real x0 x2 x3 hx0 hx2 hx3) _ _

/-- Stage v64: each entry of the accumulating scatter is a real plus finitely many reals. -/
theorem v64_real
    (hx0 : IsReal (S := S50000x256) x0) (hx2 : IsReal (S := S256x256) x2) (hx3 : IsReal (S := S256) x3) :
    IsReal (S := S20000x256) (val_main_v64 (F := Ideal) x0 x2 x3 x14) :=
  isReal_scatterAdd v62_real (v61_real x0 x2 x3 x14 hx0 hx2 hx3) _ _

/-- Stage cst_8: the splat of 0.0. -/
theorem cst_8_real :
    IsReal (S := S_) (val_main_cst_8 (F := Ideal)) :=
  isReal_zero

/-- Stage v66: a broadcast only repeats entries. -/
theorem v66_real :
    IsReal (S := S20000) (val_main_v66 (F := Ideal)) :=
  isReal_bcast cst_8_real _ _

/-- Stage cst_7: the splat of 1.0. -/
theorem cst_7_real :
    IsReal (S := S_) (val_main_cst_7 (F := Ideal)) :=
  isReal_one

/-- Stage v65: a broadcast only repeats entries. -/
theorem v65_real :
    IsReal (S := S400000) (val_main_v65 (F := Ideal)) :=
  isReal_bcast cst_7_real _ _

/-- Stage v68: each entry of the accumulating scatter is a real plus finitely many reals. -/
theorem v68_real :
    IsReal (S := S20000) (val_main_v68 (F := Ideal) x14) :=
  isReal_scatterAdd v66_real v65_real _ _

/-- Stage v73: a neighbour mean, the summed rows over the neighbour count clipped below at one. -/
theorem v73_real
    (hx0 : IsReal (S := S50000x256) x0) (hx2 : IsReal (S := S256x256) x2) (hx3 : IsReal (S := S256) x3) :
    IsReal (S := S20000x256) (val_main_v73 (F := Ideal) x0 x2 x3 x14) :=
  isReal_meanDiv (v64_real x0 x2 x3 x14 hx0 hx2 hx3) (v68_real x14) _ _ _ _ _ _

/-- Stage v45: a slice only selects entries. -/
theorem v45_real
    (hx6 : IsReal (S := S2x3x256x256) x6) :
    IsReal (S := S1x1x256x256) (val_main_v45 (F := Ideal) x6) :=
  isReal_slice hx6 _ _

/-- Stage v46: a reshape only renames entries. -/
theorem v46_real
    (hx6 : IsReal (S := S2x3x256x256) x6) :
    IsReal (S := S256x256) (val_main_v46 (F := Ideal) x6) :=
  isReal_shapeCast (v45_real x6 hx6) _

/-- Stage v74: a product rows by columns of arrays of reals, a finite sum of products. -/
theorem v74_real
    (hx0 : IsReal (S := S50000x256) x0) (hx2 : IsReal (S := S256x256) x2) (hx3 : IsReal (S := S256) x3)
    (hx6 : IsReal (S := S2x3x256x256) x6) :
    IsReal (S := S20000x256) (val_main_v74 (F := Ideal) x0 x2 x3 x6 x14) :=
  isReal_dot (v73_real x0 x2 x3 x14 hx0 hx2 hx3) (v46_real x6 hx6) _ _

/-- Stage v47: a slice only selects entries. -/
theorem v47_real
    (hx7 : IsReal (S := S2x3x256) x7) :
    IsReal (S := S1x1x256) (val_main_v47 (F := Ideal) x7) :=
  isReal_slice hx7 _ _

/-- Stage v48: a reshape only renames entries. -/
theorem v48_real
    (hx7 : IsReal (S := S2x3x256) x7) :
    IsReal (S := S256) (val_main_v48 (F := Ideal) x7) :=
  isReal_shapeCast (v47_real x7 hx7) _

/-- Stage v75: a broadcast only repeats entries. -/
theorem v75_real
    (hx7 : IsReal (S := S2x3x256) x7) :
    IsReal (S := S1x256) (val_main_v75 (F := Ideal) x7) :=
  isReal_bcast (v48_real x7 hx7) _ _

/-- Stage v76: a broadcast only repeats entries. -/
theorem v76_real
    (hx7 : IsReal (S := S2x3x256) x7) :
    IsReal (S := S20000x256) (val_main_v76 (F := Ideal) x7) :=
  isReal_bcast (v75_real x7 hx7) _ _

/-- Stage v77: an entrywise sum of arrays of reals. -/
theorem v77_real
    (hx0 : IsReal (S := S50000x256) x0) (hx2 : IsReal (S := S256x256) x2) (hx3 : IsReal (S := S256) x3)
    (hx6 : IsReal (S := S2x3x256x256) x6) (hx7 : IsReal (S := S2x3x256) x7) :
    IsReal (S := S20000x256) (val_main_v77 (F := Ideal) x0 x2 x3 x6 x7 x14) :=
  isReal_addf (v74_real x0 x2 x3 x6 x14 hx0 hx2 hx3 hx6) (v76_real x7 hx7)

/-- Stage v49: a slice only selects entries. -/
theorem v49_real
    (hx8 : IsReal (S := S2x3x256x256) x8) :
    IsReal (S := S1x1x256x256) (val_main_v49 (F := Ideal) x8) :=
  isReal_slice hx8 _ _

/-- Stage v50: a reshape only renames entries. -/
theorem v50_real
    (hx8 : IsReal (S := S2x3x256x256) x8) :
    IsReal (S := S256x256) (val_main_v50 (F := Ideal) x8) :=
  isReal_shapeCast (v49_real x8 hx8) _

/-- Stage v78: a product rows by columns of arrays of reals, a finite sum of products. -/
theorem v78_real
    (hx1 : IsReal (S := S20000x128) x1) (hx4 : IsReal (S := S128x256) x4) (hx5 : IsReal (S := S256) x5)
    (hx8 : IsReal (S := S2x3x256x256) x8) :
    IsReal (S := S20000x256) (val_main_v78 (F := Ideal) x1 x4 x5 x8) :=
  isReal_dot (v9_real x1 x4 x5 hx1 hx4 hx5) (v50_real x8 hx8) _ _

/-- Stage v79: an entrywise sum of arrays of reals. -/
theorem v79_real
    (hx0 : IsReal (S := S50000x256) x0) (hx1 : IsReal (S := S20000x128) x1) (hx2 : IsReal (S := S256x256) x2)
    (hx3 : IsReal (S := S256) x3) (hx4 : IsReal (S := S128x256) x4) (hx5 : IsReal (S := S256) x5)
    (hx6 : IsReal (S := S2x3x256x256) x6) (hx7 : IsReal (S := S2x3x256) x7) (hx8 : IsReal (S := S2x3x256x256) x8) :
    IsReal (S := S20000x256) (val_main_v79 (F := Ideal) x0 x1 x2 x3 x4 x5 x6 x7 x8 x14) :=
  isReal_addf (v77_real x0 x2 x3 x6 x7 x14 hx0 hx2 hx3 hx6 hx7) (v78_real x1 x4 x5 x8 hx1 hx4 hx5 hx8)

/-- Stage call3_cst: the splat of 0.0. -/
theorem call3_cst_real :
    IsReal (S := S_) (val_main_call3_cst (F := Ideal)) :=
  isReal_zero

/-- Stage call3_v0: a broadcast only repeats entries. -/
theorem call3_v0_real :
    IsReal (S := S20000x256) (val_main_call3_v0 (F := Ideal)) :=
  isReal_bcast call3_cst_real _ _

/-- Stage v119: an entrywise maximum of arrays of reals. -/
theorem v119_real
    (hx0 : IsReal (S := S50000x256) x0) (hx1 : IsReal (S := S20000x128) x1) (hx2 : IsReal (S := S256x256) x2)
    (hx3 : IsReal (S := S256) x3) (hx4 : IsReal (S := S128x256) x4) (hx5 : IsReal (S := S256) x5)
    (hx6 : IsReal (S := S2x3x256x256) x6) (hx7 : IsReal (S := S2x3x256) x7) (hx8 : IsReal (S := S2x3x256x256) x8) :
    IsReal (S := S20000x256) (val_main_v119 (F := Ideal) x0 x1 x2 x3 x4 x5 x6 x7 x8 x14) :=
  isReal_maximumf (v79_real x0 x1 x2 x3 x4 x5 x6 x7 x8 x14 hx0 hx1 hx2 hx3 hx4 hx5 hx6 hx7 hx8) call3_v0_real

end Cert.ReferenceIdeal.Stage

end
-- ==== Proof.Bridge.lean ====
/-
  The kernel's arrays are the reference's, stage by stage.

  Both programs compute the same chain: two input projections; then twice, three neighbourhood means and two node
  updates; then two output heads. The means are printed by the same operations in both programs, so they agree as
  soon as their source features do. The dense steps differ in arrangement only:

  * a projection or a head: the kernel's ((0 + x·W) + b) · 1 is the reference's x·W + b;
  * a patient update: the kernel's (((0 + a·W₁) + p·W₂) + b) · 1 is the reference's (a·W₁ + b) + p·W₂, a regrouping;
  * a gene update: the kernel forms ONE product of the gene features with the sum of the two own-feature weight
    arrays and adds the sum of the two bias rows, the reference forms the two relations' updates separately and adds
    them; the two agree because the gene features and the weights are finite, so that the product distributes over
    the sum of the weights. The gene features of the second layer are the first layer's output, whose finiteness
    follows from the finiteness of the inputs through every operation of the first layer.
-/
import proofs.«158813_j31396210933902_1_alg».proof.Proof.ChainDefs
import proofs.«158813_j31396210933902_1_alg».proof.Proof.RefForms
import proofs.«158813_j31396210933902_1_alg».proof.Proof.RefReal
import proofs.«158813_j31396210933902_1_alg».proof.Proof.Closure
import Idealize.ShloMosaic.Lib.Pipeline.Value

set_option maxRecDepth 16384

noncomputable section

open scoped BigOperators

namespace Cert.Bridge

open Idealize.ShloMosaic Idealize.ShloMosaic.ValueIdx Idealize.ShloMosaic.PlainProduct
open Cert.Hetero Cert.KernelIdeal.Val Cert.ReferenceIdeal Cert.ReferenceIdeal.ReadP Cert.ReferenceIdeal.Stage

/-! ## A vector as a bias row -/

/-- A vector of length n cast to a one-row array, read at (0, d), is its entry d. -/
theorem rowCast_apply {α : Type} {n : Nat} (v : (⟨1, ![n]⟩ : Shape).Idx → α) (h : (⟨1, ![n]⟩ : Shape).ShapeCasts ⟨2, ![1, n]⟩)
    (d : Fin n) : shapeCast ⟨2, ![1, n]⟩ v h (ix2 (0 : Fin 1) d) = v (ix1 d) :=
  shapeCast_apply v h _ _ (by rw [Shape.rowMajor_val_one, Shape.rowMajor_val_two]; show d.val = 0 * n + d.val; omega)

/-- The kernel's bias row under entry i is the bias vector's entry at i's column. -/
theorem biasAt_biasRow {N : Nat} (b : (⟨Cert.KernelIdeal.S256, .f32⟩ : BufTy).Contents (Elt Ideal)) (i : (⟨2, ![N, 256]⟩ : Shape).Idx) :
    biasAt (biasRow b) i = b (ix1 (i 1)) := rowCast_apply b _ (i 1)

/-! ## The projections -/

theorem hg0_eq (x0 : (⟨S50000x256, .f32⟩ : BufTy).Contents (Elt Ideal)) (x2 : (⟨S256x256, .f32⟩ : BufTy).Contents (Elt Ideal)) (x3 : (⟨S256, .f32⟩ : BufTy).Contents (Elt Ideal)) : hg0 x0 x2 x3 = val_main_v4 (F := Ideal) x0 x2 x3 := by
  funext i
  rw [v4_at]
  exact (proj_eq x0 x2 (biasRow x3) i).trans (by rw [biasAt_biasRow])

theorem hp0_eq (x1 : (⟨S20000x128, .f32⟩ : BufTy).Contents (Elt Ideal)) (x4 : (⟨S128x256, .f32⟩ : BufTy).Contents (Elt Ideal)) (x5 : (⟨S256, .f32⟩ : BufTy).Contents (Elt Ideal)) : hp0 x1 x4 x5 = val_main_v9 (F := Ideal) x1 x4 x5 := by
  funext i
  rw [v9_at]
  exact (proj_eq x1 x4 (biasRow x5) i).trans (by rw [biasAt_biasRow])

/-! ## The first layer -/

theorem stepG0_eq (x0 : (⟨S50000x256, .f32⟩ : BufTy).Contents (Elt Ideal)) (x1 : (⟨S20000x128, .f32⟩ : BufTy).Contents (Elt Ideal)) (x2 : (⟨S256x256, .f32⟩ : BufTy).Contents (Elt Ideal)) (x3 : (⟨S256, .f32⟩ : BufTy).Contents (Elt Ideal)) (x4 : (⟨S128x256, .f32⟩ : BufTy).Contents (Elt Ideal)) (x5 : (⟨S256, .f32⟩ : BufTy).Contents (Elt Ideal)) (x6 : (⟨S2x3x256x256, .f32⟩ : BufTy).Contents (Elt Ideal)) (x7 : (⟨S2x3x256, .f32⟩ : BufTy).Contents (Elt Ideal)) (x8 : (⟨S2x3x256x256, .f32⟩ : BufTy).Contents (Elt Ideal)) (x13 : (⟨S2x800000, .i32⟩ : BufTy).Contents (Elt Ideal)) (x15 : (⟨S2x400000, .i32⟩ : BufTy).Contents (Elt Ideal)) (h4 : IsReal (val_main_v4 (F := Ideal) x0 x2 x3)) (hx8 : IsReal x8) :
    stepG0 (val_main_v4 (F := Ideal) x0 x2 x3) (val_main_v9 (F := Ideal) x1 x4 x5) x6 x7 x8 x13 x15 = val_main_v118 (F := Ideal) x0 x1 x2 x3 x4 x5 x6 x7 x8 x13 x15 := by
  funext i
  rw [v118_at]
  exact mix3_eq (val_main_v38 (F := Ideal) x0 x2 x3 x13) (val_main_v11 (F := Ideal) x6) (val_main_v108 (F := Ideal) x1 x4 x5 x15) (val_main_v81 (F := Ideal) x6) (val_main_v4 (F := Ideal) x0 x2 x3) (val_main_v15 (F := Ideal) x8) (val_main_v85 (F := Ideal) x8) (biasRow (bPair0 x7))
    h4 (v15_real x8 hx8) (v85_real x8 hx8) i _ _ (biasAt_biasRow (bPair0 x7) i)

theorem stepP0_eq (x0 : (⟨S50000x256, .f32⟩ : BufTy).Contents (Elt Ideal)) (x1 : (⟨S20000x128, .f32⟩ : BufTy).Contents (Elt Ideal)) (x2 : (⟨S256x256, .f32⟩ : BufTy).Contents (Elt Ideal)) (x3 : (⟨S256, .f32⟩ : BufTy).Contents (Elt Ideal)) (x4 : (⟨S128x256, .f32⟩ : BufTy).Contents (Elt Ideal)) (x5 : (⟨S256, .f32⟩ : BufTy).Contents (Elt Ideal)) (x6 : (⟨S2x3x256x256, .f32⟩ : BufTy).Contents (Elt Ideal)) (x7 : (⟨S2x3x256, .f32⟩ : BufTy).Contents (Elt Ideal)) (x8 : (⟨S2x3x256x256, .f32⟩ : BufTy).Contents (Elt Ideal)) (x14 : (⟨S2x400000, .i32⟩ : BufTy).Contents (Elt Ideal)) :
    stepP0 (val_main_v4 (F := Ideal) x0 x2 x3) (val_main_v9 (F := Ideal) x1 x4 x5) x6 x7 x8 x14 = val_main_v119 (F := Ideal) x0 x1 x2 x3 x4 x5 x6 x7 x8 x14 := by
  funext i
  rw [v119_at]
  exact (mix2_eq (val_main_v73 (F := Ideal) x0 x2 x3 x14) (val_main_v46 (F := Ideal) x6) (val_main_v9 (F := Ideal) x1 x4 x5) (val_main_v50 (F := Ideal) x8) (biasRow (bAt01 x7)) i).trans (by rw [biasAt_biasRow]; rfl)

/-! ## The second layer -/

theorem stepG1_eq (x0 : (⟨S50000x256, .f32⟩ : BufTy).Contents (Elt Ideal)) (x1 : (⟨S20000x128, .f32⟩ : BufTy).Contents (Elt Ideal)) (x2 : (⟨S256x256, .f32⟩ : BufTy).Contents (Elt Ideal)) (x3 : (⟨S256, .f32⟩ : BufTy).Contents (Elt Ideal)) (x4 : (⟨S128x256, .f32⟩ : BufTy).Contents (Elt Ideal)) (x5 : (⟨S256, .f32⟩ : BufTy).Contents (Elt Ideal)) (x6 : (⟨S2x3x256x256, .f32⟩ : BufTy).Contents (Elt Ideal)) (x7 : (⟨S2x3x256, .f32⟩ : BufTy).Contents (Elt Ideal)) (x8 : (⟨S2x3x256x256, .f32⟩ : BufTy).Contents (Elt Ideal)) (x13 : (⟨S2x800000, .i32⟩ : BufTy).Contents (Elt Ideal)) (x14 : (⟨S2x400000, .i32⟩ : BufTy).Contents (Elt Ideal)) (x15 : (⟨S2x400000, .i32⟩ : BufTy).Contents (Elt Ideal)) (h118 : IsReal (val_main_v118 (F := Ideal) x0 x1 x2 x3 x4 x5 x6 x7 x8 x13 x15)) (hx8 : IsReal x8) :
    stepG1 (val_main_v118 (F := Ideal) x0 x1 x2 x3 x4 x5 x6 x7 x8 x13 x15) (val_main_v119 (F := Ideal) x0 x1 x2 x3 x4 x5 x6 x7 x8 x14) x6 x7 x8 x13 x15 = val_main_v228 (F := Ideal) x0 x1 x2 x3 x4 x5 x6 x7 x8 x13 x14 x15 := by
  funext i
  rw [v228_at]
  exact mix3_eq (val_main_v148 (F := Ideal) x0 x1 x2 x3 x4 x5 x6 x7 x8 x13 x15) (val_main_v121 (F := Ideal) x6) (val_main_v218 (F := Ideal) x0 x1 x2 x3 x4 x5 x6 x7 x8 x14 x15) (val_main_v191 (F := Ideal) x6) (val_main_v118 (F := Ideal) x0 x1 x2 x3 x4 x5 x6 x7 x8 x13 x15) (val_main_v125 (F := Ideal) x8) (val_main_v195 (F := Ideal) x8) (biasRow (bPair1 x7))
    h118 (v125_real x8 hx8) (v195_real x8 hx8) i _ _ (biasAt_biasRow (bPair1 x7) i)

theorem stepP1_eq (x0 : (⟨S50000x256, .f32⟩ : BufTy).Contents (Elt Ideal)) (x1 : (⟨S20000x128, .f32⟩ : BufTy).Contents (Elt Ideal)) (x2 : (⟨S256x256, .f32⟩ : BufTy).Contents (Elt Ideal)) (x3 : (⟨S256, .f32⟩ : BufTy).Contents (Elt Ideal)) (x4 : (⟨S128x256, .f32⟩ : BufTy).Contents (Elt Ideal)) (x5 : (⟨S256, .f32⟩ : BufTy).Contents (Elt Ideal)) (x6 : (⟨S2x3x256x256, .f32⟩ : BufTy).Contents (Elt Ideal)) (x7 : (⟨S2x3x256, .f32⟩ : BufTy).Contents (Elt Ideal)) (x8 : (⟨S2x3x256x256, .f32⟩ : BufTy).Contents (Elt Ideal)) (x13 : (⟨S2x800000, .i32⟩ : BufTy).Contents (Elt Ideal)) (x14 : (⟨S2x400000, .i32⟩ : BufTy).Contents (Elt Ideal)) (x15 : (⟨S2x400000, .i32⟩ : BufTy).Contents (Elt Ideal)) :
    stepP1 (val_main_v118 (F := Ideal) x0 x1 x2 x3 x4 x5 x6 x7 x8 x13 x15) (val_main_v119 (F := Ideal) x0 x1 x2 x3 x4 x5 x6 x7 x8 x14) x6 x7 x8 x14 = val_main_v229 (F := Ideal) x0 x1 x2 x3 x4 x5 x6 x7 x8 x13 x14 x15 := by
  funext i
  rw [v229_at]
  exact (mix2_eq (val_main_v183 (F := Ideal) x0 x1 x2 x3 x4 x5 x6 x7 x8 x13 x14 x15) (val_main_v156 (F := Ideal) x6) (val_main_v119 (F := Ideal) x0 x1 x2 x3 x4 x5 x6 x7 x8 x14) (val_main_v160 (F := Ideal) x8) (biasRow (bAt11 x7)) i).trans (by rw [biasAt_biasRow]; rfl)

/-! ## The whole chain -/

theorem hg1_eq (x0 : (⟨S50000x256, .f32⟩ : BufTy).Contents (Elt Ideal)) (x1 : (⟨S20000x128, .f32⟩ : BufTy).Contents (Elt Ideal)) (x2 : (⟨S256x256, .f32⟩ : BufTy).Contents (Elt Ideal)) (x3 : (⟨S256, .f32⟩ : BufTy).Contents (Elt Ideal)) (x4 : (⟨S128x256, .f32⟩ : BufTy).Contents (Elt Ideal)) (x5 : (⟨S256, .f32⟩ : BufTy).Contents (Elt Ideal)) (x6 : (⟨S2x3x256x256, .f32⟩ : BufTy).Contents (Elt Ideal)) (x7 : (⟨S2x3x256, .f32⟩ : BufTy).Contents (Elt Ideal)) (x8 : (⟨S2x3x256x256, .f32⟩ : BufTy).Contents (Elt Ideal)) (x13 : (⟨S2x800000, .i32⟩ : BufTy).Contents (Elt Ideal)) (x14 : (⟨S2x400000, .i32⟩ : BufTy).Contents (Elt Ideal)) (x15 : (⟨S2x400000, .i32⟩ : BufTy).Contents (Elt Ideal)) (hx0 : IsReal x0) (hx1 : IsReal x1) (hx2 : IsReal x2) (hx3 : IsReal x3) (hx4 : IsReal x4) (hx5 : IsReal x5) (hx6 : IsReal x6) (hx7 : IsReal x7) (hx8 : IsReal x8) :
    hg1 x0 x1 x2 x3 x4 x5 x6 x7 x8 x13 x14 x15 = val_main_v118 (F := Ideal) x0 x1 x2 x3 x4 x5 x6 x7 x8 x13 x15 := by
  unfold hg1; rw [hg0_eq, hp0_eq]
  exact stepG0_eq x0 x1 x2 x3 x4 x5 x6 x7 x8 x13 x15 (v4_real x0 x2 x3 hx0 hx2 hx3) hx8

theorem hp1_eq (x0 : (⟨S50000x256, .f32⟩ : BufTy).Contents (Elt Ideal)) (x1 : (⟨S20000x128, .f32⟩ : BufTy).Contents (Elt Ideal)) (x2 : (⟨S256x256, .f32⟩ : BufTy).Contents (Elt Ideal)) (x3 : (⟨S256, .f32⟩ : BufTy).Contents (Elt Ideal)) (x4 : (⟨S128x256, .f32⟩ : BufTy).Contents (Elt Ideal)) (x5 : (⟨S256, .f32⟩ : BufTy).Contents (Elt Ideal)) (x6 : (⟨S2x3x256x256, .f32⟩ : BufTy).Contents (Elt Ideal)) (x7 : (⟨S2x3x256, .f32⟩ : BufTy).Contents (Elt Ideal)) (x8 : (⟨S2x3x256x256, .f32⟩ : BufTy).Contents (Elt Ideal)) (x13 : (⟨S2x800000, .i32⟩ : BufTy).Contents (Elt Ideal)) (x14 : (⟨S2x400000, .i32⟩ : BufTy).Contents (Elt Ideal)) (x15 : (⟨S2x400000, .i32⟩ : BufTy).Contents (Elt Ideal)) :
    hp1 x0 x1 x2 x3 x4 x5 x6 x7 x8 x13 x14 x15 = val_main_v119 (F := Ideal) x0 x1 x2 x3 x4 x5 x6 x7 x8 x14 := by
  unfold hp1; rw [hg0_eq, hp0_eq]
  exact stepP0_eq x0 x1 x2 x3 x4 x5 x6 x7 x8 x14

theorem hg2_eq (x0 : (⟨S50000x256, .f32⟩ : BufTy).Contents (Elt Ideal)) (x1 : (⟨S20000x128, .f32⟩ : BufTy).Contents (Elt Ideal)) (x2 : (⟨S256x256, .f32⟩ : BufTy).Contents (Elt Ideal)) (x3 : (⟨S256, .f32⟩ : BufTy).Contents (Elt Ideal)) (x4 : (⟨S128x256, .f32⟩ : BufTy).Contents (Elt Ideal)) (x5 : (⟨S256, .f32⟩ : BufTy).Contents (Elt Ideal)) (x6 : (⟨S2x3x256x256, .f32⟩ : BufTy).Contents (Elt Ideal)) (x7 : (⟨S2x3x256, .f32⟩ : BufTy).Contents (Elt Ideal)) (x8 : (⟨S2x3x256x256, .f32⟩ : BufTy).Contents (Elt Ideal)) (x13 : (⟨S2x800000, .i32⟩ : BufTy).Contents (Elt Ideal)) (x14 : (⟨S2x400000, .i32⟩ : BufTy).Contents (Elt Ideal)) (x15 : (⟨S2x400000, .i32⟩ : BufTy).Contents (Elt Ideal)) (hx0 : IsReal x0) (hx1 : IsReal x1) (hx2 : IsReal x2) (hx3 : IsReal x3) (hx4 : IsReal x4) (hx5 : IsReal x5) (hx6 : IsReal x6) (hx7 : IsReal x7) (hx8 : IsReal x8) :
    hg2 x0 x1 x2 x3 x4 x5 x6 x7 x8 x13 x14 x15 = val_main_v228 (F := Ideal) x0 x1 x2 x3 x4 x5 x6 x7 x8 x13 x14 x15 := by
  unfold hg2
  rw [hg1_eq x0 x1 x2 x3 x4 x5 x6 x7 x8 x13 x14 x15 hx0 hx1 hx2 hx3 hx4 hx5 hx6 hx7 hx8, hp1_eq x0 x1 x2 x3 x4 x5 x6 x7 x8 x13 x14 x15]
  exact stepG1_eq x0 x1 x2 x3 x4 x5 x6 x7 x8 x13 x14 x15 (v118_real x0 x1 x2 x3 x4 x5 x6 x7 x8 x13 x15 hx0 hx1 hx2 hx3 hx4 hx5 hx6 hx7 hx8) hx8

theorem hp2_eq (x0 : (⟨S50000x256, .f32⟩ : BufTy).Contents (Elt Ideal)) (x1 : (⟨S20000x128, .f32⟩ : BufTy).Contents (Elt Ideal)) (x2 : (⟨S256x256, .f32⟩ : BufTy).Contents (Elt Ideal)) (x3 : (⟨S256, .f32⟩ : BufTy).Contents (Elt Ideal)) (x4 : (⟨S128x256, .f32⟩ : BufTy).Contents (Elt Ideal)) (x5 : (⟨S256, .f32⟩ : BufTy).Contents (Elt Ideal)) (x6 : (⟨S2x3x256x256, .f32⟩ : BufTy).Contents (Elt Ideal)) (x7 : (⟨S2x3x256, .f32⟩ : BufTy).Contents (Elt Ideal)) (x8 : (⟨S2x3x256x256, .f32⟩ : BufTy).Contents (Elt Ideal)) (x13 : (⟨S2x800000, .i32⟩ : BufTy).Contents (Elt Ideal)) (x14 : (⟨S2x400000, .i32⟩ : BufTy).Contents (Elt Ideal)) (x15 : (⟨S2x400000, .i32⟩ : BufTy).Contents (Elt Ideal)) (hx0 : IsReal x0) (hx1 : IsReal x1) (hx2 : IsReal x2) (hx3 : IsReal x3) (hx4 : IsReal x4) (hx5 : IsReal x5) (hx6 : IsReal x6) (hx7 : IsReal x7) (hx8 : IsReal x8) :
    hp2 x0 x1 x2 x3 x4 x5 x6 x7 x8 x13 x14 x15 = val_main_v229 (F := Ideal) x0 x1 x2 x3 x4 x5 x6 x7 x8 x13 x14 x15 := by
  unfold hp2
  rw [hg1_eq x0 x1 x2 x3 x4 x5 x6 x7 x8 x13 x14 x15 hx0 hx1 hx2 hx3 hx4 hx5 hx6 hx7 hx8, hp1_eq x0 x1 x2 x3 x4 x5 x6 x7 x8 x13 x14 x15]
  exact stepP1_eq x0 x1 x2 x3 x4 x5 x6 x7 x8 x13 x14 x15

/-- The kernel's gene output is the reference's. -/
theorem out0_eq (x0 : (⟨S50000x256, .f32⟩ : BufTy).Contents (Elt Ideal)) (x1 : (⟨S20000x128, .f32⟩ : BufTy).Contents (Elt Ideal)) (x2 : (⟨S256x256, .f32⟩ : BufTy).Contents (Elt Ideal)) (x3 : (⟨S256, .f32⟩ : BufTy).Contents (Elt Ideal)) (x4 : (⟨S128x256, .f32⟩ : BufTy).Contents (Elt Ideal)) (x5 : (⟨S256, .f32⟩ : BufTy).Contents (Elt Ideal)) (x6 : (⟨S2x3x256x256, .f32⟩ : BufTy).Contents (Elt Ideal)) (x7 : (⟨S2x3x256, .f32⟩ : BufTy).Contents (Elt Ideal)) (x8 : (⟨S2x3x256x256, .f32⟩ : BufTy).Contents (Elt Ideal)) (x9 : (⟨S256x256, .f32⟩ : BufTy).Contents (Elt Ideal)) (x10 : (⟨S256, .f32⟩ : BufTy).Contents (Elt Ideal)) (x13 : (⟨S2x800000, .i32⟩ : BufTy).Contents (Elt Ideal)) (x14 : (⟨S2x400000, .i32⟩ : BufTy).Contents (Elt Ideal)) (x15 : (⟨S2x400000, .i32⟩ : BufTy).Contents (Elt Ideal)) (hx0 : IsReal x0) (hx1 : IsReal x1) (hx2 : IsReal x2) (hx3 : IsReal x3) (hx4 : IsReal x4) (hx5 : IsReal x5) (hx6 : IsReal x6) (hx7 : IsReal x7) (hx8 : IsReal x8) :
    out0 x0 x1 x2 x3 x4 x5 x6 x7 x8 x9 x10 x13 x14 x15 = val_main_v233 (F := Ideal) x0 x1 x2 x3 x4 x5 x6 x7 x8 x9 x10 x13 x14 x15 := by
  unfold out0
  rw [hg2_eq x0 x1 x2 x3 x4 x5 x6 x7 x8 x13 x14 x15 hx0 hx1 hx2 hx3 hx4 hx5 hx6 hx7 hx8]
  funext i
  rw [v233_at]
  exact (head_eq (val_main_v228 (F := Ideal) x0 x1 x2 x3 x4 x5 x6 x7 x8 x13 x14 x15) x9 (biasRow x10) i).trans (by rw [biasAt_biasRow])

/-- The kernel's patient output is the reference's. -/
theorem out1_eq (x0 : (⟨S50000x256, .f32⟩ : BufTy).Contents (Elt Ideal)) (x1 : (⟨S20000x128, .f32⟩ : BufTy).Contents (Elt Ideal)) (x2 : (⟨S256x256, .f32⟩ : BufTy).Contents (Elt Ideal)) (x3 : (⟨S256, .f32⟩ : BufTy).Contents (Elt Ideal)) (x4 : (⟨S128x256, .f32⟩ : BufTy).Contents (Elt Ideal)) (x5 : (⟨S256, .f32⟩ : BufTy).Contents (Elt Ideal)) (x6 : (⟨S2x3x256x256, .f32⟩ : BufTy).Contents (Elt Ideal)) (x7 : (⟨S2x3x256, .f32⟩ : BufTy).Contents (Elt Ideal)) (x8 : (⟨S2x3x256x256, .f32⟩ : BufTy).Contents (Elt Ideal)) (x11 : (⟨S256x256, .f32⟩ : BufTy).Contents (Elt Ideal)) (x12 : (⟨S256, .f32⟩ : BufTy).Contents (Elt Ideal)) (x13 : (⟨S2x800000, .i32⟩ : BufTy).Contents (Elt Ideal)) (x14 : (⟨S2x400000, .i32⟩ : BufTy).Contents (Elt Ideal)) (x15 : (⟨S2x400000, .i32⟩ : BufTy).Contents (Elt Ideal)) (hx0 : IsReal x0) (hx1 : IsReal x1) (hx2 : IsReal x2) (hx3 : IsReal x3) (hx4 : IsReal x4) (hx5 : IsReal x5) (hx6 : IsReal x6) (hx7 : IsReal x7) (hx8 : IsReal x8) :
    out1 x0 x1 x2 x3 x4 x5 x6 x7 x8 x11 x12 x13 x14 x15 = val_main_v237 (F := Ideal) x0 x1 x2 x3 x4 x5 x6 x7 x8 x11 x12 x13 x14 x15 := by
  unfold out1
  rw [hp2_eq x0 x1 x2 x3 x4 x5 x6 x7 x8 x13 x14 x15 hx0 hx1 hx2 hx3 hx4 hx5 hx6 hx7 hx8]
  funext i
  rw [v237_at]
  exact (head_eq (val_main_v229 (F := Ideal) x0 x1 x2 x3 x4 x5 x6 x7 x8 x13 x14 x15) x11 (biasRow x12) i).trans (by rw [biasAt_biasRow])

end Cert.Bridge

end
-- ==== Proof.lean ====
/-
  A two-layer network over two node types (genes, patients) and three relations: the tiled kernel program against
  the plain reference, on the extended reals.

  Both programs compute, from the same sixteen arrays: an input projection per node type (rows times a weight array,
  plus a bias row, positive part); then, twice, for each relation the mean of the source features gathered along the
  relation's edges and scatter-added into the destination rows, divided by the larger of the edge count and one, and
  from these a new feature array per node type; then an output head per node type. The kernel program computes every
  dense step in row blocks of 2000 rows; a row of a product depends on that row of the left operand only, so the
  blocks assemble to the whole-array maps (the Region modules), and the run's boundary contents walk back to the
  argument arrays (the Chain modules). Stage by stage the kernel's arrays are the reference's (Bridge): the means
  are the same operations; the projections, heads and patient updates differ by a zero summand, a unit factor and
  the grouping of a sum; the gene update merges two own-feature products into one product with the sum of the two
  weight arrays, which equals the two separate products because the gene features and the weights are finite — the
  inputs by the precondition, the first layer's output because every operation of the network keeps finite arrays
  finite.

  The three frames: the two kernel programs run, fault-free, with their arguments unchanged (their generated frame
  certificates); the reference by its run read back. The idealized kernel is the printed kernel read on the extended
  reals with no rewrite applied, so nothing is owed for it.
-/
import proofs.«158813_j31396210933902_1_alg».proof.Defs
import proofs.«158813_j31396210933902_1_alg».proof.Proof.Gen.Kernel
import proofs.«158813_j31396210933902_1_alg».proof.Proof.Gen.Kernel.Skeleton
import proofs.«158813_j31396210933902_1_alg».proof.Proof.Gen.Kernel.Launch
import proofs.«158813_j31396210933902_1_alg».proof.Proof.Gen.Kernel.Points
import proofs.«158813_j31396210933902_1_alg».proof.Proof.Gen.Kernel.Frame
import proofs.«158813_j31396210933902_1_alg».proof.Proof.Gen.KernelIdeal
import proofs.«158813_j31396210933902_1_alg».proof.Proof.Gen.KernelIdeal.Skeleton
import proofs.«158813_j31396210933902_1_alg».proof.Proof.Gen.KernelIdeal.Launch
import proofs.«158813_j31396210933902_1_alg».proof.Proof.Gen.KernelIdeal.Points
import proofs.«158813_j31396210933902_1_alg».proof.Proof.Gen.KernelIdeal.Frame
import proofs.«158813_j31396210933902_1_alg».proof.Proof.Gen.ReferenceIdeal
import proofs.«158813_j31396210933902_1_alg».proof.Proof.Gen.Pre_finite_inputs
import proofs.«158813_j31396210933902_1_alg».proof.Proof.RefRead
import proofs.«158813_j31396210933902_1_alg».proof.Proof.ChainRun
import proofs.«158813_j31396210933902_1_alg».proof.Proof.FiniteArgs
import proofs.«158813_j31396210933902_1_alg».proof.Proof.Bridge
import Idealize.ShloMosaic.Adequacy
import Idealize.ShloMosaic.Init

set_option maxRecDepth 16384

noncomputable section

namespace Cert.Proof

open Idealize.ShloMosaic Idealize.SL.Sem

/-- The word-level kernel program runs with its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the kernel program read on the extended reals. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference runs with its arguments unchanged: its run read back, the two results dropped. -/
theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.ValueP.run (F := Ideal) m ρ)

/-- From memories agreeing on the sixteen arguments, both programs end with the same two result arrays: the kernel's
    run leaves explicit functions of the arguments (its last boundary's contents walked back to the launch); the
    reference's run leaves its composed terms; and the two are the same functions of finite inputs. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.KernelIdeal.Val.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.KernelIdeal.Val.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    Cert.KernelIdeal.Val.run m ρ, ?_⟩
  refine (θ_run Cert.ReferenceIdeal.defs _ _).mono (fun r h c => ?_) (Cert.ReferenceIdeal.ValueP.run (F := Ideal) m' ρ')
  obtain ⟨r0, r1, r2, r3, r4, r5, r6, r7, r8, -, -, -, -⟩ := Cert.KernelIdeal.Val.args_real m hpre c
  obtain ⟨a0, a1, a2, a3, a4, a5, a6, a7, a8, a9, a10, a11, a12, a13, a14, a15⟩ := hagree c
  refine ⟨(h c).1.trans ?_, (h c).2.1.trans ?_, (h c).2.2⟩
  · rw [Cert.ReferenceIdeal.ReadP.val_main_v233_eq, a0, a1, a2, a3, a4, a5, a6, a7, a8, a9, a10, a13, a14, a15]
    exact (Cert.Bridge.out0_eq _ _ _ _ _ _ _ _ _ _ _ _ _ _ r0 r1 r2 r3 r4 r5 r6 r7 r8).symm
  · rw [Cert.ReferenceIdeal.ReadP.val_main_v237_eq, a0, a1, a2, a3, a4, a5, a6, a7, a8, a11, a12, a13, a14, a15]
    exact (Cert.Bridge.out1_eq _ _ _ _ _ _ _ _ _ _ _ _ _ _ r0 r1 r2 r3 r4 r5 r6 r7 r8).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
